-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S128x32 .f32) (main_arg10 : FVec F S32 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S2x128x128 .f32) (main_arg7 : FVec F S2x128 .f32) (main_arg8 : FVec F S2x128x128 .f32) (main_arg9 : FVec F S128x32 .f32) (main_arg10 : FVec F S32 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S2x128x128 .f32) (main_arg4 : FVec F S2x128 .f32) (main_arg5 : FVec F S2x128x128 .f32) (main_arg6 : FVec F S2x128x128 .f32) (main_arg7 : FVec F S2x128 .f32) (main_arg8 : FVec F S2x128x128 .f32) (main_arg9 : FVec F S128x32 .f32) (main_arg10 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S128 : Shape := ⟨1, ![128]⟩
abbrev S1x128 : Shape := ⟨2, ![1, 128]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S5000x128 : Shape := ⟨2, ![5000, 128]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S1x32 : Shape := ⟨2, ![1, 32]⟩
abbrev S64x32 : Shape := ⟨2, ![64, 32]⟩

abbrev nBuf : Space → Nat
  | .hbm => 168
  | .vmem => 40
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S2x128x128, .f32⟩
  | 4 => ⟨S2x128, .f32⟩
  | 5 => ⟨S2x128x128, .f32⟩
  | 6 => ⟨S2x128x128, .f32⟩
  | 7 => ⟨S2x128, .f32⟩
  | 8 => ⟨S2x128x128, .f32⟩
  | 9 => ⟨S128x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S50000x128, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S_, .f32⟩
  | 100 => ⟨S50000, .f32⟩
  | 101 => ⟨S50000, .f32⟩
  | 102 => ⟨S50000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000x128, .f32⟩
  | 117 => ⟨S50000x128, .f32⟩
  | 118 => ⟨S1x128x128, .f32⟩
  | 119 => ⟨S128x128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S50000x128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x128, .f32⟩
  | 12 => ⟨S50000x128, .f32⟩
  | 13 => ⟨S1x128x128, .f32⟩
  | 14 => ⟨S128x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S50000x128, .f32⟩
  | 21 => ⟨S_, .f32⟩
  | 22 => ⟨S64x128, .f32⟩
  | 23 => ⟨S50000x1, .i32⟩
  | 24 => ⟨S64x128, .f32⟩
  | 25 => ⟨S_, .f32⟩
  | 26 => ⟨S50000, .f32⟩
  | 27 => ⟨S_, .f32⟩
  | 28 => ⟨S64, .f32⟩
  | 29 => ⟨S50000x1, .i32⟩
  | 30 => ⟨S64, .f32⟩
  | 31 => ⟨S_, .f32⟩
  | 32 => ⟨S_, .f32⟩
  | 33 => ⟨S64, .f32⟩
  | 34 => ⟨S64, .f32⟩
  | 35 => ⟨S64x1, .f32⟩
  | 36 => ⟨S64x128, .f32⟩
  | 37 => ⟨S64x128, .f32⟩
  | 38 => ⟨S1x32, .f32⟩
  | 39 => ⟨S64x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S64x128, .f32⟩
  | .local _ .vmem, ⟨37, _⟩ => ⟨S128x32, .f32⟩
  | .local _ .vmem, ⟨38, _⟩ => ⟨S1x32, .f32⟩
  | .local _ .vmem, ⟨39, _⟩ => ⟨S64x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_1 : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_4 : Ref sig .tc := ⟨.hbm, 71, rfl⟩
abbrev main_v32 : Ref sig .tc := ⟨.hbm, 72, rfl⟩
abbrev main_v33 : Ref sig .tc := ⟨.hbm, 73, rfl⟩
abbrev main_c_5 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_7 : Ref sig .tc := ⟨.hbm, 92, rfl⟩
abbrev main_v50 : Ref sig .tc := ⟨.hbm, 93, rfl⟩
abbrev main_cst_8 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_9 : Ref sig .tc := ⟨.hbm, 98, rfl⟩
abbrev main_call1_v0 : Ref sig .tc := ⟨.hbm, 99, rfl⟩
abbrev main_call1_v1 : Ref sig .tc := ⟨.hbm, 100, rfl⟩
abbrev main_v54 : Ref sig .tc := ⟨.hbm, 101, rfl⟩
abbrev main_v55 : Ref sig .tc := ⟨.hbm, 102, rfl⟩
abbrev main_c_10 : Ref sig .tc := ⟨.hbm, 103, rfl⟩
abbrev main_v56 : Ref sig .tc := ⟨.hbm, 104, rfl⟩
abbrev main_v57 : Ref sig .tc := ⟨.hbm, 105, rfl⟩
abbrev main_c_11 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_12 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_13 : Ref sig .tc := ⟨.hbm, 126, rfl⟩
abbrev main_v76 : Ref sig .tc := ⟨.hbm, 127, rfl⟩
abbrev main_v77 : Ref sig .tc := ⟨.hbm, 128, rfl⟩
abbrev main_c_14 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_15 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_16 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_17 : Ref sig .tc := ⟨.hbm, 153, rfl⟩
abbrev main_v99 : Ref sig .tc := ⟨.hbm, 154, rfl⟩
abbrev main_cst_18 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_19 : Ref sig .tc := ⟨.hbm, 159, rfl⟩
abbrev main_call2_v0 : Ref sig .tc := ⟨.hbm, 160, rfl⟩
abbrev main_call2_v1 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S32_S1x32 : S32.ShapeCasts S1x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x32.size a ≤ S128x32.size a
  hwx4_1 : ∀ i : grid4.Coords, EltTy.bits .f32 = 32 ∨ (Rect.block (s := S128x32) S128x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v87) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v106) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S64x32.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S128 : Shape := ⟨1, ![128]⟩
abbrev S1x128 : Shape := ⟨2, ![1, 128]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S50000x1 : Shape := ⟨2, ![50000, 1]⟩
abbrev S64x128 : Shape := ⟨2, ![64, 128]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S2x128x128, .f32⟩
  | 4 => ⟨S2x128, .f32⟩
  | 5 => ⟨S2x128x128, .f32⟩
  | 6 => ⟨S2x128x128, .f32⟩
  | 7 => ⟨S2x128, .f32⟩
  | 8 => ⟨S2x128x128, .f32⟩
  | 9 => ⟨S128x32, .f32⟩
  | 10 => ⟨S32, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S_, .f32⟩
  | 113 => ⟨S_, .f32⟩
  | 114 => ⟨S50000, .f32⟩
  | 115 => ⟨S50000, .f32⟩
  | 116 => ⟨S50000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S_, .f32⟩
  | 127 => ⟨S50000x128, .f32⟩
  | _ => ⟨S50000x128, .f32⟩

abbrev hbmTy0_1 (i : Nat) : BufTy := match i % 128 with
  | 0 => ⟨S800000x1, .i32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S1x128x128, .f32⟩
  | 13 => ⟨S128x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S1x128x128, .f32⟩
  | 43 => ⟨S128x128, .f32⟩
  | 44 => ⟨S50000x128, .f32⟩
  | 45 => ⟨S50000x128, .f32⟩
  | 46 => ⟨S_, .f32⟩
  | 47 => ⟨S64x128, .f32⟩
  | 48 => ⟨S50000x1, .i32⟩
  | 49 => ⟨S64x128, .f32⟩
  | 50 => ⟨S_, .f32⟩
  | 51 => ⟨S50000, .f32⟩
  | 52 => ⟨S_, .f32⟩
  | 53 => ⟨S64, .f32⟩
  | 54 => ⟨S50000x1, .i32⟩
  | 55 => ⟨S64, .f32⟩
  | 56 => ⟨S_, .f32⟩
  | 57 => ⟨S_, .f32⟩
  | 58 => ⟨S64, .f32⟩
  | 59 => ⟨S64, .f32⟩
  | 60 => ⟨S64x1, .f32⟩
  | 61 => ⟨S64x128, .f32⟩
  | 62 => ⟨S64x128, .f32⟩
  | 63 => ⟨S64x32, .f32⟩
  | 64 => ⟨S1x32, .f32⟩
  | 65 => ⟨S64x32, .f32⟩
  | 66 => ⟨S64x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c_1 : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call1_cst : Ref sig .tc := ⟨.hbm, 75, rfl⟩
abbrev main_call1_v0 : Ref sig .tc := ⟨.hbm, 76, rfl⟩
abbrev main_v36 : Ref sig .tc := ⟨.hbm, 77, rfl⟩
abbrev main_c_4 : Ref sig .tc := ⟨.hbm, 78, rfl⟩
abbrev main_v37 : Ref sig .tc := ⟨.hbm, 79, rfl⟩
abbrev main_v38 : Ref sig .tc := ⟨.hbm, 80, rfl⟩
abbrev main_c_5 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_6 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call2_cst : Ref sig .tc := ⟨.hbm, 103, rfl⟩
abbrev main_call2_v0 : Ref sig .tc := ⟨.hbm, 104, rfl⟩
abbrev main_v59 : Ref sig .tc := ⟨.hbm, 105, rfl⟩
abbrev main_cst_7 : Ref sig .tc := ⟨.hbm, 106, rfl⟩
abbrev main_v60 : Ref sig .tc := ⟨.hbm, 107, rfl⟩
abbrev main_cst_8 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_9 : Ref sig .tc := ⟨.hbm, 112, rfl⟩
abbrev main_call3_v0 : Ref sig .tc := ⟨.hbm, 113, rfl⟩
abbrev main_call3_v1 : Ref sig .tc := ⟨.hbm, 114, rfl⟩
abbrev main_v64 : Ref sig .tc := ⟨.hbm, 115, rfl⟩
abbrev main_v65 : Ref sig .tc := ⟨.hbm, 116, rfl⟩
abbrev main_c_10 : Ref sig .tc := ⟨.hbm, 117, rfl⟩
abbrev main_v66 : Ref sig .tc := ⟨.hbm, 118, rfl⟩
abbrev main_v67 : Ref sig .tc := ⟨.hbm, 119, rfl⟩
abbrev main_c_11 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_12 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_call4_cst : Ref sig .tc := ⟨.hbm, 144, rfl⟩
abbrev main_call4_v0 : Ref sig .tc := ⟨.hbm, 145, rfl⟩
abbrev main_v90 : Ref sig .tc := ⟨.hbm, 146, rfl⟩
abbrev main_c_13 : Ref sig .tc := ⟨.hbm, 147, rfl⟩
abbrev main_v91 : Ref sig .tc := ⟨.hbm, 148, rfl⟩
abbrev main_v92 : Ref sig .tc := ⟨.hbm, 149, rfl⟩
abbrev main_c_14 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_15 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_16 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_cst_17 : Ref sig .tc := ⟨.hbm, 178, rfl⟩
abbrev main_v118 : Ref sig .tc := ⟨.hbm, 179, rfl⟩
abbrev main_cst_18 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_19 : Ref sig .tc := ⟨.hbm, 184, rfl⟩
abbrev main_call5_v0 : Ref sig .tc := ⟨.hbm, 185, rfl⟩
abbrev main_call5_v1 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.KernelRun.lean ====
/-
  The idealized kernel program's run with every buffer's final contents named.  Its host stretches and its
  five regions run in order from any memory with zero counters; every weakly fair execution terminates without
  a fault, and each buffer that lives across regions ends at the last boundary's contents: the fold, through
  the host stretches and the regions' write-backs, of the launch memory.
-/
import proofs.«172049_j60413009985910_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each
    buffer that is not scoped to a region at the contents the last boundary names. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W16 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c b hb => h c _ (mem_uc b hb))

end Cert.KernelIdeal.KRun

end
-- ==== Proof.RefRunOps.lean ====
/-
  The reference's @main as a list of host operations: its 152 statements in order, each call of a
  module-local function replaced by that function's operations over the call's own buffers (a call inside a
  function likewise), 184 operations in all.  The list is cut into ten consecutive stretches at the points
  where the computation passes from an aggregation to a dense step and back; `ops` is their concatenation.
  For every stretch: each operation touches TensorCore references only, none allocates a buffer, and the
  references it writes are listed (none of them an argument of @main).
-/
import proofs.«172049_j60413009985910_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The node features standardised column by column (the mean, then the standard deviation through the variance with its guarded divisor), the source and target index rows, and the first layer's aggregate: the standardised rows gathered at the (wrapped) source indices and added up at the target indices. (52 operations, `main_v0` … `main_v23`.) -/
abbrev rA0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x00000000#32),
    StableHlo.binary main_arg0 main_cst main_v4 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_0 (constant S_ .f32 0x47435000#32),
    StableHlo.unary main_cst_0 main_v5 (broadcastInDim S128 ![] bcast_S_S128 : (⟨S_, .f32⟩ : BufTy).Contents (Elt F) → (⟨S128, .f32⟩ : BufTy).Contents (Elt F)),
    StableHlo.binary main_v4 main_v5 main_v6 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary (.of main_call0_call0_cst : StableHlo.TRef sig ⟨S_, .f32⟩) (constant S_ .f32 0x00000000#32),
    StableHlo.TRef.binary (.of main_arg0 : StableHlo.TRef sig ⟨S50000x128, .f32⟩) (.of main_call0_call0_cst : StableHlo.TRef sig ⟨S_, .f32⟩) (.of main_call0_call0_v0 : StableHlo.TRef sig ⟨S128, .f32⟩) (fun x v => Host.reduceAdd x v reducesTo_S50000x128_S128_d0 h_S_),
    StableHlo.TRef.unary (.of main_call0_call0_v0 : StableHlo.TRef sig ⟨S128, .f32⟩) (.of main_call0_call0_v1 : StableHlo.TRef sig ⟨S1x128, .f32⟩) (broadcastInDim S1x128 ![1] bcast_S128_S1x128_1),
    StableHlo.TRef.nullary (.of main_call0_call0_cst_0 : StableHlo.TRef sig ⟨S_, .f32⟩) (constant S_ .f32 0x47435000#32),
    StableHlo.TRef.unary (.of main_call0_call0_cst_0 : StableHlo.TRef sig ⟨S_, .f32⟩) (.of main_call0_call0_v2 : StableHlo.TRef sig ⟨S1x128, .f32⟩) (broadcastInDim S1x128 ![] bcast_S_S1x128),
    StableHlo.TRef.binary (.of main_call0_call0_v1 : StableHlo.TRef sig ⟨S1x128, .f32⟩) (.of main_call0_call0_v2 : StableHlo.TRef sig ⟨S1x128, .f32⟩) (.of main_call0_call0_v3 : StableHlo.TRef sig ⟨S1x128, .f32⟩) Host.divf,
    StableHlo.TRef.unary (.of main_call0_call0_v3 : StableHlo.TRef sig ⟨S1x128, .f32⟩) (.of main_call0_call0_v4 : StableHlo.TRef sig ⟨S50000x128, .f32⟩) (broadcastInDim S50000x128 ![0, 1] bcast_S1x128_S50000x128_0_1),
    StableHlo.TRef.binary (.of main_arg0 : StableHlo.TRef sig ⟨S50000x128, .f32⟩) (.of main_call0_call0_v4 : StableHlo.TRef sig ⟨S50000x128, .f32⟩) (.of main_call0_call0_v5 : StableHlo.TRef sig ⟨S50000x128, .f32⟩) subf,
    StableHlo.TRef.binary (.of main_call0_call0_v5 : StableHlo.TRef sig ⟨S50000x128, .f32⟩) (.of main_call0_call0_v5 : StableHlo.TRef sig ⟨S50000x128, .f32⟩) (.of main_call0_call0_v6 : StableHlo.TRef sig ⟨S50000x128, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x47435000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S50000x128, .f32⟩) (.of main_call0_call0_cst_2 : StableHlo.TRef sig ⟨S_, .f32⟩) (.of main_call0_call0_v9 : StableHlo.TRef sig ⟨S128, .f32⟩) (fun x v => Host.reduceAdd x v reducesTo_S50000x128_S128_d0 h_S_),
    StableHlo.TRef.unary (.of main_call0_call0_v8 : StableHlo.TRef sig ⟨S_, .f32⟩) (.of main_call0_call0_v10 : StableHlo.TRef sig ⟨S128, .f32⟩) (broadcastInDim S128 ![] bcast_S_S128),
    StableHlo.TRef.binary (.of main_call0_call0_v9 : StableHlo.TRef sig ⟨S128, .f32⟩) (.of main_call0_call0_v10 : StableHlo.TRef sig ⟨S128, .f32⟩) (.of main_call0_call0_v11 : StableHlo.TRef sig ⟨S128, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v12 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.unary (.of main_call0_call0_call0_v0 : StableHlo.TRef sig ⟨S_, .f32⟩) (.of main_call0_call0_call0_v1 : StableHlo.TRef sig ⟨S128, .f32⟩) (broadcastInDim S128 ![] bcast_S_S128),
    StableHlo.TRef.ternary (.of main_call0_call0_v12 : StableHlo.TRef sig ⟨S_, .i1⟩) (.of main_call0_call0_v11 : StableHlo.TRef sig ⟨S128, .f32⟩) (.of main_call0_call0_call0_v1 : StableHlo.TRef sig ⟨S128, .f32⟩) (.of main_call0_v0 : StableHlo.TRef sig ⟨S128, .f32⟩) (fun p a b => select (broadcastInDim S128 ![] bcast_S_S128 p) a b),
    StableHlo.TRef.unary (.of main_call0_v0 : StableHlo.TRef sig ⟨S128, .f32⟩) (.of main_v7 : StableHlo.TRef sig ⟨S128, .f32⟩) Host.sqrt,
    StableHlo.unary main_v6 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v9 main_v10 (subf : (⟨S50000x128, .f32⟩ : BufTy).Contents (Elt F) → (⟨S50000x128, .f32⟩ : BufTy).Contents (Elt F) → (⟨S50000x128, .f32⟩ : BufTy).Contents (Elt F)),
    StableHlo.unary main_v7 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (Host.divf : (⟨S50000x128, .f32⟩ : BufTy).Contents (Elt F) → (⟨S50000x128, .f32⟩ : BufTy).Contents (Elt F) → (⟨S50000x128, .f32⟩ : BufTy).Contents (Elt F)),
    StableHlo.nullary main_c_1 (constantI S_ 32 0#32),
    StableHlo.unary main_c_1 main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_3 (constant S_ .f32 0x00000000#32),
    StableHlo.unary main_cst_3 main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- Each operation of `rA0` touches TensorCore references only. -/
theorem rA0_sub : (rA0 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
/-- No operation of `rA0` allocates a buffer. -/
theorem rA0_fresh : (rA0 : List (HloOp τ sig (Elt F))).Forall fun op => op.fresh = ∅ := by
  simp only [List.Forall]; repeat' constructor
/-- The references `rA0`'s operations write, in order. -/
abbrev rA0_W : List (Ref sig .tc) := [main_v0, main_v1, main_v2, main_v3, main_cst, main_v4, main_cst_0, main_v5, main_v6, main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v7, main_v8, main_v9, main_v10, main_v11, main_v12, main_v13, main_c_1, main_v14, main_v15, main_c_2, main_v16, main_v17, main_v18, main_v19, main_v20, main_cst_3, main_v21, main_v22, main_v23]
/-- Every operation of `rA0` writes inside that list. -/
theorem rA0_writes : (rA0 : List (HloOp τ sig (Elt F))).Forall fun op => op.writes ⊆ (rA0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The first layer's dense step on that aggregate and the standardised features: two products, the bias row repeated, the sum, then the maximum with zero. (15 operations, `main_v24` … `main_v36`.) -/
abbrev rB0 : List (HloOp τ sig (Elt F)) :=
  [ StableHlo.unary main_arg3 main_v24 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v24 main_v25 rfl shapeCasts_S1x128x128_S128x128,
    StableHlo.binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v27 ((extractStridedSlice S1x128 ![0, 0] · slices_S2x128_S1x128_0_0) : (⟨S2x128, .f32⟩ : BufTy).Contents (Elt F) → (⟨S1x128, .f32⟩ : BufTy).Contents (Elt F)),
    StableHlo.reshape main_v27 main_v28 rfl shapeCasts_S1x128_S128,
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v30 main_v31 (addf : (⟨S50000x128, .f32⟩ : BufTy).Contents (Elt F) → (⟨S50000x128, .f32⟩ : BufTy).Contents (Elt F) → (⟨S50000x128, .f32⟩ : BufTy).Contents (Elt F)),
    StableHlo.unary main_arg5 main_v32 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v32 main_v33 rfl shapeCasts_S1x128x128_S128x128,
    StableHlo.binary main_v13 main_v33 main_v34 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v31 main_v34 main_v35 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v35 : StableHlo.TRef sig ⟨S50000x128, .f32⟩) (.of main_call1_v0 : StableHlo.TRef sig ⟨S50000x128, .f32⟩) (.of main_v36 : StableHlo.TRef sig ⟨S50000x128, .f32⟩) maximumf ]
/-- Each operation of `rB0` touches TensorCore references only. -/
theorem rB0_sub : (rB0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub ..⟩
/-- No operation of `rB0` allocates a buffer. -/
theorem rB0_fresh : (rB0 : List (HloOp τ sig (Elt F))).Forall fun op => op.fresh = ∅ := by
  simp only [List.Forall]; repeat' constructor
/-- The references `rB0`'s operations write, in order. -/
abbrev rB0_W : List (Ref sig .tc) := [main_v24, main_v25, main_v26, main_v27, main_v28, main_v29, main_v30, main_v31, main_v32, main_v33, main_v34, main_v35, main_call1_cst, main_call1_v0, main_v36]
/-- Every operation of `rB0` writes inside that list. -/
theorem rB0_writes : (rB0 : List (HloOp τ sig (Elt F))).Forall fun op => op.writes ⊆ (rB0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second sum-layer's aggregate: the first layer's output gathered at the source indices and added up at the target indices. (13 operations, `main_c_4` … `main_v46`.) -/
abbrev rA1 : List (HloOp τ sig (Elt F)) :=
  [ StableHlo.nullary main_c_4 (constantI S_ 32 0#32),
    StableHlo.unary main_c_4 main_v37 (broadcastInDim S800000 ![] bcast_S_S800000 : (⟨S_, .i32⟩ : BufTy).Contents (Elt F) → (⟨S800000, .i32⟩ : BufTy).Contents (Elt F)),
    StableHlo.binary main_v1 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v39 (broadcastInDim S800000 ![] bcast_S_S800000 : (⟨S_, .i32⟩ : BufTy).Contents (Elt F) → (⟨S800000, .i32⟩ : BufTy).Contents (Elt F)),
    StableHlo.binary main_v1 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_v36 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v44 (broadcastInDim S50000x128 ![] bcast_S_S50000x128 : (⟨S_, .f32⟩ : BufTy).Contents (Elt F) → (⟨S50000x128, .f32⟩ : BufTy).Contents (Elt F)),
    StableHlo.unary main_v3 main_v45 (broadcastInDim S800000x1 ![0] bcast_S800000_S800000x1_0 : (⟨S800000, .i32⟩ : BufTy).Contents (Elt F) → (⟨S800000x1, .i32⟩ : BufTy).Contents (Elt F)),
    StableHlo.ternary main_v44 main_v45 main_v43 main_v46 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- Each operation of `rA1` touches TensorCore references only. -/
theorem rA1_sub : (rA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
/-- No operation of `rA1` allocates a buffer. -/
theorem rA1_fresh : (rA1 : List (HloOp τ sig (Elt F))).Forall fun op => op.fresh = ∅ := by
  simp only [List.Forall]; repeat' constructor
/-- The references `rA1`'s operations write, in order. -/
abbrev rA1_W : List (Ref sig .tc) := [main_c_4, main_v37, main_v38, main_c_5, main_v39, main_v40, main_v41, main_v42, main_v43, main_cst_6, main_v44, main_v45, main_v46]
/-- Every operation of `rA1` writes inside that list. -/
theorem rA1_writes : (rA1 : List (HloOp τ sig (Elt F))).Forall fun op => op.writes ⊆ (rA1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second sum-layer's dense step, then the maximum with zero. (15 operations, `main_v47` … `main_v59`.) -/
abbrev rB1 : List (HloOp τ sig (Elt F)) :=
  [ StableHlo.unary main_arg3 main_v47 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v50 ((extractStridedSlice S1x128 ![1, 0] · slices_S2x128_S1x128_1_0) : (⟨S2x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.unary main_arg5 main_v55 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v55 main_v56 rfl shapeCasts_S1x128x128_S128x128,
    StableHlo.binary main_v36 main_v56 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v54 main_v57 main_v58 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v58 : StableHlo.TRef sig ⟨S50000x128, .f32⟩) (.of main_call2_v0 : StableHlo.TRef sig ⟨S50000x128, .f32⟩) (.of main_v59 : StableHlo.TRef sig ⟨S50000x128, .f32⟩) maximumf ]
/-- Each operation of `rB1` touches TensorCore references only. -/
theorem rB1_sub : (rB1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub ..⟩
/-- No operation of `rB1` allocates a buffer. -/
theorem rB1_fresh : (rB1 : List (HloOp τ sig (Elt F))).Forall fun op => op.fresh = ∅ := by
  simp only [List.Forall]; repeat' constructor
/-- The references `rB1`'s operations write, in order. -/
abbrev rB1_W : List (Ref sig .tc) := [main_v47, main_v48, main_v49, main_v50, main_v51, main_v52, main_v53, main_v54, main_v55, main_v56, main_v57, main_v58, main_call2_cst, main_call2_v0, main_v59]
/-- Every operation of `rB1` writes inside that list. -/
theorem rB1_writes : (rB1 : List (HloOp τ sig (Elt F))).Forall fun op => op.writes ⊆ (rB1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The in-degree of every node (ones added up at the target indices) bounded below by one, and the first mean-layer's aggregate: the gathered rows added up at the targets, divided by the degree. (26 operations, `main_cst_7` … `main_v77`.) -/
abbrev rA2 : List (HloOp τ sig (Elt F)) :=
  [ StableHlo.nullary main_cst_7 (constant S_ .f32 0x3F800000#32),
    StableHlo.unary main_cst_7 main_v60 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v61 (broadcastInDim S50000 ![] bcast_S_S50000 : (⟨S_, .f32⟩ : BufTy).Contents (Elt F) → (⟨S50000, .f32⟩ : BufTy).Contents (Elt F)),
    StableHlo.unary main_v3 main_v62 (broadcastInDim S800000x1 ![0] bcast_S800000_S800000x1_0 : (⟨S800000, .i32⟩ : BufTy).Contents (Elt F) → (⟨S800000x1, .i32⟩ : BufTy).Contents (Elt F)),
    StableHlo.ternary main_v61 main_v62 main_v60 main_v63 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.TRef.unary (.of main_cst_9 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.binary (.of main_call3_v1 : StableHlo.TRef sig ⟨S50000, .f32⟩) (.of main_v63 : StableHlo.TRef sig ⟨S50000, .f32⟩) (.of main_v64 : StableHlo.TRef sig ⟨S50000, .f32⟩) maximumf,
    StableHlo.unary main_v64 main_v65 (broadcastInDim S50000x1 ![0] bcast_S50000_S50000x1_0 : (⟨S50000, .f32⟩ : BufTy).Contents (Elt F) → (⟨S50000x1, .f32⟩ : BufTy).Contents (Elt F)),
    StableHlo.nullary main_c_10 (constantI S_ 32 0#32),
    StableHlo.unary main_c_10 main_v66 (broadcastInDim S800000 ![] bcast_S_S800000 : (⟨S_, .i32⟩ : BufTy).Contents (Elt F) → (⟨S800000, .i32⟩ : BufTy).Contents (Elt F)),
    StableHlo.binary main_v1 main_v66 main_v67 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v68 (broadcastInDim S800000 ![] bcast_S_S800000 : (⟨S_, .i32⟩ : BufTy).Contents (Elt F) → (⟨S800000, .i32⟩ : BufTy).Contents (Elt F)),
    StableHlo.binary main_v1 main_v68 main_v69 (addi : (⟨S800000, .i32⟩ : BufTy).Contents (Elt F) → (⟨S800000, .i32⟩ : BufTy).Contents (Elt F) → (⟨S800000, .i32⟩ : BufTy).Contents (Elt F)),
    StableHlo.ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v70 main_v71 (broadcastInDim S800000x1 ![0] bcast_S800000_S800000x1_0 : (⟨S800000, .i32⟩ : BufTy).Contents (Elt F) → (⟨S800000x1, .i32⟩ : BufTy).Contents (Elt F)),
    StableHlo.binary main_v59 main_v71 main_v72 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v73 (broadcastInDim S50000x128 ![] bcast_S_S50000x128 : (⟨S_, .f32⟩ : BufTy).Contents (Elt F) → (⟨S50000x128, .f32⟩ : BufTy).Contents (Elt F)),
    StableHlo.unary main_v3 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v65 main_v76 (broadcastInDim S50000x128 ![0, 1] bcast_S50000x1_S50000x128_0_1 : (⟨S50000x1, .f32⟩ : BufTy).Contents (Elt F) → (⟨S50000x128, .f32⟩ : BufTy).Contents (Elt F)),
    StableHlo.binary main_v75 main_v76 main_v77 (Host.divf : (⟨S50000x128, .f32⟩ : BufTy).Contents (Elt F) → (⟨S50000x128, .f32⟩ : BufTy).Contents (Elt F) → (⟨S50000x128, .f32⟩ : BufTy).Contents (Elt F)) ]
/-- Each operation of `rA2` touches TensorCore references only. -/
theorem rA2_sub : (rA2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
/-- No operation of `rA2` allocates a buffer. -/
theorem rA2_fresh : (rA2 : List (HloOp τ sig (Elt F))).Forall fun op => op.fresh = ∅ := by
  simp only [List.Forall]; repeat' constructor
/-- The references `rA2`'s operations write, in order. -/
abbrev rA2_W : List (Ref sig .tc) := [main_cst_7, main_v60, main_cst_8, main_v61, main_v62, main_v63, main_cst_9, main_call3_v0, main_call3_v1, main_v64, main_v65, main_c_10, main_v66, main_v67, main_c_11, main_v68, main_v69, main_v70, main_v71, main_v72, main_cst_12, main_v73, main_v74, main_v75, main_v76, main_v77]
/-- Every operation of `rA2` writes inside that list. -/
theorem rA2_writes : (rA2 : List (HloOp τ sig (Elt F))).Forall fun op => op.writes ⊆ (rA2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The first mean-layer's dense step, then the maximum with zero. (15 operations, `main_v78` … `main_v90`.) -/
abbrev rB2 : List (HloOp τ sig (Elt F)) :=
  [ StableHlo.unary main_arg6 main_v78 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v78 main_v79 rfl shapeCasts_S1x128x128_S128x128,
    StableHlo.binary main_v77 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v81 ((extractStridedSlice S1x128 ![0, 0] · slices_S2x128_S1x128_0_0) : (⟨S2x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v84 main_v85 (addf : (⟨S50000x128, .f32⟩ : BufTy).Contents (Elt F) → (⟨S50000x128, .f32⟩ : BufTy).Contents (Elt F) → (⟨S50000x128, .f32⟩ : BufTy).Contents (Elt F)),
    StableHlo.unary main_arg8 main_v86 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v86 main_v87 rfl shapeCasts_S1x128x128_S128x128,
    StableHlo.binary main_v59 main_v87 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v85 main_v88 main_v89 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x128, .f32⟩) (broadcastInDim S50000x128 ![] bcast_S_S50000x128),
    StableHlo.TRef.binary (.of main_v89 : StableHlo.TRef sig ⟨S50000x128, .f32⟩) (.of main_call4_v0 : StableHlo.TRef sig ⟨S50000x128, .f32⟩) (.of main_v90 : StableHlo.TRef sig ⟨S50000x128, .f32⟩) maximumf ]
/-- Each operation of `rB2` touches TensorCore references only. -/
theorem rB2_sub : (rB2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., unary_bufs_sub .., binary_bufs_sub ..⟩
/-- No operation of `rB2` allocates a buffer. -/
theorem rB2_fresh : (rB2 : List (HloOp τ sig (Elt F))).Forall fun op => op.fresh = ∅ := by
  simp only [List.Forall]; repeat' constructor
/-- The references `rB2`'s operations write, in order. -/
abbrev rB2_W : List (Ref sig .tc) := [main_v78, main_v79, main_v80, main_v81, main_v82, main_v83, main_v84, main_v85, main_v86, main_v87, main_v88, main_v89, main_call4_cst, main_call4_v0, main_v90]
/-- Every operation of `rB2` writes inside that list. -/
theorem rB2_writes : (rB2 : List (HloOp τ sig (Elt F))).Forall fun op => op.writes ⊆ (rB2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second mean-layer's aggregate, divided by the same degree. (15 operations, `main_c_13` … `main_v102`.) -/
abbrev rA3 : List (HloOp τ sig (Elt F)) :=
  [ StableHlo.nullary main_c_13 (constantI S_ 32 0#32),
    StableHlo.unary main_c_13 main_v91 (broadcastInDim S800000 ![] bcast_S_S800000 : (⟨S_, .i32⟩ : BufTy).Contents (Elt F) → (⟨S800000, .i32⟩ : BufTy).Contents (Elt F)),
    StableHlo.binary main_v1 main_v91 main_v92 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v93 (broadcastInDim S800000 ![] bcast_S_S800000 : (⟨S_, .i32⟩ : BufTy).Contents (Elt F) → (⟨S800000, .i32⟩ : BufTy).Contents (Elt F)),
    StableHlo.binary main_v1 main_v93 main_v94 (addi : (⟨S800000, .i32⟩ : BufTy).Contents (Elt F) → (⟨S800000, .i32⟩ : BufTy).Contents (Elt F) → (⟨S800000, .i32⟩ : BufTy).Contents (Elt F)),
    StableHlo.ternary main_v92 main_v94 main_v1 main_v95 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v95 main_v96 (broadcastInDim S800000x1 ![0] bcast_S800000_S800000x1_0 : (⟨S800000, .i32⟩ : BufTy).Contents (Elt F) → (⟨S800000x1, .i32⟩ : BufTy).Contents (Elt F)),
    StableHlo.binary main_v90 main_v96 main_v97 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_15 (constant S_ .f32 0x00000000#32),
    StableHlo.unary main_cst_15 main_v98 (broadcastInDim S50000x128 ![] bcast_S_S50000x128 : (⟨S_, .f32⟩ : BufTy).Contents (Elt F) → (⟨S50000x128, .f32⟩ : BufTy).Contents (Elt F)),
    StableHlo.unary main_v3 main_v99 (broadcastInDim S800000x1 ![0] bcast_S800000_S800000x1_0 : (⟨S800000, .i32⟩ : BufTy).Contents (Elt F) → (⟨S800000x1, .i32⟩ : BufTy).Contents (Elt F)),
    StableHlo.ternary main_v98 main_v99 main_v97 main_v100 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v65 main_v101 (broadcastInDim S50000x128 ![0, 1] bcast_S50000x1_S50000x128_0_1 : (⟨S50000x1, .f32⟩ : BufTy).Contents (Elt F) → (⟨S50000x128, .f32⟩ : BufTy).Contents (Elt F)),
    StableHlo.binary main_v100 main_v101 main_v102 (Host.divf : (⟨S50000x128, .f32⟩ : BufTy).Contents (Elt F) → (⟨S50000x128, .f32⟩ : BufTy).Contents (Elt F) → (⟨S50000x128, .f32⟩ : BufTy).Contents (Elt F)) ]
/-- Each operation of `rA3` touches TensorCore references only. -/
theorem rA3_sub : (rA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
/-- No operation of `rA3` allocates a buffer. -/
theorem rA3_fresh : (rA3 : List (HloOp τ sig (Elt F))).Forall fun op => op.fresh = ∅ := by
  simp only [List.Forall]; repeat' constructor
/-- The references `rA3`'s operations write, in order. -/
abbrev rA3_W : List (Ref sig .tc) := [main_c_13, main_v91, main_v92, main_c_14, main_v93, main_v94, main_v95, main_v96, main_v97, main_cst_15, main_v98, main_v99, main_v100, main_v101, main_v102]
/-- Every operation of `rA3` writes inside that list. -/
theorem rA3_writes : (rA3 : List (HloOp τ sig (Elt F))).Forall fun op => op.writes ⊆ (rA3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The second mean-layer's dense step (no maximum). (12 operations, `main_v103` … `main_v114`.) -/
abbrev rB3 : List (HloOp τ sig (Elt F)) :=
  [ StableHlo.unary main_arg6 main_v103 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v103 main_v104 rfl shapeCasts_S1x128x128_S128x128,
    StableHlo.binary main_v102 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v106 ((extractStridedSlice S1x128 ![1, 0] · slices_S2x128_S1x128_1_0) : (⟨S2x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.unary main_arg8 main_v111 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v111 main_v112 rfl shapeCasts_S1x128x128_S128x128,
    StableHlo.binary main_v90 main_v112 main_v113 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v110 main_v113 main_v114 (addf : (⟨S50000x128, .f32⟩ : BufTy).Contents (Elt F) → (⟨S50000x128, .f32⟩ : BufTy).Contents (Elt F) → (⟨S50000x128, .f32⟩ : BufTy).Contents (Elt F)) ]
/-- Each operation of `rB3` touches TensorCore references only. -/
theorem rB3_sub : (rB3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub ..⟩
/-- No operation of `rB3` allocates a buffer. -/
theorem rB3_fresh : (rB3 : List (HloOp τ sig (Elt F))).Forall fun op => op.fresh = ∅ := by
  simp only [List.Forall]; repeat' constructor
/-- The references `rB3`'s operations write, in order. -/
abbrev rB3_W : List (Ref sig .tc) := [main_v103, main_v104, main_v105, main_v106, main_v107, main_v108, main_v109, main_v110, main_v111, main_v112, main_v113, main_v114]
/-- Every operation of `rB3` writes inside that list. -/
theorem rB3_writes : (rB3 : List (HloOp τ sig (Elt F))).Forall fun op => op.writes ⊆ (rB3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The pooling: the node rows added up per graph, the graph sizes (ones added up per graph) bounded below by one, and the quotient. (17 operations, `main_cst_16` … `main_v125`.) -/
abbrev rA4 : List (HloOp τ sig (Elt F)) :=
  [ StableHlo.nullary main_cst_16 (constant S_ .f32 0x00000000#32),
    StableHlo.unary main_cst_16 main_v115 (broadcastInDim S64x128 ![] bcast_S_S64x128 : (⟨S_, .f32⟩ : BufTy).Contents (Elt F) → (⟨S64x128, .f32⟩ : BufTy).Contents (Elt F)),
    StableHlo.unary main_arg2 main_v116 (broadcastInDim S50000x1 ![0] bcast_S50000_S50000x1_0 : (⟨S50000, .i32⟩ : BufTy).Contents (Elt F) → (⟨S50000x1, .i32⟩ : BufTy).Contents (Elt F)),
    StableHlo.ternary main_v115 main_v116 main_v114 main_v117 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_17 (constant S_ .f32 0x3F800000#32),
    StableHlo.unary main_cst_17 main_v118 (broadcastInDim S50000 ![] bcast_S_S50000 : (⟨S_, .f32⟩ : BufTy).Contents (Elt F) → (⟨S50000, .f32⟩ : BufTy).Contents (Elt F)),
    StableHlo.nullary main_cst_18 (constant S_ .f32 0x00000000#32),
    StableHlo.unary main_cst_18 main_v119 (broadcastInDim S64 ![] bcast_S_S64 : (⟨S_, .f32⟩ : BufTy).Contents (Elt F) → (⟨S64, .f32⟩ : BufTy).Contents (Elt F)),
    StableHlo.unary main_arg2 main_v120 (broadcastInDim S50000x1 ![0] bcast_S50000_S50000x1_0 : (⟨S50000, .i32⟩ : BufTy).Contents (Elt F) → (⟨S50000x1, .i32⟩ : BufTy).Contents (Elt F)),
    StableHlo.ternary main_v119 main_v120 main_v118 main_v121 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_19 (constant S_ .f32 0x3F800000#32),
    StableHlo.TRef.unary (.of main_cst_19 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S64, .f32⟩) (broadcastInDim S64 ![] bcast_S_S64),
    StableHlo.TRef.binary (.of main_call5_v1 : StableHlo.TRef sig ⟨S64, .f32⟩) (.of main_v121 : StableHlo.TRef sig ⟨S64, .f32⟩) (.of main_v122 : StableHlo.TRef sig ⟨S64, .f32⟩) maximumf,
    StableHlo.unary main_v122 main_v123 (broadcastInDim S64x1 ![0] bcast_S64_S64x1_0 : (⟨S64, .f32⟩ : BufTy).Contents (Elt F) → (⟨S64x1, .f32⟩ : BufTy).Contents (Elt F)),
    StableHlo.unary main_v123 main_v124 (broadcastInDim S64x128 ![0, 1] bcast_S64x1_S64x128_0_1 : (⟨S64x1, .f32⟩ : BufTy).Contents (Elt F) → (⟨S64x128, .f32⟩ : BufTy).Contents (Elt F)),
    StableHlo.binary main_v117 main_v124 main_v125 (Host.divf : (⟨S64x128, .f32⟩ : BufTy).Contents (Elt F) → (⟨S64x128, .f32⟩ : BufTy).Contents (Elt F) → (⟨S64x128, .f32⟩ : BufTy).Contents (Elt F)) ]
/-- Each operation of `rA4` touches TensorCore references only. -/
theorem rA4_sub : (rA4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub ..⟩
/-- No operation of `rA4` allocates a buffer. -/
theorem rA4_fresh : (rA4 : List (HloOp τ sig (Elt F))).Forall fun op => op.fresh = ∅ := by
  simp only [List.Forall]; repeat' constructor
/-- The references `rA4`'s operations write, in order. -/
abbrev rA4_W : List (Ref sig .tc) := [main_cst_16, main_v115, main_v116, main_v117, main_cst_17, main_v118, main_cst_18, main_v119, main_v120, main_v121, main_cst_19, main_call5_v0, main_call5_v1, main_v122, main_v123, main_v124, main_v125]
/-- Every operation of `rA4` writes inside that list. -/
theorem rA4_writes : (rA4 : List (HloOp τ sig (Elt F))).Forall fun op => op.writes ⊆ (rA4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The final projection of the 64 pooled rows: one product and the bias row repeated. (4 operations, `main_v126` … `main_v129`.) -/
abbrev rB4 : List (HloOp τ sig (Elt F)) :=
  [ StableHlo.binary main_v125 main_arg9 main_v126 ((fun l r => Host.dotGeneral dot_S64x128_S128x32_S64x32_1_0_0_1_n_n none l r) : (⟨S64x128, .f32⟩ : BufTy).Contents (Elt F) → (⟨S128x32, .f32⟩ : BufTy).Contents (Elt F) → (⟨S64x32, .f32⟩ : BufTy).Contents (Elt F)),
    StableHlo.unary main_arg10 main_v127 (broadcastInDim S1x32 ![1] bcast_S32_S1x32_1 : (⟨S32, .f32⟩ : BufTy).Contents (Elt F) → (⟨S1x32, .f32⟩ : BufTy).Contents (Elt F)),
    StableHlo.unary main_v127 main_v128 (broadcastInDim S64x32 ![0, 1] bcast_S1x32_S64x32_0_1 : (⟨S1x32, .f32⟩ : BufTy).Contents (Elt F) → (⟨S64x32, .f32⟩ : BufTy).Contents (Elt F)),
    StableHlo.binary main_v126 main_v128 main_v129 (addf : (⟨S64x32, .f32⟩ : BufTy).Contents (Elt F) → (⟨S64x32, .f32⟩ : BufTy).Contents (Elt F) → (⟨S64x32, .f32⟩ : BufTy).Contents (Elt F)) ]
/-- Each operation of `rB4` touches TensorCore references only. -/
theorem rB4_sub : (rB4 : List (HloOp τ sig (Elt F))).Forall fun op => op.bufs ⊆ tcRefs τ sig :=
  ⟨binary_bufs_sub .., unary_bufs_sub .., unary_bufs_sub .., binary_bufs_sub ..⟩
/-- No operation of `rB4` allocates a buffer. -/
theorem rB4_fresh : (rB4 : List (HloOp τ sig (Elt F))).Forall fun op => op.fresh = ∅ := by
  simp only [List.Forall]; repeat' constructor
/-- The references `rB4`'s operations write, in order. -/
abbrev rB4_W : List (Ref sig .tc) := [main_v126, main_v127, main_v128, main_v129]
/-- Every operation of `rB4` writes inside that list. -/
theorem rB4_writes : (rB4 : List (HloOp τ sig (Elt F))).Forall fun op => op.writes ⊆ (rB4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- @main's 184 operations, in order: the ten stretches one after the other. -/
abbrev ops : List (HloOp τ sig (Elt F)) :=
  rA0 ++ rB0 ++ rA1 ++ rB1 ++ rA2 ++ rB2 ++ rA3 ++ rB3 ++ rA4 ++ rB4

theorem ops_eq : (ops : List (HloOp τ sig (Elt F))) = rA0 ++ rB0 ++ rA1 ++ rB1 ++ rA2 ++ rB2 ++ rA3 ++ rB3 ++ rA4 ++ rB4 := rfl

/-- Every reference @main's operations write, in order. -/
abbrev ops_W : List (Ref sig .tc) :=
  rA0_W ++ rB0_W ++ rA1_W ++ rB1_W ++ rA2_W ++ rB2_W ++ rA3_W ++ rB3_W ++ rA4_W ++ rB4_W

end Cert.ReferenceIdeal.RefRun

end
-- ==== Proof.RefRun.lean ====
/-
  The reference's run.  @main is the straight line of the operations listed in the module imported first (its
  three windows and the functions it calls unfolded, sequencing reassociated), so on every device every weakly
  fair execution terminates with each TensorCore buffer at the fold of the operations' results over the launch
  contents.  No operation writes an argument of @main, so each argument ends with the contents it started with.
-/
import proofs.«172049_j60413009985910_1_alg».proof.Proof.RefRunOps
import proofs.«172049_j60413009985910_1_alg».proof.Proof.Gen.Pre_finite_inputs
import proofs.«172049_j60413009985910_1_alg».proof.Defs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main is that straight line: its windows and the functions' definitions unfolded at their calls, both sides
    are one chain of `hlo` steps once sequencing is reassociated (`bind_assoc`, `pure_bind`, `seq_append`). -/
theorem main_eq (c : Dev nD) : main (F := F) c = seq ops := by
  simp only [main, main_part0, main_part1, main_part2, fn_std.body, fn_var.body, fn_where.body, fn_relu.body,
    fn_clip.body, fn_clip_0.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_app {p : HloOp τ sig (Elt F) → Prop} {xs ys : List (HloOp τ sig (Elt F))}
    (hx : xs.Forall p) (hy : ys.Forall p) : (xs ++ ys).Forall p :=
  List.forall_append.mpr ⟨hx, hy⟩

/-- Each of @main's operations touches TensorCore references only. -/
theorem ops_sub : (ops : List (HloOp τ sig (Elt F))).Forall fun op => op.bufs ⊆ tcRefs τ sig :=
  forall_app (forall_app (forall_app (forall_app (forall_app (forall_app (forall_app (forall_app (forall_app
    rA0_sub rB0_sub) rA1_sub) rB1_sub) rA2_sub) rB2_sub) rA3_sub) rB3_sub) rA4_sub) rB4_sub

/-- None of @main's operations allocates a buffer. -/
theorem ops_fresh : (ops : List (HloOp τ sig (Elt F))).Forall fun op => op.fresh = ∅ :=
  forall_app (forall_app (forall_app (forall_app (forall_app (forall_app (forall_app (forall_app (forall_app
    rA0_fresh rB0_fresh) rA1_fresh) rB1_fresh) rA2_fresh) rB2_fresh) rA3_fresh) rB3_fresh) rA4_fresh) rB4_fresh

/-- At the compiled mesh, for any float values, from any memory with zero counters: every weakly fair execution
    of @main on the TensorCores terminates, and every final state has each TensorCore buffer at the operations'
    fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- A reference outside the list of written references keeps its contents through the whole line: stretch by
    stretch, from the last back to the first. -/
theorem kept {r : Ref sig .tc} (h : r ∉ ops_W) (V : Valuation τ sig (Elt F)) :
    after ops V (Proc.devRef .tc r) = V (Proc.devRef .tc r) := by
  simp only [ops_W, List.mem_append, not_or] at h
  obtain ⟨⟨⟨⟨⟨⟨⟨⟨⟨h0, h1⟩, h2⟩, h3⟩, h4⟩, h5⟩, h6⟩, h7⟩, h8⟩, h9⟩ := h
  simp only [ops, after_append]
  rw [after_of_writes_sub rB4 _ rB4_writes h9, after_of_writes_sub rA4 _ rA4_writes h8,
    after_of_writes_sub rB3 _ rB3_writes h7, after_of_writes_sub rA3 _ rA3_writes h6,
    after_of_writes_sub rB2 _ rB2_writes h5, after_of_writes_sub rA2 _ rA2_writes h4,
    after_of_writes_sub rB1 _ rB1_writes h3, after_of_writes_sub rA1 _ rA1_writes h2,
    after_of_writes_sub rB0 _ rB0_writes h1, after_of_writes_sub rA0 _ rA0_writes h0]

/-! No operation writes an argument of @main. -/

theorem kept_arg0 (V : Valuation τ sig (Elt F)) :
    after ops V (Proc.devRef .tc main_arg0) = V (Proc.devRef .tc main_arg0) := kept (by decide) V
theorem kept_arg1 (V : Valuation τ sig (Elt F)) :
    after ops V (Proc.devRef .tc main_arg1) = V (Proc.devRef .tc main_arg1) := kept (by decide) V
theorem kept_arg2 (V : Valuation τ sig (Elt F)) :
    after ops V (Proc.devRef .tc main_arg2) = V (Proc.devRef .tc main_arg2) := kept (by decide) V
theorem kept_arg3 (V : Valuation τ sig (Elt F)) :
    after ops V (Proc.devRef .tc main_arg3) = V (Proc.devRef .tc main_arg3) := kept (by decide) V
theorem kept_arg4 (V : Valuation τ sig (Elt F)) :
    after ops V (Proc.devRef .tc main_arg4) = V (Proc.devRef .tc main_arg4) := kept (by decide) V
theorem kept_arg5 (V : Valuation τ sig (Elt F)) :
    after ops V (Proc.devRef .tc main_arg5) = V (Proc.devRef .tc main_arg5) := kept (by decide) V
theorem kept_arg6 (V : Valuation τ sig (Elt F)) :
    after ops V (Proc.devRef .tc main_arg6) = V (Proc.devRef .tc main_arg6) := kept (by decide) V
theorem kept_arg7 (V : Valuation τ sig (Elt F)) :
    after ops V (Proc.devRef .tc main_arg7) = V (Proc.devRef .tc main_arg7) := kept (by decide) V
theorem kept_arg8 (V : Valuation τ sig (Elt F)) :
    after ops V (Proc.devRef .tc main_arg8) = V (Proc.devRef .tc main_arg8) := kept (by decide) V
theorem kept_arg9 (V : Valuation τ sig (Elt F)) :
    after ops V (Proc.devRef .tc main_arg9) = V (Proc.devRef .tc main_arg9) := kept (by decide) V
theorem kept_arg10 (V : Valuation τ sig (Elt F)) :
    after ops V (Proc.devRef .tc main_arg10) = V (Proc.devRef .tc main_arg10) := kept (by decide) V

/-- The reference runs and its eleven argument arrays end unchanged. -/
theorem frame_ri : Cert.frame_ReferenceIdeal :=
  fun m ρ _ => (θ_run _ _ _).mono (fun r h c =>
    ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _)⟩)
    (run m ρ)

end Cert.ReferenceIdeal.RefRun

end
-- ==== Proof.LibSkipWrites.lean ====
/-
  Reading a buffer through host operations that do not write it: for a literal list of operations none of which
  writes the buffer `b`, the contents after the list are the contents before it.
-/
import Idealize.ShloMosaic.Lib.StableHlo.Run

open Idealize.ShloMosaic

/-- Closes `StableHlo.after ops V b = V b` for a literal list `ops` (given by the names to unfold) none of whose
    operations writes `b`: each operation writes one buffer, and that buffer is another one. -/
macro "skip_writes" "[" ls:Lean.Parser.Tactic.simpLemma,* "]" : tactic => `(tactic|
  (refine StableHlo.after_of_forall_not_mem _ _ (List.forall_iff_forall_mem.mp ?_)
   simp only [$ls,*, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.KernelWalk.lean ====
/-
  The idealized kernel program's long-lived buffers read back through its host stretches and region exits.
  The two edge-index vectors (sources, targets) are computed before the first region and read by every later
  aggregation; the weight, bias and batch arguments are read at the stretch before the region that uses them.
  No host operation after their definition writes them, and a region writes only its output array, so at every
  later boundary they hold what they held: the launch memory (arguments) or the first region's entry contents
  (index vectors).
-/
import proofs.«172049_j60413009985910_1_alg».proof.Proof.Gen.KernelIdeal.Frame
import proofs.«172049_j60413009985910_1_alg».proof.Proof.LibSkipWrites
import proofs.«172049_j60413009985910_1_alg».proof.Proof.LibCallBuffers

set_option maxRecDepth 16384

noncomputable section

namespace Cert.KernelIdeal.KRun

open Cert.KernelIdeal Cert.KernelIdeal.Gen
open Idealize.ShloMosaic Idealize.ShloMosaic.TcCoe Idealize.ShloMosaic.StableHlo

variable {F : FTy → Type} [FloatOps F]

/-- The host operations before region 0, as one list. -/
abbrev hostA0 : List (HloOp τ sig (Elt F)) := (hostOps0 ++ hostOps0_1) ++ hostOps0_2
/-- The host operations between regions 1 and 2, as one list. -/
abbrev hostA2 : List (HloOp τ sig (Elt F)) := (hostOps2 ++ hostOps2_1) ++ hostOps2_2
/-- The host operations between regions 3 and 4, as one list. -/
abbrev hostA4 : List (HloOp τ sig (Elt F)) := (hostOps4 ++ hostOps4_1) ++ hostOps4_2

/-! ## A stretch leaves alone what it does not write -/

theorem keep_hostA0_main_arg2 (X : Valuation τ sig (Elt F)) :
    after (hostA0 (F := F)) X (Proc.devRef .tc main_arg2) = X (Proc.devRef .tc main_arg2) := by
  skip_writes [hostA0, hostOps0, hostOps0_1, hostOps0_2]
theorem keep_hostA0_main_arg3 (X : Valuation τ sig (Elt F)) :
    after (hostA0 (F := F)) X (Proc.devRef .tc main_arg3) = X (Proc.devRef .tc main_arg3) := by
  skip_writes [hostA0, hostOps0, hostOps0_1, hostOps0_2]
theorem keep_hostA0_main_arg4 (X : Valuation τ sig (Elt F)) :
    after (hostA0 (F := F)) X (Proc.devRef .tc main_arg4) = X (Proc.devRef .tc main_arg4) := by
  skip_writes [hostA0, hostOps0, hostOps0_1, hostOps0_2]
theorem keep_hostA0_main_arg5 (X : Valuation τ sig (Elt F)) :
    after (hostA0 (F := F)) X (Proc.devRef .tc main_arg5) = X (Proc.devRef .tc main_arg5) := by
  skip_writes [hostA0, hostOps0, hostOps0_1, hostOps0_2]
theorem keep_hostA0_main_arg6 (X : Valuation τ sig (Elt F)) :
    after (hostA0 (F := F)) X (Proc.devRef .tc main_arg6) = X (Proc.devRef .tc main_arg6) := by
  skip_writes [hostA0, hostOps0, hostOps0_1, hostOps0_2]
theorem keep_hostA0_main_arg7 (X : Valuation τ sig (Elt F)) :
    after (hostA0 (F := F)) X (Proc.devRef .tc main_arg7) = X (Proc.devRef .tc main_arg7) := by
  skip_writes [hostA0, hostOps0, hostOps0_1, hostOps0_2]
theorem keep_hostA0_main_arg8 (X : Valuation τ sig (Elt F)) :
    after (hostA0 (F := F)) X (Proc.devRef .tc main_arg8) = X (Proc.devRef .tc main_arg8) := by
  skip_writes [hostA0, hostOps0, hostOps0_1, hostOps0_2]
theorem keep_hostA0_main_arg9 (X : Valuation τ sig (Elt F)) :
    after (hostA0 (F := F)) X (Proc.devRef .tc main_arg9) = X (Proc.devRef .tc main_arg9) := by
  skip_writes [hostA0, hostOps0, hostOps0_1, hostOps0_2]
theorem keep_hostA0_main_arg10 (X : Valuation τ sig (Elt F)) :
    after (hostA0 (F := F)) X (Proc.devRef .tc main_arg10) = X (Proc.devRef .tc main_arg10) := by
  skip_writes [hostA0, hostOps0, hostOps0_1, hostOps0_2]
theorem keep_hostOps1_main_v1 (X : Valuation τ sig (Elt F)) :
    after (hostOps1 (F := F)) X (Proc.devRef .tc main_v1) = X (Proc.devRef .tc main_v1) := by
  skip_writes [hostOps1]
theorem keep_hostOps1_main_v3 (X : Valuation τ sig (Elt F)) :
    after (hostOps1 (F := F)) X (Proc.devRef .tc main_v3) = X (Proc.devRef .tc main_v3) := by
  skip_writes [hostOps1]
theorem keep_hostOps1_main_v31 (X : Valuation τ sig (Elt F)) :
    after (hostOps1 (F := F)) X (Proc.devRef .tc main_v31) = X (Proc.devRef .tc main_v31) := by
  skip_writes [hostOps1]
theorem keep_hostOps1_main_arg2 (X : Valuation τ sig (Elt F)) :
    after (hostOps1 (F := F)) X (Proc.devRef .tc main_arg2) = X (Proc.devRef .tc main_arg2) := by
  skip_writes [hostOps1]
theorem keep_hostOps1_main_arg6 (X : Valuation τ sig (Elt F)) :
    after (hostOps1 (F := F)) X (Proc.devRef .tc main_arg6) = X (Proc.devRef .tc main_arg6) := by
  skip_writes [hostOps1]
theorem keep_hostOps1_main_arg7 (X : Valuation τ sig (Elt F)) :
    after (hostOps1 (F := F)) X (Proc.devRef .tc main_arg7) = X (Proc.devRef .tc main_arg7) := by
  skip_writes [hostOps1]
theorem keep_hostOps1_main_arg8 (X : Valuation τ sig (Elt F)) :
    after (hostOps1 (F := F)) X (Proc.devRef .tc main_arg8) = X (Proc.devRef .tc main_arg8) := by
  skip_writes [hostOps1]
theorem keep_hostOps1_main_arg9 (X : Valuation τ sig (Elt F)) :
    after (hostOps1 (F := F)) X (Proc.devRef .tc main_arg9) = X (Proc.devRef .tc main_arg9) := by
  skip_writes [hostOps1]
theorem keep_hostOps1_main_arg10 (X : Valuation τ sig (Elt F)) :
    after (hostOps1 (F := F)) X (Proc.devRef .tc main_arg10) = X (Proc.devRef .tc main_arg10) := by
  skip_writes [hostOps1]
theorem keep_hostA2_main_v1 (X : Valuation τ sig (Elt F)) :
    after (hostA2 (F := F)) X (Proc.devRef .tc main_v1) = X (Proc.devRef .tc main_v1) := by
  skip_writes [hostA2, hostOps2, hostOps2_1, hostOps2_2]
theorem keep_hostA2_main_v3 (X : Valuation τ sig (Elt F)) :
    after (hostA2 (F := F)) X (Proc.devRef .tc main_v3) = X (Proc.devRef .tc main_v3) := by
  skip_writes [hostA2, hostOps2, hostOps2_1, hostOps2_2]
theorem keep_hostA2_main_v49 (X : Valuation τ sig (Elt F)) :
    after (hostA2 (F := F)) X (Proc.devRef .tc main_v49) = X (Proc.devRef .tc main_v49) := by
  skip_writes [hostA2, hostOps2, hostOps2_1, hostOps2_2]
theorem keep_hostA2_main_arg2 (X : Valuation τ sig (Elt F)) :
    after (hostA2 (F := F)) X (Proc.devRef .tc main_arg2) = X (Proc.devRef .tc main_arg2) := by
  skip_writes [hostA2, hostOps2, hostOps2_1, hostOps2_2]
theorem keep_hostA2_main_arg6 (X : Valuation τ sig (Elt F)) :
    after (hostA2 (F := F)) X (Proc.devRef .tc main_arg6) = X (Proc.devRef .tc main_arg6) := by
  skip_writes [hostA2, hostOps2, hostOps2_1, hostOps2_2]
theorem keep_hostA2_main_arg7 (X : Valuation τ sig (Elt F)) :
    after (hostA2 (F := F)) X (Proc.devRef .tc main_arg7) = X (Proc.devRef .tc main_arg7) := by
  skip_writes [hostA2, hostOps2, hostOps2_1, hostOps2_2]
theorem keep_hostA2_main_arg8 (X : Valuation τ sig (Elt F)) :
    after (hostA2 (F := F)) X (Proc.devRef .tc main_arg8) = X (Proc.devRef .tc main_arg8) := by
  skip_writes [hostA2, hostOps2, hostOps2_1, hostOps2_2]
theorem keep_hostA2_main_arg9 (X : Valuation τ sig (Elt F)) :
    after (hostA2 (F := F)) X (Proc.devRef .tc main_arg9) = X (Proc.devRef .tc main_arg9) := by
  skip_writes [hostA2, hostOps2, hostOps2_1, hostOps2_2]
theorem keep_hostA2_main_arg10 (X : Valuation τ sig (Elt F)) :
    after (hostA2 (F := F)) X (Proc.devRef .tc main_arg10) = X (Proc.devRef .tc main_arg10) := by
  skip_writes [hostA2, hostOps2, hostOps2_1, hostOps2_2]
theorem keep_hostOps3_main_v75 (X : Valuation τ sig (Elt F)) :
    after (hostOps3 (F := F)) X (Proc.devRef .tc main_v75) = X (Proc.devRef .tc main_v75) := by
  skip_writes [hostOps3]
theorem keep_hostOps3_main_arg2 (X : Valuation τ sig (Elt F)) :
    after (hostOps3 (F := F)) X (Proc.devRef .tc main_arg2) = X (Proc.devRef .tc main_arg2) := by
  skip_writes [hostOps3]
theorem keep_hostOps3_main_arg9 (X : Valuation τ sig (Elt F)) :
    after (hostOps3 (F := F)) X (Proc.devRef .tc main_arg9) = X (Proc.devRef .tc main_arg9) := by
  skip_writes [hostOps3]
theorem keep_hostOps3_main_arg10 (X : Valuation τ sig (Elt F)) :
    after (hostOps3 (F := F)) X (Proc.devRef .tc main_arg10) = X (Proc.devRef .tc main_arg10) := by
  skip_writes [hostOps3]
theorem keep_hostA4_main_arg9 (X : Valuation τ sig (Elt F)) :
    after (hostA4 (F := F)) X (Proc.devRef .tc main_arg9) = X (Proc.devRef .tc main_arg9) := by
  skip_writes [hostA4, hostOps4, hostOps4_1, hostOps4_2]

variable (m : (ℓ : Loc nD τ sig) → Buf (Elt F) ℓ) (ρ : Dev nD → PrngReg)

/-! ## The boundaries' contents over the joined lists -/

theorem W3_eq (c : Dev nD) : W3 m ρ c = after hostA0 (W0 m ρ c) := by
  show W3 m ρ c = after ((hostOps0 ++ hostOps0_1) ++ hostOps0_2) (W0 m ρ c)
  rw [after_append, after_append]
theorem W9_eq (c : Dev nD) : W9 m ρ c = after hostA2 (W6 m ρ c) := by
  show W9 m ρ c = after ((hostOps2 ++ hostOps2_1) ++ hostOps2_2) (W6 m ρ c)
  rw [after_append, after_append]
theorem W15_eq (c : Dev nD) : W15 m ρ c = after hostA4 (W12 m ρ c) := by
  show W15 m ρ c = after ((hostOps4 ++ hostOps4_1) ++ hostOps4_2) (W12 m ρ c)
  rw [after_append, after_append]

/-! ## The arguments at each boundary are the launch memory -/

theorem W3_main_arg2 (c : Dev nD) : W3 m ρ c (Proc.devRef .tc main_arg2) = m ((c : Thread nD τ).loc main_arg2) := by
  rw [W3_eq]; exact keep_hostA0_main_arg2 _
theorem W4_main_arg2 (c : Dev nD) : W4 m ρ c (Proc.devRef .tc main_arg2) = m ((c : Thread nD τ).loc main_arg2) :=
  (W4_of_ne m ρ c main_arg2 (by decide)).trans (W3_main_arg2 m ρ c)
theorem W3_main_arg3 (c : Dev nD) : W3 m ρ c (Proc.devRef .tc main_arg3) = m ((c : Thread nD τ).loc main_arg3) := by
  rw [W3_eq]; exact keep_hostA0_main_arg3 _
theorem W4_main_arg3 (c : Dev nD) : W4 m ρ c (Proc.devRef .tc main_arg3) = m ((c : Thread nD τ).loc main_arg3) :=
  (W4_of_ne m ρ c main_arg3 (by decide)).trans (W3_main_arg3 m ρ c)
theorem W3_main_arg4 (c : Dev nD) : W3 m ρ c (Proc.devRef .tc main_arg4) = m ((c : Thread nD τ).loc main_arg4) := by
  rw [W3_eq]; exact keep_hostA0_main_arg4 _
theorem W4_main_arg4 (c : Dev nD) : W4 m ρ c (Proc.devRef .tc main_arg4) = m ((c : Thread nD τ).loc main_arg4) :=
  (W4_of_ne m ρ c main_arg4 (by decide)).trans (W3_main_arg4 m ρ c)
theorem W3_main_arg5 (c : Dev nD) : W3 m ρ c (Proc.devRef .tc main_arg5) = m ((c : Thread nD τ).loc main_arg5) := by
  rw [W3_eq]; exact keep_hostA0_main_arg5 _
theorem W4_main_arg5 (c : Dev nD) : W4 m ρ c (Proc.devRef .tc main_arg5) = m ((c : Thread nD τ).loc main_arg5) :=
  (W4_of_ne m ρ c main_arg5 (by decide)).trans (W3_main_arg5 m ρ c)
theorem W3_main_arg6 (c : Dev nD) : W3 m ρ c (Proc.devRef .tc main_arg6) = m ((c : Thread nD τ).loc main_arg6) := by
  rw [W3_eq]; exact keep_hostA0_main_arg6 _
theorem W4_main_arg6 (c : Dev nD) : W4 m ρ c (Proc.devRef .tc main_arg6) = m ((c : Thread nD τ).loc main_arg6) :=
  (W4_of_ne m ρ c main_arg6 (by decide)).trans (W3_main_arg6 m ρ c)
theorem W3_main_arg7 (c : Dev nD) : W3 m ρ c (Proc.devRef .tc main_arg7) = m ((c : Thread nD τ).loc main_arg7) := by
  rw [W3_eq]; exact keep_hostA0_main_arg7 _
theorem W4_main_arg7 (c : Dev nD) : W4 m ρ c (Proc.devRef .tc main_arg7) = m ((c : Thread nD τ).loc main_arg7) :=
  (W4_of_ne m ρ c main_arg7 (by decide)).trans (W3_main_arg7 m ρ c)
theorem W3_main_arg8 (c : Dev nD) : W3 m ρ c (Proc.devRef .tc main_arg8) = m ((c : Thread nD τ).loc main_arg8) := by
  rw [W3_eq]; exact keep_hostA0_main_arg8 _
theorem W4_main_arg8 (c : Dev nD) : W4 m ρ c (Proc.devRef .tc main_arg8) = m ((c : Thread nD τ).loc main_arg8) :=
  (W4_of_ne m ρ c main_arg8 (by decide)).trans (W3_main_arg8 m ρ c)
theorem W3_main_arg9 (c : Dev nD) : W3 m ρ c (Proc.devRef .tc main_arg9) = m ((c : Thread nD τ).loc main_arg9) := by
  rw [W3_eq]; exact keep_hostA0_main_arg9 _
theorem W4_main_arg9 (c : Dev nD) : W4 m ρ c (Proc.devRef .tc main_arg9) = m ((c : Thread nD τ).loc main_arg9) :=
  (W4_of_ne m ρ c main_arg9 (by decide)).trans (W3_main_arg9 m ρ c)
theorem W3_main_arg10 (c : Dev nD) : W3 m ρ c (Proc.devRef .tc main_arg10) = m ((c : Thread nD τ).loc main_arg10) := by
  rw [W3_eq]; exact keep_hostA0_main_arg10 _
theorem W4_main_arg10 (c : Dev nD) : W4 m ρ c (Proc.devRef .tc main_arg10) = m ((c : Thread nD τ).loc main_arg10) :=
  (W4_of_ne m ρ c main_arg10 (by decide)).trans (W3_main_arg10 m ρ c)
theorem W5_main_arg2 (c : Dev nD) : W5 m ρ c (Proc.devRef .tc main_arg2) = m ((c : Thread nD τ).loc main_arg2) :=
  (keep_hostOps1_main_arg2 _).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)
theorem W9_main_arg2 (c : Dev nD) : W9 m ρ c (Proc.devRef .tc main_arg2) = m ((c : Thread nD τ).loc main_arg2) := by
  rw [W9_eq]; exact (keep_hostA2_main_arg2 _).trans (W6_main_arg2 m ρ c)
theorem W10_main_arg2 (c : Dev nD) : W10 m ρ c (Proc.devRef .tc main_arg2) = m ((c : Thread nD τ).loc main_arg2) :=
  (W10_of_ne m ρ c main_arg2 (by decide)).trans (W9_main_arg2 m ρ c)
theorem W5_main_arg6 (c : Dev nD) : W5 m ρ c (Proc.devRef .tc main_arg6) = m ((c : Thread nD τ).loc main_arg6) :=
  (keep_hostOps1_main_arg6 _).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W9_main_arg6 (c : Dev nD) : W9 m ρ c (Proc.devRef .tc main_arg6) = m ((c : Thread nD τ).loc main_arg6) := by
  rw [W9_eq]; exact (keep_hostA2_main_arg6 _).trans (W6_main_arg6 m ρ c)
theorem W10_main_arg6 (c : Dev nD) : W10 m ρ c (Proc.devRef .tc main_arg6) = m ((c : Thread nD τ).loc main_arg6) :=
  (W10_of_ne m ρ c main_arg6 (by decide)).trans (W9_main_arg6 m ρ c)
theorem W5_main_arg7 (c : Dev nD) : W5 m ρ c (Proc.devRef .tc main_arg7) = m ((c : Thread nD τ).loc main_arg7) :=
  (keep_hostOps1_main_arg7 _).trans (W4_main_arg7 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W9_main_arg7 (c : Dev nD) : W9 m ρ c (Proc.devRef .tc main_arg7) = m ((c : Thread nD τ).loc main_arg7) := by
  rw [W9_eq]; exact (keep_hostA2_main_arg7 _).trans (W6_main_arg7 m ρ c)
theorem W10_main_arg7 (c : Dev nD) : W10 m ρ c (Proc.devRef .tc main_arg7) = m ((c : Thread nD τ).loc main_arg7) :=
  (W10_of_ne m ρ c main_arg7 (by decide)).trans (W9_main_arg7 m ρ c)
theorem W5_main_arg8 (c : Dev nD) : W5 m ρ c (Proc.devRef .tc main_arg8) = m ((c : Thread nD τ).loc main_arg8) :=
  (keep_hostOps1_main_arg8 _).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)
theorem W9_main_arg8 (c : Dev nD) : W9 m ρ c (Proc.devRef .tc main_arg8) = m ((c : Thread nD τ).loc main_arg8) := by
  rw [W9_eq]; exact (keep_hostA2_main_arg8 _).trans (W6_main_arg8 m ρ c)
theorem W10_main_arg8 (c : Dev nD) : W10 m ρ c (Proc.devRef .tc main_arg8) = m ((c : Thread nD τ).loc main_arg8) :=
  (W10_of_ne m ρ c main_arg8 (by decide)).trans (W9_main_arg8 m ρ c)
theorem W5_main_arg9 (c : Dev nD) : W5 m ρ c (Proc.devRef .tc main_arg9) = m ((c : Thread nD τ).loc main_arg9) :=
  (keep_hostOps1_main_arg9 _).trans (W4_main_arg9 m ρ c)
theorem W6_main_arg9 (c : Dev nD) : W6 m ρ c (Proc.devRef .tc main_arg9) = m ((c : Thread nD τ).loc main_arg9) :=
  (W6_of_ne m ρ c main_arg9 (by decide)).trans (W5_main_arg9 m ρ c)
theorem W9_main_arg9 (c : Dev nD) : W9 m ρ c (Proc.devRef .tc main_arg9) = m ((c : Thread nD τ).loc main_arg9) := by
  rw [W9_eq]; exact (keep_hostA2_main_arg9 _).trans (W6_main_arg9 m ρ c)
theorem W10_main_arg9 (c : Dev nD) : W10 m ρ c (Proc.devRef .tc main_arg9) = m ((c : Thread nD τ).loc main_arg9) :=
  (W10_of_ne m ρ c main_arg9 (by decide)).trans (W9_main_arg9 m ρ c)
theorem W5_main_arg10 (c : Dev nD) : W5 m ρ c (Proc.devRef .tc main_arg10) = m ((c : Thread nD τ).loc main_arg10) :=
  (keep_hostOps1_main_arg10 _).trans (W4_main_arg10 m ρ c)
theorem W6_main_arg10 (c : Dev nD) : W6 m ρ c (Proc.devRef .tc main_arg10) = m ((c : Thread nD τ).loc main_arg10) :=
  (W6_of_ne m ρ c main_arg10 (by decide)).trans (W5_main_arg10 m ρ c)
theorem W9_main_arg10 (c : Dev nD) : W9 m ρ c (Proc.devRef .tc main_arg10) = m ((c : Thread nD τ).loc main_arg10) := by
  rw [W9_eq]; exact (keep_hostA2_main_arg10 _).trans (W6_main_arg10 m ρ c)
theorem W10_main_arg10 (c : Dev nD) : W10 m ρ c (Proc.devRef .tc main_arg10) = m ((c : Thread nD τ).loc main_arg10) :=
  (W10_of_ne m ρ c main_arg10 (by decide)).trans (W9_main_arg10 m ρ c)
theorem W11_main_arg2 (c : Dev nD) : W11 m ρ c (Proc.devRef .tc main_arg2) = m ((c : Thread nD τ).loc main_arg2) :=
  (keep_hostOps3_main_arg2 _).trans (W10_main_arg2 m ρ c)
theorem W12_main_arg2 (c : Dev nD) : W12 m ρ c (Proc.devRef .tc main_arg2) = m ((c : Thread nD τ).loc main_arg2) :=
  (W12_of_ne m ρ c main_arg2 (by decide)).trans (W11_main_arg2 m ρ c)
theorem W11_main_arg9 (c : Dev nD) : W11 m ρ c (Proc.devRef .tc main_arg9) = m ((c : Thread nD τ).loc main_arg9) :=
  (keep_hostOps3_main_arg9 _).trans (W10_main_arg9 m ρ c)
theorem W12_main_arg9 (c : Dev nD) : W12 m ρ c (Proc.devRef .tc main_arg9) = m ((c : Thread nD τ).loc main_arg9) :=
  (W12_of_ne m ρ c main_arg9 (by decide)).trans (W11_main_arg9 m ρ c)
theorem W11_main_arg10 (c : Dev nD) : W11 m ρ c (Proc.devRef .tc main_arg10) = m ((c : Thread nD τ).loc main_arg10) :=
  (keep_hostOps3_main_arg10 _).trans (W10_main_arg10 m ρ c)
theorem W12_main_arg10 (c : Dev nD) : W12 m ρ c (Proc.devRef .tc main_arg10) = m ((c : Thread nD τ).loc main_arg10) :=
  (W12_of_ne m ρ c main_arg10 (by decide)).trans (W11_main_arg10 m ρ c)
theorem W15_main_arg9 (c : Dev nD) : W15 m ρ c (Proc.devRef .tc main_arg9) = m ((c : Thread nD τ).loc main_arg9) := by
  rw [W15_eq]; exact (keep_hostA4_main_arg9 _).trans (W12_main_arg9 m ρ c)

/-! ## The edge-index vectors at each later boundary are region 0's entry contents -/

theorem W4_main_v1 (c : Dev nD) : W4 m ρ c (Proc.devRef .tc main_v1) = W3 m ρ c (Proc.devRef .tc main_v1) :=
  W4_of_ne m ρ c main_v1 (by decide)
theorem W5_main_v1 (c : Dev nD) : W5 m ρ c (Proc.devRef .tc main_v1) = W3 m ρ c (Proc.devRef .tc main_v1) :=
  (keep_hostOps1_main_v1 _).trans (W4_main_v1 m ρ c)
theorem W6_main_v1 (c : Dev nD) : W6 m ρ c (Proc.devRef .tc main_v1) = W3 m ρ c (Proc.devRef .tc main_v1) :=
  (W6_of_ne m ρ c main_v1 (by decide)).trans (W5_main_v1 m ρ c)
theorem W9_main_v1 (c : Dev nD) : W9 m ρ c (Proc.devRef .tc main_v1) = W3 m ρ c (Proc.devRef .tc main_v1) := by
  rw [W9_eq]; exact (keep_hostA2_main_v1 _).trans (W6_main_v1 m ρ c)
theorem W10_main_v1 (c : Dev nD) : W10 m ρ c (Proc.devRef .tc main_v1) = W3 m ρ c (Proc.devRef .tc main_v1) :=
  (W10_of_ne m ρ c main_v1 (by decide)).trans (W9_main_v1 m ρ c)
theorem W4_main_v3 (c : Dev nD) : W4 m ρ c (Proc.devRef .tc main_v3) = W3 m ρ c (Proc.devRef .tc main_v3) :=
  W4_of_ne m ρ c main_v3 (by decide)
theorem W5_main_v3 (c : Dev nD) : W5 m ρ c (Proc.devRef .tc main_v3) = W3 m ρ c (Proc.devRef .tc main_v3) :=
  (keep_hostOps1_main_v3 _).trans (W4_main_v3 m ρ c)
theorem W6_main_v3 (c : Dev nD) : W6 m ρ c (Proc.devRef .tc main_v3) = W3 m ρ c (Proc.devRef .tc main_v3) :=
  (W6_of_ne m ρ c main_v3 (by decide)).trans (W5_main_v3 m ρ c)
theorem W9_main_v3 (c : Dev nD) : W9 m ρ c (Proc.devRef .tc main_v3) = W3 m ρ c (Proc.devRef .tc main_v3) := by
  rw [W9_eq]; exact (keep_hostA2_main_v3 _).trans (W6_main_v3 m ρ c)
theorem W10_main_v3 (c : Dev nD) : W10 m ρ c (Proc.devRef .tc main_v3) = W3 m ρ c (Proc.devRef .tc main_v3) :=
  (W10_of_ne m ρ c main_v3 (by decide)).trans (W9_main_v3 m ρ c)
/-- The clipped in-degree column, computed between regions 1 and 2, is still there after region 2. -/
theorem W10_main_v55 (c : Dev nD) : W10 m ρ c (Proc.devRef .tc main_v55) = W9 m ρ c (Proc.devRef .tc main_v55) :=
  W10_of_ne m ρ c main_v55 (by decide)

end Cert.KernelIdeal.KRun

end
-- ==== Proof.LayerSpec.lean ====
/-
  The dense step shared by the four message-passing layers and the final projection, written once as
  whole-array functions on the extended reals, in the spelling of the reference's host program:
  a layer is  agg · Wa + (row b, repeated down the rows) + h · Wb , optionally followed by max(·, 0);
  the projection is  p · W + (row b repeated).  Both programs are compared against these functions.
-/
import proofs.«172049_j60413009985910_1_alg».proof.ReferenceIdeal
import Idealize.ShloMosaic.PureOps.Ideal

noncomputable section

namespace Cert.Bridge

open Idealize.ShloMosaic Cert.ReferenceIdeal Cert.ReferenceIdeal.Facts₀

variable [Cert.ReferenceIdeal.Facts]

/-- `agg · Wa + b + h · Wb` over the 50000 nodes: two products contracted over the 128 features, the
    bias row `b1 : [1, 128]` repeated down the rows, added in this order. -/
def dense (agg h : FVec Ideal S50000x128 .f32) (Wa Wb : FVec Ideal S128x128 .f32) (b1 : FVec Ideal S1x128 .f32) :
    FVec Ideal S50000x128 .f32 :=
  addf (addf (Host.dotGeneral (F := Ideal) dot_S50000x128_S128x128_S50000x128_1_0_0_1_n_n none agg Wa)
      (broadcastInDim S50000x128 ![0, 1] bcast_S1x128_S50000x128_0_1 b1))
    (Host.dotGeneral (F := Ideal) dot_S50000x128_S128x128_S50000x128_1_0_0_1_n_n none h Wb)

/-- The same followed by the rectifier `max(·, 0)`, entry by entry. -/
def denseRelu (agg h : FVec Ideal S50000x128 .f32) (Wa Wb : FVec Ideal S128x128 .f32) (b1 : FVec Ideal S1x128 .f32) :
    FVec Ideal S50000x128 .f32 :=
  maximumf (dense agg h Wa Wb b1)
    (broadcastInDim S50000x128 ![] bcast_S_S50000x128 (constant (F := Ideal) S_ .f32 0x00000000#32))

/-- The final projection of the 64 pooled rows: `p · W + b`, the bias row `b1 : [1, 32]` repeated. -/
def project (p : FVec Ideal S64x128 .f32) (w : FVec Ideal S128x32 .f32) (b1 : FVec Ideal S1x32 .f32) :
    FVec Ideal S64x32 .f32 :=
  addf (Host.dotGeneral (F := Ideal) dot_S64x128_S128x32_S64x32_1_0_0_1_n_n none p w)
    (broadcastInDim S64x32 ![0, 1] bcast_S1x32_S64x32_0_1 b1)

end Cert.Bridge

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«172049_j60413009985910_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RegionValueLemmas.lean ====
/-
  The layer's arithmetic read at one entry, on both sides. A block of the kernel's combine step is
  max(x_agg · Wa + (row b repeated) + x_h · Wb, 0) (the last layer without the max), and entry (p, q) of it is
  max((Σ_k x_agg[p,k] Wa[k,q]) + b[0,q] + Σ_k x_h[p,k] Wb[k,q], 0): it depends on row p of the two blocks only.
  The reference's whole-array functions read the same way at (r, q). So the block whose rows are rows
  n·5000 … n·5000+4999 of the arrays is rows n·5000 … of the reference's result.
-/
import proofs.«172049_j60413009985910_1_alg».proof.Proof.Gen.KernelIdeal.Skeleton
import proofs.«172049_j60413009985910_1_alg».proof.Proof.Gen.ReferenceIdeal
import proofs.«172049_j60413009985910_1_alg».proof.Proof.LayerSpec
import proofs.«172049_j60413009985910_1_alg».proof.Proof.LibPlainMatmul
import proofs.«172049_j60413009985910_1_alg».proof.Proof.LibPlainDot
import proofs.«172049_j60413009985910_1_alg».proof.Proof.LibHostReads
import Idealize.ShloMosaic.Lib.Pipeline.Value
import Idealize.ShloMosaic.Lib.ValueLayout

noncomputable section

open scoped BigOperators

namespace Cert.KernelIdeal.RegionValue

open Idealize.ShloMosaic Idealize.ShloMosaic.ValueIdx Cert.KernelIdeal

/-! ## The kernel's block arithmetic at an entry -/

/-- The linear part of a combine block: `x_agg · Wa + (row b repeated) + x_h · Wb`. -/
def combine (xa xh : FVec Ideal S5000x128 .f32) (wa wb : FVec Ideal S128x128 .f32) (b : FVec Ideal S1x128 .f32) :
    FVec Ideal S5000x128 .f32 :=
  addf (addf (matmul dot_S5000x128_S128x128_S5000x128_1_0_0_1_n_n none xa wa (constant S5000x128 .f32 0x00000000#32))
      (broadcastTo S5000x128 b Gen.broadcasts_S1x128_S5000x128))
    (matmul dot_S5000x128_S128x128_S5000x128_1_0_0_1_n_n none xh wb (constant S5000x128 .f32 0x00000000#32))

/-- The same followed by `max(·, 0)`. -/
def combineRelu (xa xh : FVec Ideal S5000x128 .f32) (wa wb : FVec Ideal S128x128 .f32) (b : FVec Ideal S1x128 .f32) :
    FVec Ideal S5000x128 .f32 :=
  maximumf (combine xa xh wa wb b) (broadcast S5000x128 (Scalar.ofBits (F := Ideal) .f32 0x00000000#32))

/-- Entry (p, q) of the linear part. -/
theorem combine_apply (xa xh : FVec Ideal S5000x128 .f32) (wa wb : FVec Ideal S128x128 .f32) (b : FVec Ideal S1x128 .f32)
    (p : Fin 5000) (q : Fin 128) :
    combine xa xh wa wb b (ix2 p q)
      = (∑ k : Fin 128, xa (ix2 p k) * wa (ix2 k q)) + b (ix2 (0 : Fin 1) q) + ∑ k : Fin 128, xh (ix2 p k) * wb (ix2 k q) := by
  unfold combine
  rw [addf_apply, addf_apply]
  have ea : matmul dot_S5000x128_S128x128_S5000x128_1_0_0_1_n_n none xa wa (constant S5000x128 .f32 0x00000000#32) (ix2 p q)
      = ∑ k : Fin 128, xa (ix2 p k) * wa (ix2 k q) := PlainMatmul.plainMatmul_apply (M := 5000) (K := 128) (N := 128) none xa wa p q
  have eh : matmul dot_S5000x128_S128x128_S5000x128_1_0_0_1_n_n none xh wb (constant S5000x128 .f32 0x00000000#32) (ix2 p q)
      = ∑ k : Fin 128, xh (ix2 p k) * wb (ix2 k q) := PlainMatmul.plainMatmul_apply (M := 5000) (K := 128) (N := 128) none xh wb p q
  have eb : broadcastTo S5000x128 b Gen.broadcasts_S1x128_S5000x128 (ix2 p q) = b (ix2 (0 : Fin 1) q) :=
    broadcastTo_1b_ab_apply (a := 5000) (b := 128) b Gen.broadcasts_S1x128_S5000x128 p q
  rw [ea, eh, eb]

/-- Entry (p, q) of the rectified block. -/
theorem combineRelu_apply (xa xh : FVec Ideal S5000x128 .f32) (wa wb : FVec Ideal S128x128 .f32) (b : FVec Ideal S1x128 .f32)
    (p : Fin 5000) (q : Fin 128) :
    combineRelu xa xh wa wb b (ix2 p q)
      = max ((∑ k : Fin 128, xa (ix2 p k) * wa (ix2 k q)) + b (ix2 (0 : Fin 1) q) + ∑ k : Fin 128, xh (ix2 p k) * wb (ix2 k q))
          (Ideal.ofBits .f32 0x00000000#32) := by
  unfold combineRelu
  rw [maximumf_apply, combine_apply]
  rfl

/-- The printed payloads of the three rectified layers are `combineRelu`, of the last layer `combine`. -/
theorem pay0_eq (v0 : Vec Ideal S5000x128 .f32) (v2 : Vec Ideal S128x128 .f32) (v5 : Vec Ideal S1x128 .f32)
    (v9 : Vec Ideal S5000x128 .f32) (v11 : Vec Ideal S128x128 .f32) :
    Gen.k0_pay1 (F := Ideal) v0 v2 v5 v9 v11 = combineRelu v0 v9 v2 v11 v5 := by
  unfold Gen.k0_pay1 combineRelu combine
  simp only [shapeCast_self]
theorem pay1_eq (v0 : Vec Ideal S5000x128 .f32) (v2 : Vec Ideal S128x128 .f32) (v5 : Vec Ideal S1x128 .f32)
    (v9 : Vec Ideal S5000x128 .f32) (v11 : Vec Ideal S128x128 .f32) :
    Gen.k1_pay1 (F := Ideal) v0 v2 v5 v9 v11 = combineRelu v0 v9 v2 v11 v5 := by
  unfold Gen.k1_pay1 combineRelu combine
  simp only [shapeCast_self]
theorem pay2_eq (v0 : Vec Ideal S5000x128 .f32) (v2 : Vec Ideal S128x128 .f32) (v5 : Vec Ideal S1x128 .f32)
    (v9 : Vec Ideal S5000x128 .f32) (v11 : Vec Ideal S128x128 .f32) :
    Gen.k2_pay1 (F := Ideal) v0 v2 v5 v9 v11 = combineRelu v0 v9 v2 v11 v5 := by
  unfold Gen.k2_pay1 combineRelu combine
  simp only [shapeCast_self]
theorem pay3_eq (v0 : Vec Ideal S5000x128 .f32) (v2 : Vec Ideal S128x128 .f32) (v5 : Vec Ideal S1x128 .f32)
    (v9 : Vec Ideal S5000x128 .f32) (v11 : Vec Ideal S128x128 .f32) :
    Gen.k3_pay1 (F := Ideal) v0 v2 v5 v9 v11 = combine v0 v9 v2 v11 v5 := by
  unfold Gen.k3_pay1 combine
  simp only [shapeCast_self]

/-! ## The reference's whole-array functions at an entry -/

/-- Entry (r, q) of `agg · Wa + b + h · Wb`. -/
theorem dense_apply (agg h : FVec Ideal S50000x128 .f32) (Wa Wb : FVec Ideal S128x128 .f32) (b1 : FVec Ideal S1x128 .f32)
    (r : Fin 50000) (q : Fin 128) :
    Cert.Bridge.dense agg h Wa Wb b1 (ix2 r q)
      = (∑ k : Fin 128, agg (ix2 r k) * Wa (ix2 k q)) + b1 (ix2 (0 : Fin 1) q) + ∑ k : Fin 128, h (ix2 r k) * Wb (ix2 k q) := by
  unfold Cert.Bridge.dense
  rw [addf_apply, addf_apply]
  have ea : Host.dotGeneral (F := Ideal) Cert.ReferenceIdeal.dot_S50000x128_S128x128_S50000x128_1_0_0_1_n_n none agg Wa (ix2 r q)
      = ∑ k : Fin 128, agg (ix2 r k) * Wa (ix2 k q) := PlainDot.plainDot_apply (M := 50000) (K := 128) (N := 128) none agg Wa r q
  have eh : Host.dotGeneral (F := Ideal) Cert.ReferenceIdeal.dot_S50000x128_S128x128_S50000x128_1_0_0_1_n_n none h Wb (ix2 r q)
      = ∑ k : Fin 128, h (ix2 r k) * Wb (ix2 k q) := PlainDot.plainDot_apply (M := 50000) (K := 128) (N := 128) none h Wb r q
  have eb : broadcastInDim Cert.ReferenceIdeal.S50000x128 ![0, 1] Cert.ReferenceIdeal.Facts₀.bcast_S1x128_S50000x128_0_1 b1 (ix2 r q)
      = b1 (ix2 (0 : Fin 1) q) := HostReads.bcast_row_apply (a := 50000) (b := 128) _ b1 r q
  rw [ea, eh, eb]

/-- Entry (r, q) of the rectified layer. -/
theorem denseRelu_apply (agg h : FVec Ideal S50000x128 .f32) (Wa Wb : FVec Ideal S128x128 .f32) (b1 : FVec Ideal S1x128 .f32)
    (r : Fin 50000) (q : Fin 128) :
    Cert.Bridge.denseRelu agg h Wa Wb b1 (ix2 r q)
      = max ((∑ k : Fin 128, agg (ix2 r k) * Wa (ix2 k q)) + b1 (ix2 (0 : Fin 1) q) + ∑ k : Fin 128, h (ix2 r k) * Wb (ix2 k q))
          (Ideal.ofBits .f32 0x00000000#32) := by
  unfold Cert.Bridge.denseRelu
  rw [maximumf_apply, dense_apply]
  have ez : broadcastInDim Cert.ReferenceIdeal.S50000x128 ![] Cert.ReferenceIdeal.Facts₀.bcast_S_S50000x128
      (constant (F := Ideal) Cert.ReferenceIdeal.S_ .f32 0x00000000#32) (ix2 r q) = Ideal.ofBits .f32 0x00000000#32 :=
    broadcastInDim_apply _ _ _ (ix2 r q) ix0 (fun a => a.elim0)
  rw [ez]

/-! ## A block of rows -/

/-- Row `p` of the `n`-th block of 5000 rows is row `n · 5000 + p` of the array. -/
def blockRow (n : Nat) (hn : n < 10) (p : Fin 5000) : Fin 50000 := ⟨n * 5000 + p.val, by have := p.isLt; omega⟩

/-- A block pair holding rows `n · 5000 …` of `agg` and `h` combines to those rows of the reference's rectified layer. -/
theorem combineRelu_rows (A H : FVec Ideal S50000x128 .f32) (Wa Wb : FVec Ideal S128x128 .f32) (b1 : FVec Ideal S1x128 .f32)
    (xa xh : FVec Ideal S5000x128 .f32) (n : Nat) (hn : n < 10)
    (ha : ∀ (p : Fin 5000) (k : Fin 128), xa (ix2 p k) = A (ix2 (blockRow n hn p) k))
    (hh : ∀ (p : Fin 5000) (k : Fin 128), xh (ix2 p k) = H (ix2 (blockRow n hn p) k))
    (p : Fin 5000) (q : Fin 128) :
    combineRelu xa xh Wa Wb b1 (ix2 p q) = Cert.Bridge.denseRelu A H Wa Wb b1 (ix2 (blockRow n hn p) q) := by
  rw [combineRelu_apply, denseRelu_apply]
  simp only [ha, hh]

/-- The same without the rectifier. -/
theorem combine_rows (A H : FVec Ideal S50000x128 .f32) (Wa Wb : FVec Ideal S128x128 .f32) (b1 : FVec Ideal S1x128 .f32)
    (xa xh : FVec Ideal S5000x128 .f32) (n : Nat) (hn : n < 10)
    (ha : ∀ (p : Fin 5000) (k : Fin 128), xa (ix2 p k) = A (ix2 (blockRow n hn p) k))
    (hh : ∀ (p : Fin 5000) (k : Fin 128), xh (ix2 p k) = H (ix2 (blockRow n hn p) k))
    (p : Fin 5000) (q : Fin 128) :
    combine xa xh Wa Wb b1 (ix2 p q) = Cert.Bridge.dense A H Wa Wb b1 (ix2 (blockRow n hn p) q) := by
  rw [combine_apply, dense_apply]
  simp only [ha, hh]

theorem hz2 : (![0, 0] : Fin 2 → Nat) = fun _ => 0 := funext fun a => by fin_cases a <;> rfl

end Cert.KernelIdeal.RegionValue

end
-- ==== Proof.RegionValue0.lean ====
/-
  Region 0 of the kernel's program: the array its ten grid points leave in the output window. Point t takes rows
  t·5000 … t·5000+4999 of the two node arrays and the whole of the two weight matrices and the bias row, and writes the
  combine step of those rows into rows t·5000 … of the output; a row of the rectified layer depends on the same row of the
  node arrays only, so what point t writes is that block of rows of the reference's whole-array function, and the ten
  blocks fill the 50000 rows.
-/
import proofs.«172049_j60413009985910_1_alg».proof.Proof.Gen.KernelIdeal.Frame
import proofs.«172049_j60413009985910_1_alg».proof.Proof.RegionValueLemmas

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the ten points: the three row-blocked windows sit at block row `t`, column block 0;
    the weight and bias windows at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem pointLt0 (t : Fin cfg0.N) : t.val < 10 := Nat.lt_of_lt_of_eq t.isLt Gen.N_0

/-- The first node array's block at point `t`: its rows `t · 5000 …`. -/
theorem aggBlock0_apply (c : Dev nD) (t : Fin cfg0.N) (p : Fin 5000) (k : Fin 128) :
    (iblk0 V c 0 t : FVec Ideal S5000x128 .f32) (ix2 p k)
      = (V c main_v23 : FVec Ideal S50000x128 .f32) (ix2 (blockRow t.val (pointLt0 t) p) k) := by
  obtain ⟨e0, e1, -⟩ := blockIndex0 t
  unfold iblk0
  rw [View.read_apply]
  show V c main_v23 _ = V c main_v23 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The second node array's block at point `t`: its rows `t · 5000 …`. -/
theorem hBlock0_apply (c : Dev nD) (t : Fin cfg0.N) (p : Fin 5000) (k : Fin 128) :
    (iblk0 V c 1 t : FVec Ideal S5000x128 .f32) (ix2 p k)
      = (V c main_v13 : FVec Ideal S50000x128 .f32) (ix2 (blockRow t.val (pointLt0 t) p) k) := by
  obtain ⟨-, -, e0, e1, -⟩ := blockIndex0 t
  unfold iblk0
  rw [View.read_apply]
  show V c main_v13 _ = V c main_v13 _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The two weight windows and the bias window hold their whole arrays at every point. -/
theorem waBlock0_eq (c : Dev nD) (t : Fin cfg0.N) :
    (iblk0 V c 2 t : FVec Ideal S128x128 .f32) = (V c main_v25 : FVec Ideal S128x128 .f32) := by
  obtain ⟨-, -, -, -, e0, e1, -⟩ := blockIndex0 t
  funext y
  unfold iblk0
  rw [View.read_apply]
  show V c main_v25 _ = V c main_v25 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem wbBlock0_eq (c : Dev nD) (t : Fin cfg0.N) :
    (iblk0 V c 3 t : FVec Ideal S128x128 .f32) = (V c main_v27 : FVec Ideal S128x128 .f32) := by
  obtain ⟨-, -, -, -, -, -, e0, e1, -⟩ := blockIndex0 t
  funext y
  unfold iblk0
  rw [View.read_apply]
  show V c main_v27 _ = V c main_v27 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem biasBlock0_eq (c : Dev nD) (t : Fin cfg0.N) :
    (iblk0 V c 4 t : FVec Ideal S1x128 .f32) = (V c main_v30 : FVec Ideal S1x128 .f32) := by
  obtain ⟨-, -, -, -, -, -, -, -, e0, e1, -⟩ := blockIndex0 t
  funext y
  unfold iblk0
  rw [View.read_apply]
  show V c main_v30 _ = V c main_v30 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- A block whose row `p` is row `t · 5000 + p` of a whole array `G` is `G` read through the output window's block at `t`. -/
theorem outBlock0_of_rows (t : Fin cfg0.N) (X : FVec Ideal S5000x128 .f32) (G : FVec Ideal S50000x128 .f32)
    (h : ∀ (p : Fin 5000) (q : Fin 128), X (ix2 p q) = G (ix2 (blockRow t.val (pointLt0 t) p) q)) :
    (cfg0.win 5).cut (grid0.coords t) X = ((cfg0.win 5).blk t).view.read (Elt Ideal) G := by
  obtain ⟨-, -, -, -, -, -, -, -, -, -, e0, e1⟩ := blockIndex0 t
  funext y
  rw [View.read_apply]
  obtain ⟨p, q, rfl⟩ : ∃ (p : Fin 5000) (q : Fin 128), y = ix2 p q := ⟨y 0, y 1, eq_ix2 (n0 := 5000) (n1 := 128) y⟩
  show X (ix2 p q) = G _
  rw [h p q]
  congr 1
  funext a
  apply Fin.ext
  match a with
  | ⟨0, _⟩ => show t.val * 5000 + p.val = win0_5.index t (0 : Fin 2) * 5000 + 1 * p.val; rw [e0]; omega
  | ⟨1, _⟩ => show q.val = win0_5.index t (1 : Fin 2) * 128 + 1 * q.val; rw [e1]; omega

/-- WHAT POINT `t` WRITES BACK: rows `t · 5000 …` of the reference's rectified layer of the arrays the region finds. -/
theorem written0 (c : Dev nD) (t : Fin cfg0.N) :
    (dat0 (F := Ideal) V c).flushed 5 t = ((cfg0.win 5).blk t).view.read (Elt Ideal)
      (Cert.Bridge.denseRelu (V c main_v23) (V c main_v13) (V c main_v25) (V c main_v27) (V c main_v30)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S1x128) hz2]
  rw [pay0_eq, waBlock0_eq, wbBlock0_eq, biasBlock0_eq]
  exact outBlock0_of_rows t _ _ (combineRelu_rows _ _ _ _ _ _ _ t.val (pointLt0 t) (aggBlock0_apply V c t) (hBlock0_apply V c t))

/-- An index of the output array is in point `t`'s block iff each coordinate is in the block's range on its axis. -/
theorem mem_outBlock0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- Row `r` of the output is in the block of point `r / 5000`: the ten blocks fill the array. -/
theorem rowsCovered0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := Gen.N_0
  let t : Fin cfg0.N := ⟨(i 0).val / 5000, by rw [hN]; omega⟩
  obtain ⟨-, -, -, -, -, -, -, -, -, -, e0, e1⟩ := blockIndex0 t
  have e0' : win0_5.index t (0 : Fin 2) = (i 0).val / 5000 := e0
  refine ⟨t, flush0_5 t, ?_⟩
  rw [mem_outBlock0]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 128 ≤ (i 1).val ∧ (i 1).val < win0_5.index t (1 : Fin 2) * 128 + 128; rw [e1]; omega

/-- THE OUTPUT ARRAY after region 0: the reference's rectified layer of the arrays the region finds. -/
theorem out0 (c : Dev nD) :
    (dat0 (F := Ideal) V c).arrAt 5 cfg0.N
      = Cert.Bridge.denseRelu (V c main_v23) (V c main_v13) (V c main_v25) (V c main_v27) (V c main_v30) :=
  (dat0 (F := Ideal) V c).arrAt_eq_of_cover 5 _ (fun t _ => written0 V c t) rowsCovered0

end Cert.KernelIdeal.RegionValue

end
-- ==== Proof.RegionValue1.lean ====
/-
  Region 1 of the kernel's program: the array its ten grid points leave in the output window. Point t takes rows
  t·5000 … t·5000+4999 of the two node arrays and the whole of the two weight matrices and the bias row, and writes the
  combine step of those rows into rows t·5000 … of the output; a row of the rectified layer depends on the same row of the
  node arrays only, so what point t writes is that block of rows of the reference's whole-array function, and the ten
  blocks fill the 50000 rows.
-/
import proofs.«172049_j60413009985910_1_alg».proof.Proof.Gen.KernelIdeal.Frame
import proofs.«172049_j60413009985910_1_alg».proof.Proof.RegionValueLemmas

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the ten points: the three row-blocked windows sit at block row `t`, column block 0;
    the weight and bias windows at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem pointLt1 (t : Fin cfg1.N) : t.val < 10 := Nat.lt_of_lt_of_eq t.isLt Gen.N_1

/-- The first node array's block at point `t`: its rows `t · 5000 …`. -/
theorem aggBlock1_apply (c : Dev nD) (t : Fin cfg1.N) (p : Fin 5000) (k : Fin 128) :
    (iblk1 V c 0 t : FVec Ideal S5000x128 .f32) (ix2 p k)
      = (V c main_v41 : FVec Ideal S50000x128 .f32) (ix2 (blockRow t.val (pointLt1 t) p) k) := by
  obtain ⟨e0, e1, -⟩ := blockIndex1 t
  unfold iblk1
  rw [View.read_apply]
  show V c main_v41 _ = V c main_v41 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The second node array's block at point `t`: its rows `t · 5000 …`. -/
theorem hBlock1_apply (c : Dev nD) (t : Fin cfg1.N) (p : Fin 5000) (k : Fin 128) :
    (iblk1 V c 1 t : FVec Ideal S5000x128 .f32) (ix2 p k)
      = (V c main_v31 : FVec Ideal S50000x128 .f32) (ix2 (blockRow t.val (pointLt1 t) p) k) := by
  obtain ⟨-, -, e0, e1, -⟩ := blockIndex1 t
  unfold iblk1
  rw [View.read_apply]
  show V c main_v31 _ = V c main_v31 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The two weight windows and the bias window hold their whole arrays at every point. -/
theorem waBlock1_eq (c : Dev nD) (t : Fin cfg1.N) :
    (iblk1 V c 2 t : FVec Ideal S128x128 .f32) = (V c main_v43 : FVec Ideal S128x128 .f32) := by
  obtain ⟨-, -, -, -, e0, e1, -⟩ := blockIndex1 t
  funext y
  unfold iblk1
  rw [View.read_apply]
  show V c main_v43 _ = V c main_v43 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem wbBlock1_eq (c : Dev nD) (t : Fin cfg1.N) :
    (iblk1 V c 3 t : FVec Ideal S128x128 .f32) = (V c main_v45 : FVec Ideal S128x128 .f32) := by
  obtain ⟨-, -, -, -, -, -, e0, e1, -⟩ := blockIndex1 t
  funext y
  unfold iblk1
  rw [View.read_apply]
  show V c main_v45 _ = V c main_v45 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem biasBlock1_eq (c : Dev nD) (t : Fin cfg1.N) :
    (iblk1 V c 4 t : FVec Ideal S1x128 .f32) = (V c main_v48 : FVec Ideal S1x128 .f32) := by
  obtain ⟨-, -, -, -, -, -, -, -, e0, e1, -⟩ := blockIndex1 t
  funext y
  unfold iblk1
  rw [View.read_apply]
  show V c main_v48 _ = V c main_v48 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- A block whose row `p` is row `t · 5000 + p` of a whole array `G` is `G` read through the output window's block at `t`. -/
theorem outBlock1_of_rows (t : Fin cfg1.N) (X : FVec Ideal S5000x128 .f32) (G : FVec Ideal S50000x128 .f32)
    (h : ∀ (p : Fin 5000) (q : Fin 128), X (ix2 p q) = G (ix2 (blockRow t.val (pointLt1 t) p) q)) :
    (cfg1.win 5).cut (grid1.coords t) X = ((cfg1.win 5).blk t).view.read (Elt Ideal) G := by
  obtain ⟨-, -, -, -, -, -, -, -, -, -, e0, e1⟩ := blockIndex1 t
  funext y
  rw [View.read_apply]
  obtain ⟨p, q, rfl⟩ : ∃ (p : Fin 5000) (q : Fin 128), y = ix2 p q := ⟨y 0, y 1, eq_ix2 (n0 := 5000) (n1 := 128) y⟩
  show X (ix2 p q) = G _
  rw [h p q]
  congr 1
  funext a
  apply Fin.ext
  match a with
  | ⟨0, _⟩ => show t.val * 5000 + p.val = win1_5.index t (0 : Fin 2) * 5000 + 1 * p.val; rw [e0]; omega
  | ⟨1, _⟩ => show q.val = win1_5.index t (1 : Fin 2) * 128 + 1 * q.val; rw [e1]; omega

/-- WHAT POINT `t` WRITES BACK: rows `t · 5000 …` of the reference's rectified layer of the arrays the region finds. -/
theorem written1 (c : Dev nD) (t : Fin cfg1.N) :
    (dat1 (F := Ideal) V c).flushed 5 t = ((cfg1.win 5).blk t).view.read (Elt Ideal)
      (Cert.Bridge.denseRelu (V c main_v41) (V c main_v31) (V c main_v43) (V c main_v45) (V c main_v48)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S1x128) hz2]
  rw [pay1_eq, waBlock1_eq, wbBlock1_eq, biasBlock1_eq]
  exact outBlock1_of_rows t _ _ (combineRelu_rows _ _ _ _ _ _ _ t.val (pointLt1 t) (aggBlock1_apply V c t) (hBlock1_apply V c t))

/-- An index of the output array is in point `t`'s block iff each coordinate is in the block's range on its axis. -/
theorem mem_outBlock1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v49).slice (win1_5.rect t)).set ↔ _
  rw [View.set_slice_whole, Rect.mem_set_unit]
  exact Iff.rfl

/-- Row `r` of the output is in the block of point `r / 5000`: the ten blocks fill the array. -/
theorem rowsCovered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := Gen.N_1
  let t : Fin cfg1.N := ⟨(i 0).val / 5000, by rw [hN]; omega⟩
  obtain ⟨-, -, -, -, -, -, -, -, -, -, e0, e1⟩ := blockIndex1 t
  have e0' : win1_5.index t (0 : Fin 2) = (i 0).val / 5000 := e0
  refine ⟨t, flush1_5 t, ?_⟩
  rw [mem_outBlock1]
  intro a
  match a with
  | ⟨0, _⟩ => show win1_5.index t (0 : Fin 2) * 5000 ≤ (i 0).val ∧ (i 0).val < win1_5.index t (0 : Fin 2) * 5000 + 5000; rw [e0']; omega
  | ⟨1, _⟩ => show win1_5.index t (1 : Fin 2) * 128 ≤ (i 1).val ∧ (i 1).val < win1_5.index t (1 : Fin 2) * 128 + 128; rw [e1]; omega

/-- THE OUTPUT ARRAY after region 1: the reference's rectified layer of the arrays the region finds. -/
theorem out1 (c : Dev nD) :
    (dat1 (F := Ideal) V c).arrAt 5 cfg1.N
      = Cert.Bridge.denseRelu (V c main_v41) (V c main_v31) (V c main_v43) (V c main_v45) (V c main_v48) :=
  (dat1 (F := Ideal) V c).arrAt_eq_of_cover 5 _ (fun t _ => written1 V c t) rowsCovered1

end Cert.KernelIdeal.RegionValue

end
-- ==== Proof.RegionValue2.lean ====
/-
  Region 2 of the kernel's program: the array its ten grid points leave in the output window. Point t takes rows
  t·5000 … t·5000+4999 of the two node arrays and the whole of the two weight matrices and the bias row, and writes the
  combine step of those rows into rows t·5000 … of the output; a row of the rectified layer depends on the same row of the
  node arrays only, so what point t writes is that block of rows of the reference's whole-array function, and the ten
  blocks fill the 50000 rows.
-/
import proofs.«172049_j60413009985910_1_alg».proof.Proof.Gen.KernelIdeal.Frame
import proofs.«172049_j60413009985910_1_alg».proof.Proof.RegionValueLemmas

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the ten points: the three row-blocked windows sit at block row `t`, column block 0;
    the weight and bias windows at block (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem pointLt2 (t : Fin cfg2.N) : t.val < 10 := Nat.lt_of_lt_of_eq t.isLt Gen.N_2

/-- The first node array's block at point `t`: its rows `t · 5000 …`. -/
theorem aggBlock2_apply (c : Dev nD) (t : Fin cfg2.N) (p : Fin 5000) (k : Fin 128) :
    (iblk2 V c 0 t : FVec Ideal S5000x128 .f32) (ix2 p k)
      = (V c main_v67 : FVec Ideal S50000x128 .f32) (ix2 (blockRow t.val (pointLt2 t) p) k) := by
  obtain ⟨e0, e1, -⟩ := blockIndex2 t
  unfold iblk2
  rw [View.read_apply]
  show V c main_v67 _ = V c main_v67 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The second node array's block at point `t`: its rows `t · 5000 …`. -/
theorem hBlock2_apply (c : Dev nD) (t : Fin cfg2.N) (p : Fin 5000) (k : Fin 128) :
    (iblk2 V c 1 t : FVec Ideal S5000x128 .f32) (ix2 p k)
      = (V c main_v49 : FVec Ideal S50000x128 .f32) (ix2 (blockRow t.val (pointLt2 t) p) k) := by
  obtain ⟨-, -, e0, e1, -⟩ := blockIndex2 t
  unfold iblk2
  rw [View.read_apply]
  show V c main_v49 _ = V c main_v49 _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

/-- The two weight windows and the bias window hold their whole arrays at every point. -/
theorem waBlock2_eq (c : Dev nD) (t : Fin cfg2.N) :
    (iblk2 V c 2 t : FVec Ideal S128x128 .f32) = (V c main_v69 : FVec Ideal S128x128 .f32) := by
  obtain ⟨-, -, -, -, e0, e1, -⟩ := blockIndex2 t
  funext y
  unfold iblk2
  rw [View.read_apply]
  show V c main_v69 _ = V c main_v69 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem wbBlock2_eq (c : Dev nD) (t : Fin cfg2.N) :
    (iblk2 V c 3 t : FVec Ideal S128x128 .f32) = (V c main_v71 : FVec Ideal S128x128 .f32) := by
  obtain ⟨-, -, -, -, -, -, e0, e1, -⟩ := blockIndex2 t
  funext y
  unfold iblk2
  rw [View.read_apply]
  show V c main_v71 _ = V c main_v71 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem biasBlock2_eq (c : Dev nD) (t : Fin cfg2.N) :
    (iblk2 V c 4 t : FVec Ideal S1x128 .f32) = (V c main_v74 : FVec Ideal S1x128 .f32) := by
  obtain ⟨-, -, -, -, -, -, -, -, e0, e1, -⟩ := blockIndex2 t
  funext y
  unfold iblk2
  rw [View.read_apply]
  show V c main_v74 _ = V c main_v74 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- A block whose row `p` is row `t · 5000 + p` of a whole array `G` is `G` read through the output window's block at `t`. -/
theorem outBlock2_of_rows (t : Fin cfg2.N) (X : FVec Ideal S5000x128 .f32) (G : FVec Ideal S50000x128 .f32)
    (h : ∀ (p : Fin 5000) (q : Fin 128), X (ix2 p q) = G (ix2 (blockRow t.val (pointLt2 t) p) q)) :
    (cfg2.win 5).cut (grid2.coords t) X = ((cfg2.win 5).blk t).view.read (Elt Ideal) G := by
  obtain ⟨-, -, -, -, -, -, -, -, -, -, e0, e1⟩ := blockIndex2 t
  funext y
  rw [View.read_apply]
  obtain ⟨p, q, rfl⟩ : ∃ (p : Fin 5000) (q : Fin 128), y = ix2 p q := ⟨y 0, y 1, eq_ix2 (n0 := 5000) (n1 := 128) y⟩
  show X (ix2 p q) = G _
  rw [h p q]
  congr 1
  funext a
  apply Fin.ext
  match a with
  | ⟨0, _⟩ => show t.val * 5000 + p.val = win2_5.index t (0 : Fin 2) * 5000 + 1 * p.val; rw [e0]; omega
  | ⟨1, _⟩ => show q.val = win2_5.index t (1 : Fin 2) * 128 + 1 * q.val; rw [e1]; omega

/-- WHAT POINT `t` WRITES BACK: rows `t · 5000 …` of the reference's rectified layer of the arrays the region finds. -/
theorem written2 (c : Dev nD) (t : Fin cfg2.N) :
    (dat2 (F := Ideal) V c).flushed 5 t = ((cfg2.win 5).blk t).view.read (Elt Ideal)
      (Cert.Bridge.denseRelu (V c main_v67) (V c main_v49) (V c main_v69) (V c main_v71) (V c main_v74)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S1x128) hz2]
  rw [pay2_eq, waBlock2_eq, wbBlock2_eq, biasBlock2_eq]
  exact outBlock2_of_rows t _ _ (combineRelu_rows _ _ _ _ _ _ _ t.val (pointLt2 t) (aggBlock2_apply V c t) (hBlock2_apply V c t))

/-- An index of the output array is in point `t`'s block iff each coordinate is in the block's range on its axis. -/
theorem mem_outBlock2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v75).slice (win2_5.rect t)).set ↔ _
  rw [View.set_slice_whole, Rect.mem_set_unit]
  exact Iff.rfl

/-- Row `r` of the output is in the block of point `r / 5000`: the ten blocks fill the array. -/
theorem rowsCovered2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := Gen.N_2
  let t : Fin cfg2.N := ⟨(i 0).val / 5000, by rw [hN]; omega⟩
  obtain ⟨-, -, -, -, -, -, -, -, -, -, e0, e1⟩ := blockIndex2 t
  have e0' : win2_5.index t (0 : Fin 2) = (i 0).val / 5000 := e0
  refine ⟨t, flush2_5 t, ?_⟩
  rw [mem_outBlock2]
  intro a
  match a with
  | ⟨0, _⟩ => show win2_5.index t (0 : Fin 2) * 5000 ≤ (i 0).val ∧ (i 0).val < win2_5.index t (0 : Fin 2) * 5000 + 5000; rw [e0']; omega
  | ⟨1, _⟩ => show win2_5.index t (1 : Fin 2) * 128 ≤ (i 1).val ∧ (i 1).val < win2_5.index t (1 : Fin 2) * 128 + 128; rw [e1]; omega

/-- THE OUTPUT ARRAY after region 2: the reference's rectified layer of the arrays the region finds. -/
theorem out2 (c : Dev nD) :
    (dat2 (F := Ideal) V c).arrAt 5 cfg2.N
      = Cert.Bridge.denseRelu (V c main_v67) (V c main_v49) (V c main_v69) (V c main_v71) (V c main_v74) :=
  (dat2 (F := Ideal) V c).arrAt_eq_of_cover 5 _ (fun t _ => written2 V c t) rowsCovered2

end Cert.KernelIdeal.RegionValue

end
-- ==== Proof.RegionValue3.lean ====
/-
  Region 3 of the kernel's program: the array its ten grid points leave in the output window. Point t takes rows
  t·5000 … t·5000+4999 of the two node arrays and the whole of the two weight matrices and the bias row, and writes the
  combine step of those rows into rows t·5000 … of the output; a row of the layer (no rectifier) depends on the same row of the
  node arrays only, so what point t writes is that block of rows of the reference's whole-array function, and the ten
  blocks fill the 50000 rows.
-/
import proofs.«172049_j60413009985910_1_alg».proof.Proof.Gen.KernelIdeal.Frame
import proofs.«172049_j60413009985910_1_alg».proof.Proof.RegionValueLemmas

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the ten points: the three row-blocked windows sit at block row `t`, column block 0;
    the weight and bias windows at block (0, 0). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem pointLt3 (t : Fin cfg3.N) : t.val < 10 := Nat.lt_of_lt_of_eq t.isLt Gen.N_3

/-- The first node array's block at point `t`: its rows `t · 5000 …`. -/
theorem aggBlock3_apply (c : Dev nD) (t : Fin cfg3.N) (p : Fin 5000) (k : Fin 128) :
    (iblk3 V c 0 t : FVec Ideal S5000x128 .f32) (ix2 p k)
      = (V c main_v87 : FVec Ideal S50000x128 .f32) (ix2 (blockRow t.val (pointLt3 t) p) k) := by
  obtain ⟨e0, e1, -⟩ := blockIndex3 t
  unfold iblk3
  rw [View.read_apply]
  show V c main_v87 _ = V c main_v87 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The second node array's block at point `t`: its rows `t · 5000 …`. -/
theorem hBlock3_apply (c : Dev nD) (t : Fin cfg3.N) (p : Fin 5000) (k : Fin 128) :
    (iblk3 V c 1 t : FVec Ideal S5000x128 .f32) (ix2 p k)
      = (V c main_v75 : FVec Ideal S50000x128 .f32) (ix2 (blockRow t.val (pointLt3 t) p) k) := by
  obtain ⟨-, -, e0, e1, -⟩ := blockIndex3 t
  unfold iblk3
  rw [View.read_apply]
  show V c main_v75 _ = V c main_v75 _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * k.val = k.val; rw [e1]; omega

/-- The two weight windows and the bias window hold their whole arrays at every point. -/
theorem waBlock3_eq (c : Dev nD) (t : Fin cfg3.N) :
    (iblk3 V c 2 t : FVec Ideal S128x128 .f32) = (V c main_v89 : FVec Ideal S128x128 .f32) := by
  obtain ⟨-, -, -, -, e0, e1, -⟩ := blockIndex3 t
  funext y
  unfold iblk3
  rw [View.read_apply]
  show V c main_v89 _ = V c main_v89 _
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem wbBlock3_eq (c : Dev nD) (t : Fin cfg3.N) :
    (iblk3 V c 3 t : FVec Ideal S128x128 .f32) = (V c main_v91 : FVec Ideal S128x128 .f32) := by
  obtain ⟨-, -, -, -, -, -, e0, e1, -⟩ := blockIndex3 t
  funext y
  unfold iblk3
  rw [View.read_apply]
  show V c main_v91 _ = V c main_v91 _
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

theorem biasBlock3_eq (c : Dev nD) (t : Fin cfg3.N) :
    (iblk3 V c 4 t : FVec Ideal S1x128 .f32) = (V c main_v94 : FVec Ideal S1x128 .f32) := by
  obtain ⟨-, -, -, -, -, -, -, -, e0, e1, -⟩ := blockIndex3 t
  funext y
  unfold iblk3
  rw [View.read_apply]
  show V c main_v94 _ = V c main_v94 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- A block whose row `p` is row `t · 5000 + p` of a whole array `G` is `G` read through the output window's block at `t`. -/
theorem outBlock3_of_rows (t : Fin cfg3.N) (X : FVec Ideal S5000x128 .f32) (G : FVec Ideal S50000x128 .f32)
    (h : ∀ (p : Fin 5000) (q : Fin 128), X (ix2 p q) = G (ix2 (blockRow t.val (pointLt3 t) p) q)) :
    (cfg3.win 5).cut (grid3.coords t) X = ((cfg3.win 5).blk t).view.read (Elt Ideal) G := by
  obtain ⟨-, -, -, -, -, -, -, -, -, -, e0, e1⟩ := blockIndex3 t
  funext y
  rw [View.read_apply]
  obtain ⟨p, q, rfl⟩ : ∃ (p : Fin 5000) (q : Fin 128), y = ix2 p q := ⟨y 0, y 1, eq_ix2 (n0 := 5000) (n1 := 128) y⟩
  show X (ix2 p q) = G _
  rw [h p q]
  congr 1
  funext a
  apply Fin.ext
  match a with
  | ⟨0, _⟩ => show t.val * 5000 + p.val = win3_5.index t (0 : Fin 2) * 5000 + 1 * p.val; rw [e0]; omega
  | ⟨1, _⟩ => show q.val = win3_5.index t (1 : Fin 2) * 128 + 1 * q.val; rw [e1]; omega

/-- WHAT POINT `t` WRITES BACK: rows `t · 5000 …` of the reference's layer (no rectifier) of the arrays the region finds. -/
theorem written3 (c : Dev nD) (t : Fin cfg3.N) :
    (dat3 (F := Ideal) V c).flushed 5 t = ((cfg3.win 5).blk t).view.read (Elt Ideal)
      (Cert.Bridge.dense (V c main_v87) (V c main_v75) (V c main_v89) (V c main_v91) (V c main_v94)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S1x128) hz2]
  rw [pay3_eq, waBlock3_eq, wbBlock3_eq, biasBlock3_eq]
  exact outBlock3_of_rows t _ _ (combine_rows _ _ _ _ _ _ _ t.val (pointLt3 t) (aggBlock3_apply V c t) (hBlock3_apply V c t))

/-- An index of the output array is in point `t`'s block iff each coordinate is in the block's range on its axis. -/
theorem mem_outBlock3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v95).slice (win3_5.rect t)).set ↔ _
  rw [View.set_slice_whole, Rect.mem_set_unit]
  exact Iff.rfl

/-- Row `r` of the output is in the block of point `r / 5000`: the ten blocks fill the array. -/
theorem rowsCovered3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := Gen.N_3
  let t : Fin cfg3.N := ⟨(i 0).val / 5000, by rw [hN]; omega⟩
  obtain ⟨-, -, -, -, -, -, -, -, -, -, e0, e1⟩ := blockIndex3 t
  have e0' : win3_5.index t (0 : Fin 2) = (i 0).val / 5000 := e0
  refine ⟨t, flush3_5 t, ?_⟩
  rw [mem_outBlock3]
  intro a
  match a with
  | ⟨0, _⟩ => show win3_5.index t (0 : Fin 2) * 5000 ≤ (i 0).val ∧ (i 0).val < win3_5.index t (0 : Fin 2) * 5000 + 5000; rw [e0']; omega
  | ⟨1, _⟩ => show win3_5.index t (1 : Fin 2) * 128 ≤ (i 1).val ∧ (i 1).val < win3_5.index t (1 : Fin 2) * 128 + 128; rw [e1]; omega

/-- THE OUTPUT ARRAY after region 3: the reference's layer (no rectifier) of the arrays the region finds. -/
theorem out3 (c : Dev nD) :
    (dat3 (F := Ideal) V c).arrAt 5 cfg3.N
      = Cert.Bridge.dense (V c main_v87) (V c main_v75) (V c main_v89) (V c main_v91) (V c main_v94) :=
  (dat3 (F := Ideal) V c).arrAt_eq_of_cover 5 _ (fun t _ => written3 V c t) rowsCovered3

end Cert.KernelIdeal.RegionValue

end
-- ==== Proof.RegionValue4.lean ====
/-
  Region 4 of the kernel's program, the final projection: one grid point, every window its whole array. The body
  computes p · w + (row b repeated) on the 64 pooled rows, entry (r, q) being (Σ_k p[r,k] w[k,q]) + b[0,q]; the
  reference's projection reads the same at every entry, so the one write-back leaves the reference's whole-array function.
-/
import proofs.«172049_j60413009985910_1_alg».proof.Proof.Gen.KernelIdeal.Frame
import proofs.«172049_j60413009985910_1_alg».proof.Proof.RegionValueLemmas

noncomputable section

open scoped BigOperators

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-! ## The projection at an entry, on both sides -/

/-- Entry (r, q) of the kernel's block `p · w + (row b repeated)`. -/
theorem projectBlock_apply (x0 : FVec Ideal S64x128 .f32) (x1 : FVec Ideal S128x32 .f32) (x2 : FVec Ideal S1x32 .f32)
    (r : Fin 64) (q : Fin 32) :
    k4_pay1 (F := Ideal) x0 x1 x2 (ix2 r q) = (∑ k : Fin 128, x0 (ix2 r k) * x1 (ix2 k q)) + x2 (ix2 (0 : Fin 1) q) := by
  unfold k4_pay1
  simp only [shapeCast_self]
  rw [addf_apply]
  have ea : matmul dot_S64x128_S128x32_S64x32_1_0_0_1_n_n none x0 x1 (constant S64x32 .f32 0x00000000#32) (ix2 r q)
      = ∑ k : Fin 128, x0 (ix2 r k) * x1 (ix2 k q) := PlainMatmul.plainMatmul_apply (M := 64) (K := 128) (N := 32) none x0 x1 r q
  have eb : broadcastTo S64x32 x2 Gen.broadcasts_S1x32_S64x32 (ix2 r q) = x2 (ix2 (0 : Fin 1) q) :=
    broadcastTo_1b_ab_apply (a := 64) (b := 32) x2 Gen.broadcasts_S1x32_S64x32 r q
  rw [ea, eb]

/-- Entry (r, q) of the reference's projection. -/
theorem project_apply (p : FVec Ideal S64x128 .f32) (w : FVec Ideal S128x32 .f32) (b1 : FVec Ideal S1x32 .f32)
    (r : Fin 64) (q : Fin 32) :
    Cert.Bridge.project p w b1 (ix2 r q) = (∑ k : Fin 128, p (ix2 r k) * w (ix2 k q)) + b1 (ix2 (0 : Fin 1) q) := by
  unfold Cert.Bridge.project
  rw [addf_apply]
  have ea : Host.dotGeneral (F := Ideal) Cert.ReferenceIdeal.dot_S64x128_S128x32_S64x32_1_0_0_1_n_n none p w (ix2 r q)
      = ∑ k : Fin 128, p (ix2 r k) * w (ix2 k q) := PlainDot.plainDot_apply (M := 64) (K := 128) (N := 32) none p w r q
  have eb : broadcastInDim Cert.ReferenceIdeal.S64x32 ![0, 1] Cert.ReferenceIdeal.Facts₀.bcast_S1x32_S64x32_0_1 b1 (ix2 r q)
      = b1 (ix2 (0 : Fin 1) q) := HostReads.bcast_row_apply (a := 64) (b := 32) _ b1 r q
  rw [ea, eb]

/-- So the kernel's block IS the reference's projection of the same three arrays. -/
theorem projectBlock_eq (x0 : FVec Ideal S64x128 .f32) (x1 : FVec Ideal S128x32 .f32) (x2 : FVec Ideal S1x32 .f32) :
    k4_pay1 (F := Ideal) x0 x1 x2 = Cert.Bridge.project x0 x1 x2 := by
  funext y
  obtain ⟨r, q, rfl⟩ : ∃ (r : Fin 64) (q : Fin 32), y = ix2 r q := ⟨y 0, y 1, eq_ix2 (n0 := 64) (n1 := 32) y⟩
  rw [projectBlock_apply, project_apply]

/-! ## The one grid point's windows -/

variable (V : (c : Dev nD) → (b : Ref sig .tc) → Buf (Elt Ideal) ((c : Thread nD τ).loc b))

/-- The printed index maps at the one point: every window at block (0, 0). -/
theorem blockIndex4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Each input window holds its whole array. -/
theorem pooledBlock4_eq (c : Dev nD) (t : Fin cfg4.N) :
    (iblk4 V c 0 t : FVec Ideal S64x128 .f32) = (V c main_v106 : FVec Ideal S64x128 .f32) := by
  obtain ⟨e0, e1, -⟩ := blockIndex4 t
  funext y
  unfold iblk4
  rw [View.read_apply]
  show V c main_v106 _ = V c main_v106 _
  congr 1
  funext a
  apply Fin.ext
  match a with
  | ⟨0, _⟩ => show win4_0.index t (0 : Fin 2) * 64 + 1 * (y 0).val = (y 0).val; rw [e0]; omega
  | ⟨1, _⟩ => show win4_0.index t (1 : Fin 2) * 128 + 1 * (y 1).val = (y 1).val; rw [e1]; omega

theorem weightBlock4_eq (c : Dev nD) (t : Fin cfg4.N) :
    (iblk4 V c 1 t : FVec Ideal S128x32 .f32) = (V c main_arg9 : FVec Ideal S128x32 .f32) := by
  obtain ⟨-, -, e0, e1, -⟩ := blockIndex4 t
  funext y
  unfold iblk4
  rw [View.read_apply]
  show V c main_arg9 _ = V c main_arg9 _
  congr 1
  funext a
  apply Fin.ext
  match a with
  | ⟨0, _⟩ => show win4_1.index t (0 : Fin 2) * 128 + 1 * (y 0).val = (y 0).val; rw [e0]; omega
  | ⟨1, _⟩ => show win4_1.index t (1 : Fin 2) * 32 + 1 * (y 1).val = (y 1).val; rw [e1]; omega

theorem biasBlock4_eq (c : Dev nD) (t : Fin cfg4.N) :
    (iblk4 V c 2 t : FVec Ideal S1x32 .f32) = (V c main_v107 : FVec Ideal S1x32 .f32) := by
  obtain ⟨-, -, -, -, e0, e1, -⟩ := blockIndex4 t
  funext y
  unfold iblk4
  rw [View.read_apply]
  show V c main_v107 _ = V c main_v107 _
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 32 + 1 * (y 1).val = (y 1).val; rw [e1]; omega

/-- The output window's block is the whole output array: a whole-array contents read through it is itself. -/
theorem outBlock4_whole (t : Fin cfg4.N) (G : FVec Ideal S64x32 .f32) :
    (cfg4.win 3).cut (grid4.coords t) G = ((cfg4.win 3).blk t).view.read (Elt Ideal) G := by
  obtain ⟨-, -, -, -, -, -, e0, e1⟩ := blockIndex4 t
  funext y
  rw [View.read_apply]
  show G _ = G _
  congr 1
  funext a
  apply Fin.ext
  match a with
  | ⟨0, _⟩ => show (y 0).val = win4_3.index t (0 : Fin 2) * 64 + 1 * (y 0).val; rw [e0]; omega
  | ⟨1, _⟩ => show (y 1).val = win4_3.index t (1 : Fin 2) * 32 + 1 * (y 1).val; rw [e1]; omega

/-- WHAT THE POINT WRITES BACK: the reference's projection of the arrays the region finds. -/
theorem written4 (c : Dev nD) (t : Fin cfg4.N) :
    (dat4 (F := Ideal) V c).flushed 3 t = ((cfg4.win 3).blk t).view.read (Elt Ideal)
      (Cert.Bridge.project (V c main_v106) (V c main_arg9) (V c main_v107)) := by
  show (cfg4.win 3).cut (grid4.coords t) ((dat4 V c).after 3 t) = _
  rw [after4_3]
  unfold out4_3
  rw [View.canon_unit_zero hz2]
  simp only [View.ld_unit_zero (S := S64x128) hz2, View.ld_unit_zero (S := S128x32) hz2, View.ld_unit_zero (S := S1x32) hz2]
  rw [projectBlock_eq, pooledBlock4_eq, weightBlock4_eq, biasBlock4_eq]
  exact outBlock4_whole t _

/-- An index of the output array is in the point's block iff each coordinate is in the block's range on its axis. -/
theorem mem_outBlock4 (t : Fin cfg4.N) (i : S64x32.Idx) :
    i ∈ ((cfg4.win 3).blk t).view.set ↔ ∀ a : Fin 2, win4_3.index t a * S64x32.size a ≤ (i a).val ∧ (i a).val < win4_3.index t a * S64x32.size a + S64x32.size a := by
  show i ∈ ((View.whole main_v108).slice (win4_3.rect t)).set ↔ _
  rw [View.set_slice_whole, Rect.mem_set_unit]
  exact Iff.rfl

/-- The one block is the whole array. -/
theorem allCovered4 (i : S64x32.Idx) :
    ∃ t : Fin cfg4.N, (cfg4.win 3).flush t = true ∧ i ∈ ((cfg4.win 3).blk t).view.set := by
  have hi0 : (i 0).val < 64 := (i 0).isLt
  have hi1 : (i 1).val < 32 := (i 1).isLt
  obtain ⟨-, -, -, -, -, -, e0, e1⟩ := blockIndex4 t4_0
  refine ⟨t4_0, flush4_3 t4_0, ?_⟩
  rw [mem_outBlock4]
  intro a
  match a with
  | ⟨0, _⟩ => show win4_3.index t4_0 (0 : Fin 2) * 64 ≤ (i 0).val ∧ (i 0).val < win4_3.index t4_0 (0 : Fin 2) * 64 + 64; rw [e0]; omega
  | ⟨1, _⟩ => show win4_3.index t4_0 (1 : Fin 2) * 32 ≤ (i 1).val ∧ (i 1).val < win4_3.index t4_0 (1 : Fin 2) * 32 + 32; rw [e1]; omega

/-- THE OUTPUT ARRAY after region 4: the reference's projection of the arrays the region finds. -/
theorem out4 (c : Dev nD) :
    (dat4 (F := Ideal) V c).arrAt 3 cfg4.N
      = Cert.Bridge.project (V c main_v106) (V c main_arg9) (V c main_v107) :=
  (dat4 (F := Ideal) V c).arrAt_eq_of_cover 3 _ (fun t _ => written4 V c t) allCovered4

end Cert.KernelIdeal.RegionValue

end
-- ==== Proof.LibRowReshape.lean ====
/-
  A vector of b entries laid as one row: reshaping [b] to [1, b] and broadcasting [b] into [1, b] along the
  second axis are the same array — entry (0, j) is entry j.  A wrapper that reshapes a bias vector before a kernel and a
  reference that broadcasts it meet here.
-/
import Idealize.ShloMosaic.Lib.Pipeline.Value
import Idealize.ShloMosaic.Lib.ValueIdx
import proofs.«172049_j60413009985910_1_alg».proof.Proof.LibHostReads

noncomputable section

namespace Idealize.ShloMosaic.RowReshape

open Idealize.ShloMosaic Idealize.ShloMosaic.ValueIdx

/-- Reshaping a vector to a one-row matrix is placing it as that row. -/
theorem reshape_row_eq_bcast {α : Type} {b : Nat} (v : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ v h = broadcastInDim ⟨2, ![1, b]⟩ ![1] hb v := by
  funext j
  obtain ⟨z, q, rfl⟩ : ∃ (z : Fin 1) (q : Fin b), j = ix2 z q := ⟨j 0, j 1, eq_ix2 j⟩
  rw [HostReads.bcast_toRow_apply hb v z q]
  refine (shapeCast_addUnit_apply (n := 1) ![b] v h (ix2 z q)).trans ?_
  refine congrArg v (funext fun a => ?_)
  match a with
  | ⟨0, _⟩ => rfl

end Idealize.ShloMosaic.RowReshape

end
-- ==== Proof.Layer0.lean ====
/-
  The first message-passing layer: the node features standardised column by column, the source and target index vectors cut from the edge list, the aggregate (rows gathered at the sources, added up at the targets), slice 0 of the two weight stacks and of the bias stack, compared between the two programs.
  Both programs print the same host operations here, over their own buffers: from equal inputs the kernel program's
  stretch and the reference's corresponding stretch compute equal arrays (each side's fold over its operations is
  unrolled and the two terms are one).  The bias row is the one place where the texts differ: the kernel's wrapper
  reshapes the bias vector to one row, the reference broadcasts it into one row, and the two are the same array.
  The reference's dense block on these arrays is the layer function of the specification.
-/
import proofs.«172049_j60413009985910_1_alg».proof.Proof.KernelWalk
import proofs.«172049_j60413009985910_1_alg».proof.Proof.RefRunOps
import proofs.«172049_j60413009985910_1_alg».proof.Proof.LayerSpec
import proofs.«172049_j60413009985910_1_alg».proof.Proof.LibRowReshape

set_option maxRecDepth 16384

noncomputable section

namespace Cert.Bridge

open Idealize.ShloMosaic Idealize.ShloMosaic.TcCoe Idealize.ShloMosaic.StableHlo
open Cert.ReferenceIdeal.RefRun

variable (X : Valuation Cert.KernelIdeal.τ Cert.KernelIdeal.sig (Elt Ideal))
  (Y : Valuation Cert.ReferenceIdeal.τ Cert.ReferenceIdeal.sig (Elt Ideal))

/-- The first aggregate of the standardised features. -/
theorem agg0 (h_arg0 : X (Proc.devRef .tc Cert.KernelIdeal.main_arg0) = Y (Proc.devRef .tc Cert.ReferenceIdeal.main_arg0))
    (h_arg1 : X (Proc.devRef .tc Cert.KernelIdeal.main_arg1) = Y (Proc.devRef .tc Cert.ReferenceIdeal.main_arg1)) :
    after Cert.KernelIdeal.KRun.hostA0 X (Proc.devRef .tc Cert.KernelIdeal.main_v23) = after rA0 Y (Proc.devRef .tc Cert.ReferenceIdeal.main_v23) := by
  simp only [Cert.KernelIdeal.KRun.hostA0, after_append]
  after_results_simp
  simp only [h_arg0, h_arg1] <;> rfl

/-- The standardised features. -/
theorem feat0 (h_arg0 : X (Proc.devRef .tc Cert.KernelIdeal.main_arg0) = Y (Proc.devRef .tc Cert.ReferenceIdeal.main_arg0)) :
    after Cert.KernelIdeal.KRun.hostA0 X (Proc.devRef .tc Cert.KernelIdeal.main_v13) = after rA0 Y (Proc.devRef .tc Cert.ReferenceIdeal.main_v13) := by
  simp only [Cert.KernelIdeal.KRun.hostA0, after_append]
  after_results_simp
  simp only [h_arg0] <;> rfl

/-- The source index vector. -/
theorem src0 (h_arg1 : X (Proc.devRef .tc Cert.KernelIdeal.main_arg1) = Y (Proc.devRef .tc Cert.ReferenceIdeal.main_arg1)) :
    after Cert.KernelIdeal.KRun.hostA0 X (Proc.devRef .tc Cert.KernelIdeal.main_v1) = after rA0 Y (Proc.devRef .tc Cert.ReferenceIdeal.main_v1) := by
  simp only [Cert.KernelIdeal.KRun.hostA0, after_append]
  after_results_simp
  simp only [h_arg1] <;> rfl

/-- The target index vector. -/
theorem dst0 (h_arg1 : X (Proc.devRef .tc Cert.KernelIdeal.main_arg1) = Y (Proc.devRef .tc Cert.ReferenceIdeal.main_arg1)) :
    after Cert.KernelIdeal.KRun.hostA0 X (Proc.devRef .tc Cert.KernelIdeal.main_v3) = after rA0 Y (Proc.devRef .tc Cert.ReferenceIdeal.main_v3) := by
  simp only [Cert.KernelIdeal.KRun.hostA0, after_append]
  after_results_simp
  simp only [h_arg1] <;> rfl

/-- One 128 × 128 weight matrix: a slice of its stack, reshaped. -/
theorem wa0 (h_arg3 : X (Proc.devRef .tc Cert.KernelIdeal.main_arg3) = Y (Proc.devRef .tc Cert.ReferenceIdeal.main_arg3)) :
    after Cert.KernelIdeal.KRun.hostA0 X (Proc.devRef .tc Cert.KernelIdeal.main_v25) = after rB0 Y (Proc.devRef .tc Cert.ReferenceIdeal.main_v25) := by
  simp only [Cert.KernelIdeal.KRun.hostA0, after_append]
  after_results_simp
  simp only [h_arg3] <;> rfl

/-- One 128 × 128 weight matrix: a slice of its stack, reshaped. -/
theorem wb0 (h_arg5 : X (Proc.devRef .tc Cert.KernelIdeal.main_arg5) = Y (Proc.devRef .tc Cert.ReferenceIdeal.main_arg5)) :
    after Cert.KernelIdeal.KRun.hostA0 X (Proc.devRef .tc Cert.KernelIdeal.main_v27) = after rB0 Y (Proc.devRef .tc Cert.ReferenceIdeal.main_v33) := by
  simp only [Cert.KernelIdeal.KRun.hostA0, after_append]
  after_results_simp
  simp only [h_arg5] <;> rfl

/-- The bias row: the vector reshaped to [1, 128] on one side, broadcast into [1, 128] on the other. -/
theorem bias0 (h_arg4 : X (Proc.devRef .tc Cert.KernelIdeal.main_arg4) = Y (Proc.devRef .tc Cert.ReferenceIdeal.main_arg4)) :
    after Cert.KernelIdeal.KRun.hostA0 X (Proc.devRef .tc Cert.KernelIdeal.main_v30) = after rB0 Y (Proc.devRef .tc Cert.ReferenceIdeal.main_v29) := by
  simp only [Cert.KernelIdeal.KRun.hostA0, after_append]
  after_results_simp
  simp only [h_arg4]
  exact RowReshape.reshape_row_eq_bcast (b := 128) _ _ _

/-- The reference's dense block is the layer function of the arrays it reads. -/
theorem blk0 :
    after rB0 Y (Proc.devRef .tc Cert.ReferenceIdeal.main_v36) = denseRelu
      (Y (Proc.devRef .tc Cert.ReferenceIdeal.main_v23))
      (Y (Proc.devRef .tc Cert.ReferenceIdeal.main_v13))
      (after rB0 Y (Proc.devRef .tc Cert.ReferenceIdeal.main_v25))
      (after rB0 Y (Proc.devRef .tc Cert.ReferenceIdeal.main_v33))
      (after rB0 Y (Proc.devRef .tc Cert.ReferenceIdeal.main_v29)) := by
  after_results_simp
  rfl

end Cert.Bridge

end
-- ==== Proof.Layer1.lean ====
/-
  The second message-passing layer: the aggregate of the first layer's output, slice 1 of the two weight stacks and of the bias stack, compared between the two programs.
  Both programs print the same host operations here, over their own buffers: from equal inputs the kernel program's
  stretch and the reference's corresponding stretch compute equal arrays (each side's fold over its operations is
  unrolled and the two terms are one).  The bias row is the one place where the texts differ: the kernel's wrapper
  reshapes the bias vector to one row, the reference broadcasts it into one row, and the two are the same array.
  The reference's dense block on these arrays is the layer function of the specification.
-/
import proofs.«172049_j60413009985910_1_alg».proof.Proof.KernelWalk
import proofs.«172049_j60413009985910_1_alg».proof.Proof.RefRunOps
import proofs.«172049_j60413009985910_1_alg».proof.Proof.LayerSpec
import proofs.«172049_j60413009985910_1_alg».proof.Proof.LibRowReshape

set_option maxRecDepth 16384

noncomputable section

namespace Cert.Bridge

open Idealize.ShloMosaic Idealize.ShloMosaic.TcCoe Idealize.ShloMosaic.StableHlo
open Cert.ReferenceIdeal.RefRun

variable (X : Valuation Cert.KernelIdeal.τ Cert.KernelIdeal.sig (Elt Ideal))
  (Y : Valuation Cert.ReferenceIdeal.τ Cert.ReferenceIdeal.sig (Elt Ideal))

/-- The aggregate: rows gathered at the sources and added up at the targets. -/
theorem agg1 (h_v31 : X (Proc.devRef .tc Cert.KernelIdeal.main_v31) = Y (Proc.devRef .tc Cert.ReferenceIdeal.main_v36))
    (h_v1 : X (Proc.devRef .tc Cert.KernelIdeal.main_v1) = Y (Proc.devRef .tc Cert.ReferenceIdeal.main_v1))
    (h_v3 : X (Proc.devRef .tc Cert.KernelIdeal.main_v3) = Y (Proc.devRef .tc Cert.ReferenceIdeal.main_v3)) :
    after Cert.KernelIdeal.Gen.hostOps1 X (Proc.devRef .tc Cert.KernelIdeal.main_v41) = after rA1 Y (Proc.devRef .tc Cert.ReferenceIdeal.main_v46) := by
  after_results_simp
  simp only [h_v31, h_v1, h_v3] <;> rfl

/-- One 128 × 128 weight matrix: a slice of its stack, reshaped. -/
theorem wa1 (h_arg3 : X (Proc.devRef .tc Cert.KernelIdeal.main_arg3) = Y (Proc.devRef .tc Cert.ReferenceIdeal.main_arg3)) :
    after Cert.KernelIdeal.Gen.hostOps1 X (Proc.devRef .tc Cert.KernelIdeal.main_v43) = after rB1 Y (Proc.devRef .tc Cert.ReferenceIdeal.main_v48) := by
  after_results_simp
  simp only [h_arg3] <;> rfl

/-- One 128 × 128 weight matrix: a slice of its stack, reshaped. -/
theorem wb1 (h_arg5 : X (Proc.devRef .tc Cert.KernelIdeal.main_arg5) = Y (Proc.devRef .tc Cert.ReferenceIdeal.main_arg5)) :
    after Cert.KernelIdeal.Gen.hostOps1 X (Proc.devRef .tc Cert.KernelIdeal.main_v45) = after rB1 Y (Proc.devRef .tc Cert.ReferenceIdeal.main_v56) := by
  after_results_simp
  simp only [h_arg5] <;> rfl

/-- The bias row: the vector reshaped to [1, 128] on one side, broadcast into [1, 128] on the other. -/
theorem bias1 (h_arg4 : X (Proc.devRef .tc Cert.KernelIdeal.main_arg4) = Y (Proc.devRef .tc Cert.ReferenceIdeal.main_arg4)) :
    after Cert.KernelIdeal.Gen.hostOps1 X (Proc.devRef .tc Cert.KernelIdeal.main_v48) = after rB1 Y (Proc.devRef .tc Cert.ReferenceIdeal.main_v52) := by
  after_results_simp
  simp only [h_arg4]
  exact RowReshape.reshape_row_eq_bcast (b := 128) _ _ _

/-- The reference's dense block is the layer function of the arrays it reads. -/
theorem blk1 :
    after rB1 Y (Proc.devRef .tc Cert.ReferenceIdeal.main_v59) = denseRelu
      (Y (Proc.devRef .tc Cert.ReferenceIdeal.main_v46))
      (Y (Proc.devRef .tc Cert.ReferenceIdeal.main_v36))
      (after rB1 Y (Proc.devRef .tc Cert.ReferenceIdeal.main_v48))
      (after rB1 Y (Proc.devRef .tc Cert.ReferenceIdeal.main_v56))
      (after rB1 Y (Proc.devRef .tc Cert.ReferenceIdeal.main_v52)) := by
  after_results_simp
  rfl

end Cert.Bridge

end
-- ==== Proof.Layer2.lean ====
/-
  The third layer (mean aggregation): the in-degree of every node, clipped below at 1, as a column; the aggregate divided by it; slice 0 of the second pair of weight stacks and of their bias stack, compared between the two programs.
  Both programs print the same host operations here, over their own buffers: from equal inputs the kernel program's
  stretch and the reference's corresponding stretch compute equal arrays (each side's fold over its operations is
  unrolled and the two terms are one).  The bias row is the one place where the texts differ: the kernel's wrapper
  reshapes the bias vector to one row, the reference broadcasts it into one row, and the two are the same array.
  The reference's dense block on these arrays is the layer function of the specification.
-/
import proofs.«172049_j60413009985910_1_alg».proof.Proof.KernelWalk
import proofs.«172049_j60413009985910_1_alg».proof.Proof.RefRunOps
import proofs.«172049_j60413009985910_1_alg».proof.Proof.LayerSpec
import proofs.«172049_j60413009985910_1_alg».proof.Proof.LibRowReshape

set_option maxRecDepth 16384

noncomputable section

namespace Cert.Bridge

open Idealize.ShloMosaic Idealize.ShloMosaic.TcCoe Idealize.ShloMosaic.StableHlo
open Cert.ReferenceIdeal.RefRun

variable (X : Valuation Cert.KernelIdeal.τ Cert.KernelIdeal.sig (Elt Ideal))
  (Y : Valuation Cert.ReferenceIdeal.τ Cert.ReferenceIdeal.sig (Elt Ideal))

/-- The mean aggregate: the sum over incoming edges divided by the clipped in-degree. -/
theorem agg2 (h_v49 : X (Proc.devRef .tc Cert.KernelIdeal.main_v49) = Y (Proc.devRef .tc Cert.ReferenceIdeal.main_v59))
    (h_v1 : X (Proc.devRef .tc Cert.KernelIdeal.main_v1) = Y (Proc.devRef .tc Cert.ReferenceIdeal.main_v1))
    (h_v3 : X (Proc.devRef .tc Cert.KernelIdeal.main_v3) = Y (Proc.devRef .tc Cert.ReferenceIdeal.main_v3)) :
    after Cert.KernelIdeal.KRun.hostA2 X (Proc.devRef .tc Cert.KernelIdeal.main_v67) = after rA2 Y (Proc.devRef .tc Cert.ReferenceIdeal.main_v77) := by
  simp only [Cert.KernelIdeal.KRun.hostA2, after_append]
  after_results_simp
  simp only [h_v49, h_v1, h_v3] <;> rfl

/-- The clipped in-degree column. -/
theorem deg2 (h_v3 : X (Proc.devRef .tc Cert.KernelIdeal.main_v3) = Y (Proc.devRef .tc Cert.ReferenceIdeal.main_v3)) :
    after Cert.KernelIdeal.KRun.hostA2 X (Proc.devRef .tc Cert.KernelIdeal.main_v55) = after rA2 Y (Proc.devRef .tc Cert.ReferenceIdeal.main_v65) := by
  simp only [Cert.KernelIdeal.KRun.hostA2, after_append]
  after_results_simp
  simp only [h_v3] <;> rfl

/-- One 128 × 128 weight matrix: a slice of its stack, reshaped. -/
theorem wa2 (h_arg6 : X (Proc.devRef .tc Cert.KernelIdeal.main_arg6) = Y (Proc.devRef .tc Cert.ReferenceIdeal.main_arg6)) :
    after Cert.KernelIdeal.KRun.hostA2 X (Proc.devRef .tc Cert.KernelIdeal.main_v69) = after rB2 Y (Proc.devRef .tc Cert.ReferenceIdeal.main_v79) := by
  simp only [Cert.KernelIdeal.KRun.hostA2, after_append]
  after_results_simp
  simp only [h_arg6] <;> rfl

/-- One 128 × 128 weight matrix: a slice of its stack, reshaped. -/
theorem wb2 (h_arg8 : X (Proc.devRef .tc Cert.KernelIdeal.main_arg8) = Y (Proc.devRef .tc Cert.ReferenceIdeal.main_arg8)) :
    after Cert.KernelIdeal.KRun.hostA2 X (Proc.devRef .tc Cert.KernelIdeal.main_v71) = after rB2 Y (Proc.devRef .tc Cert.ReferenceIdeal.main_v87) := by
  simp only [Cert.KernelIdeal.KRun.hostA2, after_append]
  after_results_simp
  simp only [h_arg8] <;> rfl

/-- The bias row: the vector reshaped to [1, 128] on one side, broadcast into [1, 128] on the other. -/
theorem bias2 (h_arg7 : X (Proc.devRef .tc Cert.KernelIdeal.main_arg7) = Y (Proc.devRef .tc Cert.ReferenceIdeal.main_arg7)) :
    after Cert.KernelIdeal.KRun.hostA2 X (Proc.devRef .tc Cert.KernelIdeal.main_v74) = after rB2 Y (Proc.devRef .tc Cert.ReferenceIdeal.main_v83) := by
  simp only [Cert.KernelIdeal.KRun.hostA2, after_append]
  after_results_simp
  simp only [h_arg7]
  exact RowReshape.reshape_row_eq_bcast (b := 128) _ _ _

/-- The reference's dense block is the layer function of the arrays it reads. -/
theorem blk2 :
    after rB2 Y (Proc.devRef .tc Cert.ReferenceIdeal.main_v90) = denseRelu
      (Y (Proc.devRef .tc Cert.ReferenceIdeal.main_v77))
      (Y (Proc.devRef .tc Cert.ReferenceIdeal.main_v59))
      (after rB2 Y (Proc.devRef .tc Cert.ReferenceIdeal.main_v79))
      (after rB2 Y (Proc.devRef .tc Cert.ReferenceIdeal.main_v87))
      (after rB2 Y (Proc.devRef .tc Cert.ReferenceIdeal.main_v83)) := by
  after_results_simp
  rfl

end Cert.Bridge

end
-- ==== Proof.Layer3.lean ====
/-
  The fourth layer (mean aggregation, no rectifier): the aggregate of the third layer's output divided by the same clipped in-degree column; slice 1 of the second pair of weight stacks and of their bias stack, compared between the two programs.
  Both programs print the same host operations here, over their own buffers: from equal inputs the kernel program's
  stretch and the reference's corresponding stretch compute equal arrays (each side's fold over its operations is
  unrolled and the two terms are one).  The bias row is the one place where the texts differ: the kernel's wrapper
  reshapes the bias vector to one row, the reference broadcasts it into one row, and the two are the same array.
  The reference's dense block on these arrays is the layer function of the specification.
-/
import proofs.«172049_j60413009985910_1_alg».proof.Proof.KernelWalk
import proofs.«172049_j60413009985910_1_alg».proof.Proof.RefRunOps
import proofs.«172049_j60413009985910_1_alg».proof.Proof.LayerSpec
import proofs.«172049_j60413009985910_1_alg».proof.Proof.LibRowReshape

set_option maxRecDepth 16384

noncomputable section

namespace Cert.Bridge

open Idealize.ShloMosaic Idealize.ShloMosaic.TcCoe Idealize.ShloMosaic.StableHlo
open Cert.ReferenceIdeal.RefRun

variable (X : Valuation Cert.KernelIdeal.τ Cert.KernelIdeal.sig (Elt Ideal))
  (Y : Valuation Cert.ReferenceIdeal.τ Cert.ReferenceIdeal.sig (Elt Ideal))

/-- The mean aggregate. -/
theorem agg3 (h_v75 : X (Proc.devRef .tc Cert.KernelIdeal.main_v75) = Y (Proc.devRef .tc Cert.ReferenceIdeal.main_v90))
    (h_v1 : X (Proc.devRef .tc Cert.KernelIdeal.main_v1) = Y (Proc.devRef .tc Cert.ReferenceIdeal.main_v1))
    (h_v3 : X (Proc.devRef .tc Cert.KernelIdeal.main_v3) = Y (Proc.devRef .tc Cert.ReferenceIdeal.main_v3))
    (h_v55 : X (Proc.devRef .tc Cert.KernelIdeal.main_v55) = Y (Proc.devRef .tc Cert.ReferenceIdeal.main_v65)) :
    after Cert.KernelIdeal.Gen.hostOps3 X (Proc.devRef .tc Cert.KernelIdeal.main_v87) = after rA3 Y (Proc.devRef .tc Cert.ReferenceIdeal.main_v102) := by
  after_results_simp
  simp only [h_v75, h_v1, h_v3, h_v55] <;> rfl

/-- One 128 × 128 weight matrix: a slice of its stack, reshaped. -/
theorem wa3 (h_arg6 : X (Proc.devRef .tc Cert.KernelIdeal.main_arg6) = Y (Proc.devRef .tc Cert.ReferenceIdeal.main_arg6)) :
    after Cert.KernelIdeal.Gen.hostOps3 X (Proc.devRef .tc Cert.KernelIdeal.main_v89) = after rB3 Y (Proc.devRef .tc Cert.ReferenceIdeal.main_v104) := by
  after_results_simp
  simp only [h_arg6] <;> rfl

/-- One 128 × 128 weight matrix: a slice of its stack, reshaped. -/
theorem wb3 (h_arg8 : X (Proc.devRef .tc Cert.KernelIdeal.main_arg8) = Y (Proc.devRef .tc Cert.ReferenceIdeal.main_arg8)) :
    after Cert.KernelIdeal.Gen.hostOps3 X (Proc.devRef .tc Cert.KernelIdeal.main_v91) = after rB3 Y (Proc.devRef .tc Cert.ReferenceIdeal.main_v112) := by
  after_results_simp
  simp only [h_arg8] <;> rfl

/-- The bias row: the vector reshaped to [1, 128] on one side, broadcast into [1, 128] on the other. -/
theorem bias3 (h_arg7 : X (Proc.devRef .tc Cert.KernelIdeal.main_arg7) = Y (Proc.devRef .tc Cert.ReferenceIdeal.main_arg7)) :
    after Cert.KernelIdeal.Gen.hostOps3 X (Proc.devRef .tc Cert.KernelIdeal.main_v94) = after rB3 Y (Proc.devRef .tc Cert.ReferenceIdeal.main_v108) := by
  after_results_simp
  simp only [h_arg7]
  exact RowReshape.reshape_row_eq_bcast (b := 128) _ _ _

/-- The reference's dense block is the layer function of the arrays it reads. -/
theorem blk3 :
    after rB3 Y (Proc.devRef .tc Cert.ReferenceIdeal.main_v114) = dense
      (Y (Proc.devRef .tc Cert.ReferenceIdeal.main_v102))
      (Y (Proc.devRef .tc Cert.ReferenceIdeal.main_v90))
      (after rB3 Y (Proc.devRef .tc Cert.ReferenceIdeal.main_v104))
      (after rB3 Y (Proc.devRef .tc Cert.ReferenceIdeal.main_v112))
      (after rB3 Y (Proc.devRef .tc Cert.ReferenceIdeal.main_v108)) := by
  after_results_simp
  rfl

end Cert.Bridge

end
-- ==== Proof.Layer4.lean ====
/-
  The pooling and the projection: the node rows added up per graph, divided by the clipped number of nodes of the graph; the output bias laid as a row, compared between the two programs.
  Both programs print the same host operations here, over their own buffers: from equal inputs the kernel program's
  stretch and the reference's corresponding stretch compute equal arrays (each side's fold over its operations is
  unrolled and the two terms are one).  The bias row is the one place where the texts differ: the kernel's wrapper
  reshapes the bias vector to one row, the reference broadcasts it into one row, and the two are the same array.
  The reference's dense block on these arrays is the layer function of the specification.
-/
import proofs.«172049_j60413009985910_1_alg».proof.Proof.KernelWalk
import proofs.«172049_j60413009985910_1_alg».proof.Proof.RefRunOps
import proofs.«172049_j60413009985910_1_alg».proof.Proof.LayerSpec
import proofs.«172049_j60413009985910_1_alg».proof.Proof.LibRowReshape

set_option maxRecDepth 16384

noncomputable section

namespace Cert.Bridge

open Idealize.ShloMosaic Idealize.ShloMosaic.TcCoe Idealize.ShloMosaic.StableHlo
open Cert.ReferenceIdeal.RefRun

variable (X : Valuation Cert.KernelIdeal.τ Cert.KernelIdeal.sig (Elt Ideal))
  (Y : Valuation Cert.ReferenceIdeal.τ Cert.ReferenceIdeal.sig (Elt Ideal))

/-- The per-graph mean of the last layer's rows. -/
theorem pool4 (h_v95 : X (Proc.devRef .tc Cert.KernelIdeal.main_v95) = Y (Proc.devRef .tc Cert.ReferenceIdeal.main_v114))
    (h_arg2 : X (Proc.devRef .tc Cert.KernelIdeal.main_arg2) = Y (Proc.devRef .tc Cert.ReferenceIdeal.main_arg2)) :
    after Cert.KernelIdeal.KRun.hostA4 X (Proc.devRef .tc Cert.KernelIdeal.main_v106) = after rA4 Y (Proc.devRef .tc Cert.ReferenceIdeal.main_v125) := by
  simp only [Cert.KernelIdeal.KRun.hostA4, after_append]
  after_results_simp
  simp only [h_v95, h_arg2] <;> rfl

/-- The bias row: the vector reshaped to [1, 32] on one side, broadcast into [1, 32] on the other. -/
theorem bias4 (h_arg10 : X (Proc.devRef .tc Cert.KernelIdeal.main_arg10) = Y (Proc.devRef .tc Cert.ReferenceIdeal.main_arg10)) :
    after Cert.KernelIdeal.KRun.hostA4 X (Proc.devRef .tc Cert.KernelIdeal.main_v107) = after rB4 Y (Proc.devRef .tc Cert.ReferenceIdeal.main_v127) := by
  simp only [Cert.KernelIdeal.KRun.hostA4, after_append]
  after_results_simp
  simp only [h_arg10]
  exact RowReshape.reshape_row_eq_bcast (b := 32) _ _ _

/-- The reference's dense block is the layer function of the arrays it reads. -/
theorem blk4 :
    after rB4 Y (Proc.devRef .tc Cert.ReferenceIdeal.main_v129) = project
      (Y (Proc.devRef .tc Cert.ReferenceIdeal.main_v125))
      (Y (Proc.devRef .tc Cert.ReferenceIdeal.main_arg9))
      (after rB4 Y (Proc.devRef .tc Cert.ReferenceIdeal.main_v127)) := by
  after_results_simp
  rfl

end Cert.Bridge

end
-- ==== Proof.Bridge.lean ====
/-
  The two programs end with the same result.  The idealized kernel program's buffers at its region boundaries
  (the launch memory folded through its host stretches, each region's output array replaced by what the region
  writes) are compared, boundary by boundary, with the reference's buffers after the corresponding stretch of
  its operations, from memories that agree on the arguments:
    * the arguments are never written, so each side reads them back as launched;
    * before each dense step both sides hold the same aggregate, the same node features, the same two weight
      matrices and the same bias row (the Layer modules);
    * the kernel's region writes the layer function of those arrays (the region value lemmas), and the
      reference's dense block is the same layer function of them;
  so the node features agree after every layer, the pooled rows agree, and the projected result agrees.
-/
import proofs.«172049_j60413009985910_1_alg».proof.Proof.KernelWalk
import proofs.«172049_j60413009985910_1_alg».proof.Proof.RegionValue0
import proofs.«172049_j60413009985910_1_alg».proof.Proof.RegionValue1
import proofs.«172049_j60413009985910_1_alg».proof.Proof.RegionValue2
import proofs.«172049_j60413009985910_1_alg».proof.Proof.RegionValue3
import proofs.«172049_j60413009985910_1_alg».proof.Proof.RegionValue4
import proofs.«172049_j60413009985910_1_alg».proof.Proof.Layer0
import proofs.«172049_j60413009985910_1_alg».proof.Proof.Layer1
import proofs.«172049_j60413009985910_1_alg».proof.Proof.Layer2
import proofs.«172049_j60413009985910_1_alg».proof.Proof.Layer3
import proofs.«172049_j60413009985910_1_alg».proof.Proof.Layer4

set_option maxRecDepth 16384

noncomputable section

namespace Cert.Bridge

open Idealize.ShloMosaic Idealize.ShloMosaic.TcCoe Idealize.ShloMosaic.StableHlo Idealize.SL.Sem
open Cert.KernelIdeal.Gen Cert.KernelIdeal.KRun Cert.KernelIdeal.RegionValue Cert.ReferenceIdeal.RefRun

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The reference's buffers after each stretch of its operations -/

/-- The reference's launch contents on the device. -/
abbrev Y0 : Valuation Cert.ReferenceIdeal.τ Cert.ReferenceIdeal.sig (Elt Ideal) := launchContents m' c
abbrev YA0 : Valuation Cert.ReferenceIdeal.τ Cert.ReferenceIdeal.sig (Elt Ideal) := after rA0 (Y0 m' c)
abbrev YB0 : Valuation Cert.ReferenceIdeal.τ Cert.ReferenceIdeal.sig (Elt Ideal) := after rB0 (YA0 m' c)
abbrev YA1 : Valuation Cert.ReferenceIdeal.τ Cert.ReferenceIdeal.sig (Elt Ideal) := after rA1 (YB0 m' c)
abbrev YB1 : Valuation Cert.ReferenceIdeal.τ Cert.ReferenceIdeal.sig (Elt Ideal) := after rB1 (YA1 m' c)
abbrev YA2 : Valuation Cert.ReferenceIdeal.τ Cert.ReferenceIdeal.sig (Elt Ideal) := after rA2 (YB1 m' c)
abbrev YB2 : Valuation Cert.ReferenceIdeal.τ Cert.ReferenceIdeal.sig (Elt Ideal) := after rB2 (YA2 m' c)
abbrev YA3 : Valuation Cert.ReferenceIdeal.τ Cert.ReferenceIdeal.sig (Elt Ideal) := after rA3 (YB2 m' c)
abbrev YB3 : Valuation Cert.ReferenceIdeal.τ Cert.ReferenceIdeal.sig (Elt Ideal) := after rB3 (YA3 m' c)
abbrev YA4 : Valuation Cert.ReferenceIdeal.τ Cert.ReferenceIdeal.sig (Elt Ideal) := after rA4 (YB3 m' c)
abbrev YB4 : Valuation Cert.ReferenceIdeal.τ Cert.ReferenceIdeal.sig (Elt Ideal) := after rB4 (YA4 m' c)

/-- The reference's final contents are the last of these. -/
theorem ops_after : after (ops (F := Ideal)) (launchContents m' c) = YB4 m' c := by
  rw [ops_eq]
  simp only [after_append]

/-- A stretch of the reference leaves alone what it does not write. -/
macro "keepR" : tactic => `(tactic| first
  | exact after_of_writes_sub _ _ rA0_writes (by decide) | exact after_of_writes_sub _ _ rB0_writes (by decide)
  | exact after_of_writes_sub _ _ rA1_writes (by decide) | exact after_of_writes_sub _ _ rB1_writes (by decide)
  | exact after_of_writes_sub _ _ rA2_writes (by decide) | exact after_of_writes_sub _ _ rB2_writes (by decide)
  | exact after_of_writes_sub _ _ rA3_writes (by decide) | exact after_of_writes_sub _ _ rB3_writes (by decide)
  | exact after_of_writes_sub _ _ rA4_writes (by decide) | exact after_of_writes_sub _ _ rB4_writes (by decide))

/-! ## The arguments, read back on the reference's side: from memories that agree on them, the launch memory of the kernel program -/

section Agree

variable
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include e0 in
theorem Y0_main_arg0 : Y0 m' c (Proc.devRef .tc Cert.ReferenceIdeal.main_arg0) = m ((c : Thread Cert.KernelIdeal.nD Cert.KernelIdeal.τ).loc Cert.KernelIdeal.main_arg0) := e0
include e1 in
theorem Y0_main_arg1 : Y0 m' c (Proc.devRef .tc Cert.ReferenceIdeal.main_arg1) = m ((c : Thread Cert.KernelIdeal.nD Cert.KernelIdeal.τ).loc Cert.KernelIdeal.main_arg1) := e1
include e2 in
theorem Y0_main_arg2 : Y0 m' c (Proc.devRef .tc Cert.ReferenceIdeal.main_arg2) = m ((c : Thread Cert.KernelIdeal.nD Cert.KernelIdeal.τ).loc Cert.KernelIdeal.main_arg2) := e2
include e2 in
theorem YA0_main_arg2 : YA0 m' c (Proc.devRef .tc Cert.ReferenceIdeal.main_arg2) = m ((c : Thread Cert.KernelIdeal.nD Cert.KernelIdeal.τ).loc Cert.KernelIdeal.main_arg2) :=
  (show YA0 m' c (Proc.devRef .tc Cert.ReferenceIdeal.main_arg2) = Y0 m' c (Proc.devRef .tc Cert.ReferenceIdeal.main_arg2) by keepR).trans (Y0_main_arg2 m m' c e2)
include e2 in
theorem YB0_main_arg2 : YB0 m' c (Proc.devRef .tc Cert.ReferenceIdeal.main_arg2) = m ((c : Thread Cert.KernelIdeal.nD Cert.KernelIdeal.τ).loc Cert.KernelIdeal.main_arg2) :=
  (show YB0 m' c (Proc.devRef .tc Cert.ReferenceIdeal.main_arg2) = YA0 m' c (Proc.devRef .tc Cert.ReferenceIdeal.main_arg2) by keepR).trans (YA0_main_arg2 m m' c e2)
include e2 in
theorem YA1_main_arg2 : YA1 m' c (Proc.devRef .tc Cert.ReferenceIdeal.main_arg2) = m ((c : Thread Cert.KernelIdeal.nD Cert.KernelIdeal.τ).loc Cert.KernelIdeal.main_arg2) :=
  (show YA1 m' c (Proc.devRef .tc Cert.ReferenceIdeal.main_arg2) = YB0 m' c (Proc.devRef .tc Cert.ReferenceIdeal.main_arg2) by keepR).trans (YB0_main_arg2 m m' c e2)
include e2 in
theorem YB1_main_arg2 : YB1 m' c (Proc.devRef .tc Cert.ReferenceIdeal.main_arg2) = m ((c : Thread Cert.KernelIdeal.nD Cert.KernelIdeal.τ).loc Cert.KernelIdeal.main_arg2) :=
  (show YB1 m' c (Proc.devRef .tc Cert.ReferenceIdeal.main_arg2) = YA1 m' c (Proc.devRef .tc Cert.ReferenceIdeal.main_arg2) by keepR).trans (YA1_main_arg2 m m' c e2)
include e2 in
theorem YA2_main_arg2 : YA2 m' c (Proc.devRef .tc Cert.ReferenceIdeal.main_arg2) = m ((c : Thread Cert.KernelIdeal.nD Cert.KernelIdeal.τ).loc Cert.KernelIdeal.main_arg2) :=
  (show YA2 m' c (Proc.devRef .tc Cert.ReferenceIdeal.main_arg2) = YB1 m' c (Proc.devRef .tc Cert.ReferenceIdeal.main_arg2) by keepR).trans (YB1_main_arg2 m m' c e2)
include e2 in
theorem YB2_main_arg2 : YB2 m' c (Proc.devRef .tc Cert.ReferenceIdeal.main_arg2) = m ((c : Thread Cert.KernelIdeal.nD Cert.KernelIdeal.τ).loc Cert.KernelIdeal.main_arg2) :=
  (show YB2 m' c (Proc.devRef .tc Cert.ReferenceIdeal.main_arg2) = YA2 m' c (Proc.devRef .tc Cert.ReferenceIdeal.main_arg2) by keepR).trans (YA2_main_arg2 m m' c e2)
include e2 in
theorem YA3_main_arg2 : YA3 m' c (Proc.devRef .tc Cert.ReferenceIdeal.main_arg2) = m ((c : Thread Cert.KernelIdeal.nD Cert.KernelIdeal.τ).loc Cert.KernelIdeal.main_arg2) :=
  (show YA3 m' c (Proc.devRef .tc Cert.ReferenceIdeal.main_arg2) = YB2 m' c (Proc.devRef .tc Cert.ReferenceIdeal.main_arg2) by keepR).trans (YB2_main_arg2 m m' c e2)
include e2 in
theorem YB3_main_arg2 : YB3 m' c (Proc.devRef .tc Cert.ReferenceIdeal.main_arg2) = m ((c : Thread Cert.KernelIdeal.nD Cert.KernelIdeal.τ).loc Cert.KernelIdeal.main_arg2) :=
  (show YB3 m' c (Proc.devRef .tc Cert.ReferenceIdeal.main_arg2) = YA3 m' c (Proc.devRef .tc Cert.ReferenceIdeal.main_arg2) by keepR).trans (YA3_main_arg2 m m' c e2)
include e2 in
theorem YA4_main_arg2 : YA4 m' c (Proc.devRef .tc Cert.ReferenceIdeal.main_arg2) = m ((c : Thread Cert.KernelIdeal.nD Cert.KernelIdeal.τ).loc Cert.KernelIdeal.main_arg2) :=
  (show YA4 m' c (Proc.devRef .tc Cert.ReferenceIdeal.main_arg2) = YB3 m' c (Proc.devRef .tc Cert.ReferenceIdeal.main_arg2) by keepR).trans (YB3_main_arg2 m m' c e2)
include e3 in
theorem Y0_main_arg3 : Y0 m' c (Proc.devRef .tc Cert.ReferenceIdeal.main_arg3) = m ((c : Thread Cert.KernelIdeal.nD Cert.KernelIdeal.τ).loc Cert.KernelIdeal.main_arg3) := e3
include e3 in
theorem YA0_main_arg3 : YA0 m' c (Proc.devRef .tc Cert.ReferenceIdeal.main_arg3) = m ((c : Thread Cert.KernelIdeal.nD Cert.KernelIdeal.τ).loc Cert.KernelIdeal.main_arg3) :=
  (show YA0 m' c (Proc.devRef .tc Cert.ReferenceIdeal.main_arg3) = Y0 m' c (Proc.devRef .tc Cert.ReferenceIdeal.main_arg3) by keepR).trans (Y0_main_arg3 m m' c e3)
include e3 in
theorem YB0_main_arg3 : YB0 m' c (Proc.devRef .tc Cert.ReferenceIdeal.main_arg3) = m ((c : Thread Cert.KernelIdeal.nD Cert.KernelIdeal.τ).loc Cert.KernelIdeal.main_arg3) :=
  (show YB0 m' c (Proc.devRef .tc Cert.ReferenceIdeal.main_arg3) = YA0 m' c (Proc.devRef .tc Cert.ReferenceIdeal.main_arg3) by keepR).trans (YA0_main_arg3 m m' c e3)
include e3 in
theorem YA1_main_arg3 : YA1 m' c (Proc.devRef .tc Cert.ReferenceIdeal.main_arg3) = m ((c : Thread Cert.KernelIdeal.nD Cert.KernelIdeal.τ).loc Cert.KernelIdeal.main_arg3) :=
  (show YA1 m' c (Proc.devRef .tc Cert.ReferenceIdeal.main_arg3) = YB0 m' c (Proc.devRef .tc Cert.ReferenceIdeal.main_arg3) by keepR).trans (YB0_main_arg3 m m' c e3)
include e3 in
theorem YB1_main_arg3 : YB1 m' c (Proc.devRef .tc Cert.ReferenceIdeal.main_arg3) = m ((c : Thread Cert.KernelIdeal.nD Cert.KernelIdeal.τ).loc Cert.KernelIdeal.main_arg3) :=
  (show YB1 m' c (Proc.devRef .tc Cert.ReferenceIdeal.main_arg3) = YA1 m' c (Proc.devRef .tc Cert.ReferenceIdeal.main_arg3) by keepR).trans (YA1_main_arg3 m m' c e3)
include e3 in
theorem YA2_main_arg3 : YA2 m' c (Proc.devRef .tc Cert.ReferenceIdeal.main_arg3) = m ((c : Thread Cert.KernelIdeal.nD Cert.KernelIdeal.τ).loc Cert.KernelIdeal.main_arg3) :=
  (show YA2 m' c (Proc.devRef .tc Cert.ReferenceIdeal.main_arg3) = YB1 m' c (Proc.devRef .tc Cert.ReferenceIdeal.main_arg3) by keepR).trans (YB1_main_arg3 m m' c e3)
include e3 in
theorem YB2_main_arg3 : YB2 m' c (Proc.devRef .tc Cert.ReferenceIdeal.main_arg3) = m ((c : Thread Cert.KernelIdeal.nD Cert.KernelIdeal.τ).loc Cert.KernelIdeal.main_arg3) :=
  (show YB2 m' c (Proc.devRef .tc Cert.ReferenceIdeal.main_arg3) = YA2 m' c (Proc.devRef .tc Cert.ReferenceIdeal.main_arg3) by keepR).trans (YA2_main_arg3 m m' c e3)
include e3 in
theorem YA3_main_arg3 : YA3 m' c (Proc.devRef .tc Cert.ReferenceIdeal.main_arg3) = m ((c : Thread Cert.KernelIdeal.nD Cert.KernelIdeal.τ).loc Cert.KernelIdeal.main_arg3) :=
  (show YA3 m' c (Proc.devRef .tc Cert.ReferenceIdeal.main_arg3) = YB2 m' c (Proc.devRef .tc Cert.ReferenceIdeal.main_arg3) by keepR).trans (YB2_main_arg3 m m' c e3)
include e3 in
theorem YB3_main_arg3 : YB3 m' c (Proc.devRef .tc Cert.ReferenceIdeal.main_arg3) = m ((c : Thread Cert.KernelIdeal.nD Cert.KernelIdeal.τ).loc Cert.KernelIdeal.main_arg3) :=
  (show YB3 m' c (Proc.devRef .tc Cert.ReferenceIdeal.main_arg3) = YA3 m' c (Proc.devRef .tc Cert.ReferenceIdeal.main_arg3) by keepR).trans (YA3_main_arg3 m m' c e3)
include e3 in
theorem YA4_main_arg3 : YA4 m' c (Proc.devRef .tc Cert.ReferenceIdeal.main_arg3) = m ((c : Thread Cert.KernelIdeal.nD Cert.KernelIdeal.τ).loc Cert.KernelIdeal.main_arg3) :=
  (show YA4 m' c (Proc.devRef .tc Cert.ReferenceIdeal.main_arg3) = YB3 m' c (Proc.devRef .tc Cert.ReferenceIdeal.main_arg3) by keepR).trans (YB3_main_arg3 m m' c e3)
include e4 in
theorem Y0_main_arg4 : Y0 m' c (Proc.devRef .tc Cert.ReferenceIdeal.main_arg4) = m ((c : Thread Cert.KernelIdeal.nD Cert.KernelIdeal.τ).loc Cert.KernelIdeal.main_arg4) := e4
include e4 in
theorem YA0_main_arg4 : YA0 m' c (Proc.devRef .tc Cert.ReferenceIdeal.main_arg4) = m ((c : Thread Cert.KernelIdeal.nD Cert.KernelIdeal.τ).loc Cert.KernelIdeal.main_arg4) :=
  (show YA0 m' c (Proc.devRef .tc Cert.ReferenceIdeal.main_arg4) = Y0 m' c (Proc.devRef .tc Cert.ReferenceIdeal.main_arg4) by keepR).trans (Y0_main_arg4 m m' c e4)
include e4 in
theorem YB0_main_arg4 : YB0 m' c (Proc.devRef .tc Cert.ReferenceIdeal.main_arg4) = m ((c : Thread Cert.KernelIdeal.nD Cert.KernelIdeal.τ).loc Cert.KernelIdeal.main_arg4) :=
  (show YB0 m' c (Proc.devRef .tc Cert.ReferenceIdeal.main_arg4) = YA0 m' c (Proc.devRef .tc Cert.ReferenceIdeal.main_arg4) by keepR).trans (YA0_main_arg4 m m' c e4)
include e4 in
theorem YA1_main_arg4 : YA1 m' c (Proc.devRef .tc Cert.ReferenceIdeal.main_arg4) = m ((c : Thread Cert.KernelIdeal.nD Cert.KernelIdeal.τ).loc Cert.KernelIdeal.main_arg4) :=
  (show YA1 m' c (Proc.devRef .tc Cert.ReferenceIdeal.main_arg4) = YB0 m' c (Proc.devRef .tc Cert.ReferenceIdeal.main_arg4) by keepR).trans (YB0_main_arg4 m m' c e4)
include e4 in
theorem YB1_main_arg4 : YB1 m' c (Proc.devRef .tc Cert.ReferenceIdeal.main_arg4) = m ((c : Thread Cert.KernelIdeal.nD Cert.KernelIdeal.τ).loc Cert.KernelIdeal.main_arg4) :=
  (show YB1 m' c (Proc.devRef .tc Cert.ReferenceIdeal.main_arg4) = YA1 m' c (Proc.devRef .tc Cert.ReferenceIdeal.main_arg4) by keepR).trans (YA1_main_arg4 m m' c e4)
include e4 in
theorem YA2_main_arg4 : YA2 m' c (Proc.devRef .tc Cert.ReferenceIdeal.main_arg4) = m ((c : Thread Cert.KernelIdeal.nD Cert.KernelIdeal.τ).loc Cert.KernelIdeal.main_arg4) :=
  (show YA2 m' c (Proc.devRef .tc Cert.ReferenceIdeal.main_arg4) = YB1 m' c (Proc.devRef .tc Cert.ReferenceIdeal.main_arg4) by keepR).trans (YB1_main_arg4 m m' c e4)
include e4 in
theorem YB2_main_arg4 : YB2 m' c (Proc.devRef .tc Cert.ReferenceIdeal.main_arg4) = m ((c : Thread Cert.KernelIdeal.nD Cert.KernelIdeal.τ).loc Cert.KernelIdeal.main_arg4) :=
  (show YB2 m' c (Proc.devRef .tc Cert.ReferenceIdeal.main_arg4) = YA2 m' c (Proc.devRef .tc Cert.ReferenceIdeal.main_arg4) by keepR).trans (YA2_main_arg4 m m' c e4)
include e4 in
theorem YA3_main_arg4 : YA3 m' c (Proc.devRef .tc Cert.ReferenceIdeal.main_arg4) = m ((c : Thread Cert.KernelIdeal.nD Cert.KernelIdeal.τ).loc Cert.KernelIdeal.main_arg4) :=
  (show YA3 m' c (Proc.devRef .tc Cert.ReferenceIdeal.main_arg4) = YB2 m' c (Proc.devRef .tc Cert.ReferenceIdeal.main_arg4) by keepR).trans (YB2_main_arg4 m m' c e4)
include e4 in
theorem YB3_main_arg4 : YB3 m' c (Proc.devRef .tc Cert.ReferenceIdeal.main_arg4) = m ((c : Thread Cert.KernelIdeal.nD Cert.KernelIdeal.τ).loc Cert.KernelIdeal.main_arg4) :=
  (show YB3 m' c (Proc.devRef .tc Cert.ReferenceIdeal.main_arg4) = YA3 m' c (Proc.devRef .tc Cert.ReferenceIdeal.main_arg4) by keepR).trans (YA3_main_arg4 m m' c e4)
include e4 in
theorem YA4_main_arg4 : YA4 m' c (Proc.devRef .tc Cert.ReferenceIdeal.main_arg4) = m ((c : Thread Cert.KernelIdeal.nD Cert.KernelIdeal.τ).loc Cert.KernelIdeal.main_arg4) :=
  (show YA4 m' c (Proc.devRef .tc Cert.ReferenceIdeal.main_arg4) = YB3 m' c (Proc.devRef .tc Cert.ReferenceIdeal.main_arg4) by keepR).trans (YB3_main_arg4 m m' c e4)
include e5 in
theorem Y0_main_arg5 : Y0 m' c (Proc.devRef .tc Cert.ReferenceIdeal.main_arg5) = m ((c : Thread Cert.KernelIdeal.nD Cert.KernelIdeal.τ).loc Cert.KernelIdeal.main_arg5) := e5
include e5 in
theorem YA0_main_arg5 : YA0 m' c (Proc.devRef .tc Cert.ReferenceIdeal.main_arg5) = m ((c : Thread Cert.KernelIdeal.nD Cert.KernelIdeal.τ).loc Cert.KernelIdeal.main_arg5) :=
  (show YA0 m' c (Proc.devRef .tc Cert.ReferenceIdeal.main_arg5) = Y0 m' c (Proc.devRef .tc Cert.ReferenceIdeal.main_arg5) by keepR).trans (Y0_main_arg5 m m' c e5)
include e5 in
theorem YB0_main_arg5 : YB0 m' c (Proc.devRef .tc Cert.ReferenceIdeal.main_arg5) = m ((c : Thread Cert.KernelIdeal.nD Cert.KernelIdeal.τ).loc Cert.KernelIdeal.main_arg5) :=
  (show YB0 m' c (Proc.devRef .tc Cert.ReferenceIdeal.main_arg5) = YA0 m' c (Proc.devRef .tc Cert.ReferenceIdeal.main_arg5) by keepR).trans (YA0_main_arg5 m m' c e5)
include e5 in
theorem YA1_main_arg5 : YA1 m' c (Proc.devRef .tc Cert.ReferenceIdeal.main_arg5) = m ((c : Thread Cert.KernelIdeal.nD Cert.KernelIdeal.τ).loc Cert.KernelIdeal.main_arg5) :=
  (show YA1 m' c (Proc.devRef .tc Cert.ReferenceIdeal.main_arg5) = YB0 m' c (Proc.devRef .tc Cert.ReferenceIdeal.main_arg5) by keepR).trans (YB0_main_arg5 m m' c e5)
include e5 in
theorem YB1_main_arg5 : YB1 m' c (Proc.devRef .tc Cert.ReferenceIdeal.main_arg5) = m ((c : Thread Cert.KernelIdeal.nD Cert.KernelIdeal.τ).loc Cert.KernelIdeal.main_arg5) :=
  (show YB1 m' c (Proc.devRef .tc Cert.ReferenceIdeal.main_arg5) = YA1 m' c (Proc.devRef .tc Cert.ReferenceIdeal.main_arg5) by keepR).trans (YA1_main_arg5 m m' c e5)
include e5 in
theorem YA2_main_arg5 : YA2 m' c (Proc.devRef .tc Cert.ReferenceIdeal.main_arg5) = m ((c : Thread Cert.KernelIdeal.nD Cert.KernelIdeal.τ).loc Cert.KernelIdeal.main_arg5) :=
  (show YA2 m' c (Proc.devRef .tc Cert.ReferenceIdeal.main_arg5) = YB1 m' c (Proc.devRef .tc Cert.ReferenceIdeal.main_arg5) by keepR).trans (YB1_main_arg5 m m' c e5)
include e5 in
theorem YB2_main_arg5 : YB2 m' c (Proc.devRef .tc Cert.ReferenceIdeal.main_arg5) = m ((c : Thread Cert.KernelIdeal.nD Cert.KernelIdeal.τ).loc Cert.KernelIdeal.main_arg5) :=
  (show YB2 m' c (Proc.devRef .tc Cert.ReferenceIdeal.main_arg5) = YA2 m' c (Proc.devRef .tc Cert.ReferenceIdeal.main_arg5) by keepR).trans (YA2_main_arg5 m m' c e5)
include e5 in
theorem YA3_main_arg5 : YA3 m' c (Proc.devRef .tc Cert.ReferenceIdeal.main_arg5) = m ((c : Thread Cert.KernelIdeal.nD Cert.KernelIdeal.τ).loc Cert.KernelIdeal.main_arg5) :=
  (show YA3 m' c (Proc.devRef .tc Cert.ReferenceIdeal.main_arg5) = YB2 m' c (Proc.devRef .tc Cert.ReferenceIdeal.main_arg5) by keepR).trans (YB2_main_arg5 m m' c e5)
include e5 in
theorem YB3_main_arg5 : YB3 m' c (Proc.devRef .tc Cert.ReferenceIdeal.main_arg5) = m ((c : Thread Cert.KernelIdeal.nD Cert.KernelIdeal.τ).loc Cert.KernelIdeal.main_arg5) :=
  (show YB3 m' c (Proc.devRef .tc Cert.ReferenceIdeal.main_arg5) = YA3 m' c (Proc.devRef .tc Cert.ReferenceIdeal.main_arg5) by keepR).trans (YA3_main_arg5 m m' c e5)
include e5 in
theorem YA4_main_arg5 : YA4 m' c (Proc.devRef .tc Cert.ReferenceIdeal.main_arg5) = m ((c : Thread Cert.KernelIdeal.nD Cert.KernelIdeal.τ).loc Cert.KernelIdeal.main_arg5) :=
  (show YA4 m' c (Proc.devRef .tc Cert.ReferenceIdeal.main_arg5) = YB3 m' c (Proc.devRef .tc Cert.ReferenceIdeal.main_arg5) by keepR).trans (YB3_main_arg5 m m' c e5)
include e6 in
theorem Y0_main_arg6 : Y0 m' c (Proc.devRef .tc Cert.ReferenceIdeal.main_arg6) = m ((c : Thread Cert.KernelIdeal.nD Cert.KernelIdeal.τ).loc Cert.KernelIdeal.main_arg6) := e6
include e6 in
theorem YA0_main_arg6 : YA0 m' c (Proc.devRef .tc Cert.ReferenceIdeal.main_arg6) = m ((c : Thread Cert.KernelIdeal.nD Cert.KernelIdeal.τ).loc Cert.KernelIdeal.main_arg6) :=
  (show YA0 m' c (Proc.devRef .tc Cert.ReferenceIdeal.main_arg6) = Y0 m' c (Proc.devRef .tc Cert.ReferenceIdeal.main_arg6) by keepR).trans (Y0_main_arg6 m m' c e6)
include e6 in
theorem YB0_main_arg6 : YB0 m' c (Proc.devRef .tc Cert.ReferenceIdeal.main_arg6) = m ((c : Thread Cert.KernelIdeal.nD Cert.KernelIdeal.τ).loc Cert.KernelIdeal.main_arg6) :=
  (show YB0 m' c (Proc.devRef .tc Cert.ReferenceIdeal.main_arg6) = YA0 m' c (Proc.devRef .tc Cert.ReferenceIdeal.main_arg6) by keepR).trans (YA0_main_arg6 m m' c e6)
include e6 in
theorem YA1_main_arg6 : YA1 m' c (Proc.devRef .tc Cert.ReferenceIdeal.main_arg6) = m ((c : Thread Cert.KernelIdeal.nD Cert.KernelIdeal.τ).loc Cert.KernelIdeal.main_arg6) :=
  (show YA1 m' c (Proc.devRef .tc Cert.ReferenceIdeal.main_arg6) = YB0 m' c (Proc.devRef .tc Cert.ReferenceIdeal.main_arg6) by keepR).trans (YB0_main_arg6 m m' c e6)
include e6 in
theorem YB1_main_arg6 : YB1 m' c (Proc.devRef .tc Cert.ReferenceIdeal.main_arg6) = m ((c : Thread Cert.KernelIdeal.nD Cert.KernelIdeal.τ).loc Cert.KernelIdeal.main_arg6) :=
  (show YB1 m' c (Proc.devRef .tc Cert.ReferenceIdeal.main_arg6) = YA1 m' c (Proc.devRef .tc Cert.ReferenceIdeal.main_arg6) by keepR).trans (YA1_main_arg6 m m' c e6)
include e6 in
theorem YA2_main_arg6 : YA2 m' c (Proc.devRef .tc Cert.ReferenceIdeal.main_arg6) = m ((c : Thread Cert.KernelIdeal.nD Cert.KernelIdeal.τ).loc Cert.KernelIdeal.main_arg6) :=
  (show YA2 m' c (Proc.devRef .tc Cert.ReferenceIdeal.main_arg6) = YB1 m' c (Proc.devRef .tc Cert.ReferenceIdeal.main_arg6) by keepR).trans (YB1_main_arg6 m m' c e6)
include e6 in
theorem YB2_main_arg6 : YB2 m' c (Proc.devRef .tc Cert.ReferenceIdeal.main_arg6) = m ((c : Thread Cert.KernelIdeal.nD Cert.KernelIdeal.τ).loc Cert.KernelIdeal.main_arg6) :=
  (show YB2 m' c (Proc.devRef .tc Cert.ReferenceIdeal.main_arg6) = YA2 m' c (Proc.devRef .tc Cert.ReferenceIdeal.main_arg6) by keepR).trans (YA2_main_arg6 m m' c e6)
include e6 in
theorem YA3_main_arg6 : YA3 m' c (Proc.devRef .tc Cert.ReferenceIdeal.main_arg6) = m ((c : Thread Cert.KernelIdeal.nD Cert.KernelIdeal.τ).loc Cert.KernelIdeal.main_arg6) :=
  (show YA3 m' c (Proc.devRef .tc Cert.ReferenceIdeal.main_arg6) = YB2 m' c (Proc.devRef .tc Cert.ReferenceIdeal.main_arg6) by keepR).trans (YB2_main_arg6 m m' c e6)
include e6 in
theorem YB3_main_arg6 : YB3 m' c (Proc.devRef .tc Cert.ReferenceIdeal.main_arg6) = m ((c : Thread Cert.KernelIdeal.nD Cert.KernelIdeal.τ).loc Cert.KernelIdeal.main_arg6) :=
  (show YB3 m' c (Proc.devRef .tc Cert.ReferenceIdeal.main_arg6) = YA3 m' c (Proc.devRef .tc Cert.ReferenceIdeal.main_arg6) by keepR).trans (YA3_main_arg6 m m' c e6)
include e6 in
theorem YA4_main_arg6 : YA4 m' c (Proc.devRef .tc Cert.ReferenceIdeal.main_arg6) = m ((c : Thread Cert.KernelIdeal.nD Cert.KernelIdeal.τ).loc Cert.KernelIdeal.main_arg6) :=
  (show YA4 m' c (Proc.devRef .tc Cert.ReferenceIdeal.main_arg6) = YB3 m' c (Proc.devRef .tc Cert.ReferenceIdeal.main_arg6) by keepR).trans (YB3_main_arg6 m m' c e6)
include e7 in
theorem Y0_main_arg7 : Y0 m' c (Proc.devRef .tc Cert.ReferenceIdeal.main_arg7) = m ((c : Thread Cert.KernelIdeal.nD Cert.KernelIdeal.τ).loc Cert.KernelIdeal.main_arg7) := e7
include e7 in
theorem YA0_main_arg7 : YA0 m' c (Proc.devRef .tc Cert.ReferenceIdeal.main_arg7) = m ((c : Thread Cert.KernelIdeal.nD Cert.KernelIdeal.τ).loc Cert.KernelIdeal.main_arg7) :=
  (show YA0 m' c (Proc.devRef .tc Cert.ReferenceIdeal.main_arg7) = Y0 m' c (Proc.devRef .tc Cert.ReferenceIdeal.main_arg7) by keepR).trans (Y0_main_arg7 m m' c e7)
include e7 in
theorem YB0_main_arg7 : YB0 m' c (Proc.devRef .tc Cert.ReferenceIdeal.main_arg7) = m ((c : Thread Cert.KernelIdeal.nD Cert.KernelIdeal.τ).loc Cert.KernelIdeal.main_arg7) :=
  (show YB0 m' c (Proc.devRef .tc Cert.ReferenceIdeal.main_arg7) = YA0 m' c (Proc.devRef .tc Cert.ReferenceIdeal.main_arg7) by keepR).trans (YA0_main_arg7 m m' c e7)
include e7 in
theorem YA1_main_arg7 : YA1 m' c (Proc.devRef .tc Cert.ReferenceIdeal.main_arg7) = m ((c : Thread Cert.KernelIdeal.nD Cert.KernelIdeal.τ).loc Cert.KernelIdeal.main_arg7) :=
  (show YA1 m' c (Proc.devRef .tc Cert.ReferenceIdeal.main_arg7) = YB0 m' c (Proc.devRef .tc Cert.ReferenceIdeal.main_arg7) by keepR).trans (YB0_main_arg7 m m' c e7)
include e7 in
theorem YB1_main_arg7 : YB1 m' c (Proc.devRef .tc Cert.ReferenceIdeal.main_arg7) = m ((c : Thread Cert.KernelIdeal.nD Cert.KernelIdeal.τ).loc Cert.KernelIdeal.main_arg7) :=
  (show YB1 m' c (Proc.devRef .tc Cert.ReferenceIdeal.main_arg7) = YA1 m' c (Proc.devRef .tc Cert.ReferenceIdeal.main_arg7) by keepR).trans (YA1_main_arg7 m m' c e7)
include e7 in
theorem YA2_main_arg7 : YA2 m' c (Proc.devRef .tc Cert.ReferenceIdeal.main_arg7) = m ((c : Thread Cert.KernelIdeal.nD Cert.KernelIdeal.τ).loc Cert.KernelIdeal.main_arg7) :=
  (show YA2 m' c (Proc.devRef .tc Cert.ReferenceIdeal.main_arg7) = YB1 m' c (Proc.devRef .tc Cert.ReferenceIdeal.main_arg7) by keepR).trans (YB1_main_arg7 m m' c e7)
include e7 in
theorem YB2_main_arg7 : YB2 m' c (Proc.devRef .tc Cert.ReferenceIdeal.main_arg7) = m ((c : Thread Cert.KernelIdeal.nD Cert.KernelIdeal.τ).loc Cert.KernelIdeal.main_arg7) :=
  (show YB2 m' c (Proc.devRef .tc Cert.ReferenceIdeal.main_arg7) = YA2 m' c (Proc.devRef .tc Cert.ReferenceIdeal.main_arg7) by keepR).trans (YA2_main_arg7 m m' c e7)
include e7 in
theorem YA3_main_arg7 : YA3 m' c (Proc.devRef .tc Cert.ReferenceIdeal.main_arg7) = m ((c : Thread Cert.KernelIdeal.nD Cert.KernelIdeal.τ).loc Cert.KernelIdeal.main_arg7) :=
  (show YA3 m' c (Proc.devRef .tc Cert.ReferenceIdeal.main_arg7) = YB2 m' c (Proc.devRef .tc Cert.ReferenceIdeal.main_arg7) by keepR).trans (YB2_main_arg7 m m' c e7)
include e7 in
theorem YB3_main_arg7 : YB3 m' c (Proc.devRef .tc Cert.ReferenceIdeal.main_arg7) = m ((c : Thread Cert.KernelIdeal.nD Cert.KernelIdeal.τ).loc Cert.KernelIdeal.main_arg7) :=
  (show YB3 m' c (Proc.devRef .tc Cert.ReferenceIdeal.main_arg7) = YA3 m' c (Proc.devRef .tc Cert.ReferenceIdeal.main_arg7) by keepR).trans (YA3_main_arg7 m m' c e7)
include e7 in
theorem YA4_main_arg7 : YA4 m' c (Proc.devRef .tc Cert.ReferenceIdeal.main_arg7) = m ((c : Thread Cert.KernelIdeal.nD Cert.KernelIdeal.τ).loc Cert.KernelIdeal.main_arg7) :=
  (show YA4 m' c (Proc.devRef .tc Cert.ReferenceIdeal.main_arg7) = YB3 m' c (Proc.devRef .tc Cert.ReferenceIdeal.main_arg7) by keepR).trans (YB3_main_arg7 m m' c e7)
include e8 in
theorem Y0_main_arg8 : Y0 m' c (Proc.devRef .tc Cert.ReferenceIdeal.main_arg8) = m ((c : Thread Cert.KernelIdeal.nD Cert.KernelIdeal.τ).loc Cert.KernelIdeal.main_arg8) := e8
include e8 in
theorem YA0_main_arg8 : YA0 m' c (Proc.devRef .tc Cert.ReferenceIdeal.main_arg8) = m ((c : Thread Cert.KernelIdeal.nD Cert.KernelIdeal.τ).loc Cert.KernelIdeal.main_arg8) :=
  (show YA0 m' c (Proc.devRef .tc Cert.ReferenceIdeal.main_arg8) = Y0 m' c (Proc.devRef .tc Cert.ReferenceIdeal.main_arg8) by keepR).trans (Y0_main_arg8 m m' c e8)
include e8 in
theorem YB0_main_arg8 : YB0 m' c (Proc.devRef .tc Cert.ReferenceIdeal.main_arg8) = m ((c : Thread Cert.KernelIdeal.nD Cert.KernelIdeal.τ).loc Cert.KernelIdeal.main_arg8) :=
  (show YB0 m' c (Proc.devRef .tc Cert.ReferenceIdeal.main_arg8) = YA0 m' c (Proc.devRef .tc Cert.ReferenceIdeal.main_arg8) by keepR).trans (YA0_main_arg8 m m' c e8)
include e8 in
theorem YA1_main_arg8 : YA1 m' c (Proc.devRef .tc Cert.ReferenceIdeal.main_arg8) = m ((c : Thread Cert.KernelIdeal.nD Cert.KernelIdeal.τ).loc Cert.KernelIdeal.main_arg8) :=
  (show YA1 m' c (Proc.devRef .tc Cert.ReferenceIdeal.main_arg8) = YB0 m' c (Proc.devRef .tc Cert.ReferenceIdeal.main_arg8) by keepR).trans (YB0_main_arg8 m m' c e8)
include e8 in
theorem YB1_main_arg8 : YB1 m' c (Proc.devRef .tc Cert.ReferenceIdeal.main_arg8) = m ((c : Thread Cert.KernelIdeal.nD Cert.KernelIdeal.τ).loc Cert.KernelIdeal.main_arg8) :=
  (show YB1 m' c (Proc.devRef .tc Cert.ReferenceIdeal.main_arg8) = YA1 m' c (Proc.devRef .tc Cert.ReferenceIdeal.main_arg8) by keepR).trans (YA1_main_arg8 m m' c e8)
include e8 in
theorem YA2_main_arg8 : YA2 m' c (Proc.devRef .tc Cert.ReferenceIdeal.main_arg8) = m ((c : Thread Cert.KernelIdeal.nD Cert.KernelIdeal.τ).loc Cert.KernelIdeal.main_arg8) :=
  (show YA2 m' c (Proc.devRef .tc Cert.ReferenceIdeal.main_arg8) = YB1 m' c (Proc.devRef .tc Cert.ReferenceIdeal.main_arg8) by keepR).trans (YB1_main_arg8 m m' c e8)
include e8 in
theorem YB2_main_arg8 : YB2 m' c (Proc.devRef .tc Cert.ReferenceIdeal.main_arg8) = m ((c : Thread Cert.KernelIdeal.nD Cert.KernelIdeal.τ).loc Cert.KernelIdeal.main_arg8) :=
  (show YB2 m' c (Proc.devRef .tc Cert.ReferenceIdeal.main_arg8) = YA2 m' c (Proc.devRef .tc Cert.ReferenceIdeal.main_arg8) by keepR).trans (YA2_main_arg8 m m' c e8)
include e8 in
theorem YA3_main_arg8 : YA3 m' c (Proc.devRef .tc Cert.ReferenceIdeal.main_arg8) = m ((c : Thread Cert.KernelIdeal.nD Cert.KernelIdeal.τ).loc Cert.KernelIdeal.main_arg8) :=
  (show YA3 m' c (Proc.devRef .tc Cert.ReferenceIdeal.main_arg8) = YB2 m' c (Proc.devRef .tc Cert.ReferenceIdeal.main_arg8) by keepR).trans (YB2_main_arg8 m m' c e8)
include e8 in
theorem YB3_main_arg8 : YB3 m' c (Proc.devRef .tc Cert.ReferenceIdeal.main_arg8) = m ((c : Thread Cert.KernelIdeal.nD Cert.KernelIdeal.τ).loc Cert.KernelIdeal.main_arg8) :=
  (show YB3 m' c (Proc.devRef .tc Cert.ReferenceIdeal.main_arg8) = YA3 m' c (Proc.devRef .tc Cert.ReferenceIdeal.main_arg8) by keepR).trans (YA3_main_arg8 m m' c e8)
include e8 in
theorem YA4_main_arg8 : YA4 m' c (Proc.devRef .tc Cert.ReferenceIdeal.main_arg8) = m ((c : Thread Cert.KernelIdeal.nD Cert.KernelIdeal.τ).loc Cert.KernelIdeal.main_arg8) :=
  (show YA4 m' c (Proc.devRef .tc Cert.ReferenceIdeal.main_arg8) = YB3 m' c (Proc.devRef .tc Cert.ReferenceIdeal.main_arg8) by keepR).trans (YB3_main_arg8 m m' c e8)
include e9 in
theorem Y0_main_arg9 : Y0 m' c (Proc.devRef .tc Cert.ReferenceIdeal.main_arg9) = m ((c : Thread Cert.KernelIdeal.nD Cert.KernelIdeal.τ).loc Cert.KernelIdeal.main_arg9) := e9
include e9 in
theorem YA0_main_arg9 : YA0 m' c (Proc.devRef .tc Cert.ReferenceIdeal.main_arg9) = m ((c : Thread Cert.KernelIdeal.nD Cert.KernelIdeal.τ).loc Cert.KernelIdeal.main_arg9) :=
  (show YA0 m' c (Proc.devRef .tc Cert.ReferenceIdeal.main_arg9) = Y0 m' c (Proc.devRef .tc Cert.ReferenceIdeal.main_arg9) by keepR).trans (Y0_main_arg9 m m' c e9)
include e9 in
theorem YB0_main_arg9 : YB0 m' c (Proc.devRef .tc Cert.ReferenceIdeal.main_arg9) = m ((c : Thread Cert.KernelIdeal.nD Cert.KernelIdeal.τ).loc Cert.KernelIdeal.main_arg9) :=
  (show YB0 m' c (Proc.devRef .tc Cert.ReferenceIdeal.main_arg9) = YA0 m' c (Proc.devRef .tc Cert.ReferenceIdeal.main_arg9) by keepR).trans (YA0_main_arg9 m m' c e9)
include e9 in
theorem YA1_main_arg9 : YA1 m' c (Proc.devRef .tc Cert.ReferenceIdeal.main_arg9) = m ((c : Thread Cert.KernelIdeal.nD Cert.KernelIdeal.τ).loc Cert.KernelIdeal.main_arg9) :=
  (show YA1 m' c (Proc.devRef .tc Cert.ReferenceIdeal.main_arg9) = YB0 m' c (Proc.devRef .tc Cert.ReferenceIdeal.main_arg9) by keepR).trans (YB0_main_arg9 m m' c e9)
include e9 in
theorem YB1_main_arg9 : YB1 m' c (Proc.devRef .tc Cert.ReferenceIdeal.main_arg9) = m ((c : Thread Cert.KernelIdeal.nD Cert.KernelIdeal.τ).loc Cert.KernelIdeal.main_arg9) :=
  (show YB1 m' c (Proc.devRef .tc Cert.ReferenceIdeal.main_arg9) = YA1 m' c (Proc.devRef .tc Cert.ReferenceIdeal.main_arg9) by keepR).trans (YA1_main_arg9 m m' c e9)
include e9 in
theorem YA2_main_arg9 : YA2 m' c (Proc.devRef .tc Cert.ReferenceIdeal.main_arg9) = m ((c : Thread Cert.KernelIdeal.nD Cert.KernelIdeal.τ).loc Cert.KernelIdeal.main_arg9) :=
  (show YA2 m' c (Proc.devRef .tc Cert.ReferenceIdeal.main_arg9) = YB1 m' c (Proc.devRef .tc Cert.ReferenceIdeal.main_arg9) by keepR).trans (YB1_main_arg9 m m' c e9)
include e9 in
theorem YB2_main_arg9 : YB2 m' c (Proc.devRef .tc Cert.ReferenceIdeal.main_arg9) = m ((c : Thread Cert.KernelIdeal.nD Cert.KernelIdeal.τ).loc Cert.KernelIdeal.main_arg9) :=
  (show YB2 m' c (Proc.devRef .tc Cert.ReferenceIdeal.main_arg9) = YA2 m' c (Proc.devRef .tc Cert.ReferenceIdeal.main_arg9) by keepR).trans (YA2_main_arg9 m m' c e9)
include e9 in
theorem YA3_main_arg9 : YA3 m' c (Proc.devRef .tc Cert.ReferenceIdeal.main_arg9) = m ((c : Thread Cert.KernelIdeal.nD Cert.KernelIdeal.τ).loc Cert.KernelIdeal.main_arg9) :=
  (show YA3 m' c (Proc.devRef .tc Cert.ReferenceIdeal.main_arg9) = YB2 m' c (Proc.devRef .tc Cert.ReferenceIdeal.main_arg9) by keepR).trans (YB2_main_arg9 m m' c e9)
include e9 in
theorem YB3_main_arg9 : YB3 m' c (Proc.devRef .tc Cert.ReferenceIdeal.main_arg9) = m ((c : Thread Cert.KernelIdeal.nD Cert.KernelIdeal.τ).loc Cert.KernelIdeal.main_arg9) :=
  (show YB3 m' c (Proc.devRef .tc Cert.ReferenceIdeal.main_arg9) = YA3 m' c (Proc.devRef .tc Cert.ReferenceIdeal.main_arg9) by keepR).trans (YA3_main_arg9 m m' c e9)
include e9 in
theorem YA4_main_arg9 : YA4 m' c (Proc.devRef .tc Cert.ReferenceIdeal.main_arg9) = m ((c : Thread Cert.KernelIdeal.nD Cert.KernelIdeal.τ).loc Cert.KernelIdeal.main_arg9) :=
  (show YA4 m' c (Proc.devRef .tc Cert.ReferenceIdeal.main_arg9) = YB3 m' c (Proc.devRef .tc Cert.ReferenceIdeal.main_arg9) by keepR).trans (YB3_main_arg9 m m' c e9)
include e10 in
theorem Y0_main_arg10 : Y0 m' c (Proc.devRef .tc Cert.ReferenceIdeal.main_arg10) = m ((c : Thread Cert.KernelIdeal.nD Cert.KernelIdeal.τ).loc Cert.KernelIdeal.main_arg10) := e10
include e10 in
theorem YA0_main_arg10 : YA0 m' c (Proc.devRef .tc Cert.ReferenceIdeal.main_arg10) = m ((c : Thread Cert.KernelIdeal.nD Cert.KernelIdeal.τ).loc Cert.KernelIdeal.main_arg10) :=
  (show YA0 m' c (Proc.devRef .tc Cert.ReferenceIdeal.main_arg10) = Y0 m' c (Proc.devRef .tc Cert.ReferenceIdeal.main_arg10) by keepR).trans (Y0_main_arg10 m m' c e10)
include e10 in
theorem YB0_main_arg10 : YB0 m' c (Proc.devRef .tc Cert.ReferenceIdeal.main_arg10) = m ((c : Thread Cert.KernelIdeal.nD Cert.KernelIdeal.τ).loc Cert.KernelIdeal.main_arg10) :=
  (show YB0 m' c (Proc.devRef .tc Cert.ReferenceIdeal.main_arg10) = YA0 m' c (Proc.devRef .tc Cert.ReferenceIdeal.main_arg10) by keepR).trans (YA0_main_arg10 m m' c e10)
include e10 in
theorem YA1_main_arg10 : YA1 m' c (Proc.devRef .tc Cert.ReferenceIdeal.main_arg10) = m ((c : Thread Cert.KernelIdeal.nD Cert.KernelIdeal.τ).loc Cert.KernelIdeal.main_arg10) :=
  (show YA1 m' c (Proc.devRef .tc Cert.ReferenceIdeal.main_arg10) = YB0 m' c (Proc.devRef .tc Cert.ReferenceIdeal.main_arg10) by keepR).trans (YB0_main_arg10 m m' c e10)
include e10 in
theorem YB1_main_arg10 : YB1 m' c (Proc.devRef .tc Cert.ReferenceIdeal.main_arg10) = m ((c : Thread Cert.KernelIdeal.nD Cert.KernelIdeal.τ).loc Cert.KernelIdeal.main_arg10) :=
  (show YB1 m' c (Proc.devRef .tc Cert.ReferenceIdeal.main_arg10) = YA1 m' c (Proc.devRef .tc Cert.ReferenceIdeal.main_arg10) by keepR).trans (YA1_main_arg10 m m' c e10)
include e10 in
theorem YA2_main_arg10 : YA2 m' c (Proc.devRef .tc Cert.ReferenceIdeal.main_arg10) = m ((c : Thread Cert.KernelIdeal.nD Cert.KernelIdeal.τ).loc Cert.KernelIdeal.main_arg10) :=
  (show YA2 m' c (Proc.devRef .tc Cert.ReferenceIdeal.main_arg10) = YB1 m' c (Proc.devRef .tc Cert.ReferenceIdeal.main_arg10) by keepR).trans (YB1_main_arg10 m m' c e10)
include e10 in
theorem YB2_main_arg10 : YB2 m' c (Proc.devRef .tc Cert.ReferenceIdeal.main_arg10) = m ((c : Thread Cert.KernelIdeal.nD Cert.KernelIdeal.τ).loc Cert.KernelIdeal.main_arg10) :=
  (show YB2 m' c (Proc.devRef .tc Cert.ReferenceIdeal.main_arg10) = YA2 m' c (Proc.devRef .tc Cert.ReferenceIdeal.main_arg10) by keepR).trans (YA2_main_arg10 m m' c e10)
include e10 in
theorem YA3_main_arg10 : YA3 m' c (Proc.devRef .tc Cert.ReferenceIdeal.main_arg10) = m ((c : Thread Cert.KernelIdeal.nD Cert.KernelIdeal.τ).loc Cert.KernelIdeal.main_arg10) :=
  (show YA3 m' c (Proc.devRef .tc Cert.ReferenceIdeal.main_arg10) = YB2 m' c (Proc.devRef .tc Cert.ReferenceIdeal.main_arg10) by keepR).trans (YB2_main_arg10 m m' c e10)
include e10 in
theorem YB3_main_arg10 : YB3 m' c (Proc.devRef .tc Cert.ReferenceIdeal.main_arg10) = m ((c : Thread Cert.KernelIdeal.nD Cert.KernelIdeal.τ).loc Cert.KernelIdeal.main_arg10) :=
  (show YB3 m' c (Proc.devRef .tc Cert.ReferenceIdeal.main_arg10) = YA3 m' c (Proc.devRef .tc Cert.ReferenceIdeal.main_arg10) by keepR).trans (YA3_main_arg10 m m' c e10)
include e10 in
theorem YA4_main_arg10 : YA4 m' c (Proc.devRef .tc Cert.ReferenceIdeal.main_arg10) = m ((c : Thread Cert.KernelIdeal.nD Cert.KernelIdeal.τ).loc Cert.KernelIdeal.main_arg10) :=
  (show YA4 m' c (Proc.devRef .tc Cert.ReferenceIdeal.main_arg10) = YB3 m' c (Proc.devRef .tc Cert.ReferenceIdeal.main_arg10) by keepR).trans (YB3_main_arg10 m m' c e10)

/-! ## The index vectors, the in-degree column and the node features through the reference's later stretches -/

theorem YB0_main_v1 : YB0 m' c (Proc.devRef .tc Cert.ReferenceIdeal.main_v1) = YA0 m' c (Proc.devRef .tc Cert.ReferenceIdeal.main_v1) :=
  (show YB0 m' c (Proc.devRef .tc Cert.ReferenceIdeal.main_v1) = YA0 m' c (Proc.devRef .tc Cert.ReferenceIdeal.main_v1) by keepR)
theorem YA1_main_v1 : YA1 m' c (Proc.devRef .tc Cert.ReferenceIdeal.main_v1) = YA0 m' c (Proc.devRef .tc Cert.ReferenceIdeal.main_v1) :=
  (show YA1 m' c (Proc.devRef .tc Cert.ReferenceIdeal.main_v1) = YB0 m' c (Proc.devRef .tc Cert.ReferenceIdeal.main_v1) by keepR).trans (YB0_main_v1 m' c)
theorem YB1_main_v1 : YB1 m' c (Proc.devRef .tc Cert.ReferenceIdeal.main_v1) = YA0 m' c (Proc.devRef .tc Cert.ReferenceIdeal.main_v1) :=
  (show YB1 m' c (Proc.devRef .tc Cert.ReferenceIdeal.main_v1) = YA1 m' c (Proc.devRef .tc Cert.ReferenceIdeal.main_v1) by keepR).trans (YA1_main_v1 m' c)
theorem YA2_main_v1 : YA2 m' c (Proc.devRef .tc Cert.ReferenceIdeal.main_v1) = YA0 m' c (Proc.devRef .tc Cert.ReferenceIdeal.main_v1) :=
  (show YA2 m' c (Proc.devRef .tc Cert.ReferenceIdeal.main_v1) = YB1 m' c (Proc.devRef .tc Cert.ReferenceIdeal.main_v1) by keepR).trans (YB1_main_v1 m' c)
theorem YB2_main_v1 : YB2 m' c (Proc.devRef .tc Cert.ReferenceIdeal.main_v1) = YA0 m' c (Proc.devRef .tc Cert.ReferenceIdeal.main_v1) :=
  (show YB2 m' c (Proc.devRef .tc Cert.ReferenceIdeal.main_v1) = YA2 m' c (Proc.devRef .tc Cert.ReferenceIdeal.main_v1) by keepR).trans (YA2_main_v1 m' c)
theorem YB0_main_v3 : YB0 m' c (Proc.devRef .tc Cert.ReferenceIdeal.main_v3) = YA0 m' c (Proc.devRef .tc Cert.ReferenceIdeal.main_v3) :=
  (show YB0 m' c (Proc.devRef .tc Cert.ReferenceIdeal.main_v3) = YA0 m' c (Proc.devRef .tc Cert.ReferenceIdeal.main_v3) by keepR)
theorem YA1_main_v3 : YA1 m' c (Proc.devRef .tc Cert.ReferenceIdeal.main_v3) = YA0 m' c (Proc.devRef .tc Cert.ReferenceIdeal.main_v3) :=
  (show YA1 m' c (Proc.devRef .tc Cert.ReferenceIdeal.main_v3) = YB0 m' c (Proc.devRef .tc Cert.ReferenceIdeal.main_v3) by keepR).trans (YB0_main_v3 m' c)
theorem YB1_main_v3 : YB1 m' c (Proc.devRef .tc Cert.ReferenceIdeal.main_v3) = YA0 m' c (Proc.devRef .tc Cert.ReferenceIdeal.main_v3) :=
  (show YB1 m' c (Proc.devRef .tc Cert.ReferenceIdeal.main_v3) = YA1 m' c (Proc.devRef .tc Cert.ReferenceIdeal.main_v3) by keepR).trans (YA1_main_v3 m' c)
theorem YA2_main_v3 : YA2 m' c (Proc.devRef .tc Cert.ReferenceIdeal.main_v3) = YA0 m' c (Proc.devRef .tc Cert.ReferenceIdeal.main_v3) :=
  (show YA2 m' c (Proc.devRef .tc Cert.ReferenceIdeal.main_v3) = YB1 m' c (Proc.devRef .tc Cert.ReferenceIdeal.main_v3) by keepR).trans (YB1_main_v3 m' c)
theorem YB2_main_v3 : YB2 m' c (Proc.devRef .tc Cert.ReferenceIdeal.main_v3) = YA0 m' c (Proc.devRef .tc Cert.ReferenceIdeal.main_v3) :=
  (show YB2 m' c (Proc.devRef .tc Cert.ReferenceIdeal.main_v3) = YA2 m' c (Proc.devRef .tc Cert.ReferenceIdeal.main_v3) by keepR).trans (YA2_main_v3 m' c)
theorem YB2_main_v65 : YB2 m' c (Proc.devRef .tc Cert.ReferenceIdeal.main_v65) = YA2 m' c (Proc.devRef .tc Cert.ReferenceIdeal.main_v65) := by keepR
theorem YA1_main_v36 : YA1 m' c (Proc.devRef .tc Cert.ReferenceIdeal.main_v36) = YB0 m' c (Proc.devRef .tc Cert.ReferenceIdeal.main_v36) := by keepR
theorem YA2_main_v59 : YA2 m' c (Proc.devRef .tc Cert.ReferenceIdeal.main_v59) = YB1 m' c (Proc.devRef .tc Cert.ReferenceIdeal.main_v59) := by keepR
theorem YA3_main_v90 : YA3 m' c (Proc.devRef .tc Cert.ReferenceIdeal.main_v90) = YB2 m' c (Proc.devRef .tc Cert.ReferenceIdeal.main_v90) := by keepR

/-! ## Layer by layer -/

include e0 e1 in
/-- Before region 0 both sides hold the same aggregate. -/
theorem V3_agg : V3 m ρ c Cert.KernelIdeal.main_v23 = YA0 m' c (Proc.devRef .tc Cert.ReferenceIdeal.main_v23) := by
  show W3 m ρ c (Proc.devRef .tc Cert.KernelIdeal.main_v23) = _
  rw [W3_eq]; exact agg0 _ _ (e0.symm) (e1.symm)
include e0 in
theorem V3_feat : V3 m ρ c Cert.KernelIdeal.main_v13 = YA0 m' c (Proc.devRef .tc Cert.ReferenceIdeal.main_v13) := by
  show W3 m ρ c (Proc.devRef .tc Cert.KernelIdeal.main_v13) = _
  rw [W3_eq]; exact feat0 _ _ (e0.symm)
include e1 in
theorem W3_src : W3 m ρ c (Proc.devRef .tc Cert.KernelIdeal.main_v1) = YA0 m' c (Proc.devRef .tc Cert.ReferenceIdeal.main_v1) := by
  rw [W3_eq]; exact src0 _ _ (e1.symm)
include e1 in
theorem W3_dst : W3 m ρ c (Proc.devRef .tc Cert.KernelIdeal.main_v3) = YA0 m' c (Proc.devRef .tc Cert.ReferenceIdeal.main_v3) := by
  rw [W3_eq]; exact dst0 _ _ (e1.symm)
include e3 in
theorem V3_wa : V3 m ρ c Cert.KernelIdeal.main_v25 = YB0 m' c (Proc.devRef .tc Cert.ReferenceIdeal.main_v25) := by
  show W3 m ρ c (Proc.devRef .tc Cert.KernelIdeal.main_v25) = _
  rw [W3_eq]; exact wa0 _ _ ((YA0_main_arg3 m m' c e3).symm)
include e5 in
theorem V3_wb : V3 m ρ c Cert.KernelIdeal.main_v27 = YB0 m' c (Proc.devRef .tc Cert.ReferenceIdeal.main_v33) := by
  show W3 m ρ c (Proc.devRef .tc Cert.KernelIdeal.main_v27) = _
  rw [W3_eq]; exact wb0 _ _ ((YA0_main_arg5 m m' c e5).symm)
include e4 in
theorem V3_bias : V3 m ρ c Cert.KernelIdeal.main_v30 = YB0 m' c (Proc.devRef .tc Cert.ReferenceIdeal.main_v29) := by
  show W3 m ρ c (Proc.devRef .tc Cert.KernelIdeal.main_v30) = _
  rw [W3_eq]; exact bias0 _ _ ((YA0_main_arg4 m m' c e4).symm)

include e0 e1 e3 e4 e5 in
/-- After the first layer the node features agree. -/
theorem W4_feat : W4 m ρ c (Proc.devRef .tc Cert.KernelIdeal.main_v31) = YB0 m' c (Proc.devRef .tc Cert.ReferenceIdeal.main_v36) :=
  calc W4 m ρ c (Proc.devRef .tc Cert.KernelIdeal.main_v31)
      = (dat0 (F := Ideal) (V3 m ρ) c).arrAt 5 Cert.KernelIdeal.cfg0.N := W4_arr m ρ c 5
    _ = denseRelu (V3 m ρ c Cert.KernelIdeal.main_v23) (V3 m ρ c Cert.KernelIdeal.main_v13) (V3 m ρ c Cert.KernelIdeal.main_v25)
          (V3 m ρ c Cert.KernelIdeal.main_v27) (V3 m ρ c Cert.KernelIdeal.main_v30) := out0 (V3 m ρ) c
    _ = YB0 m' c (Proc.devRef .tc Cert.ReferenceIdeal.main_v36) := by
        rw [V3_agg m ρ m' c e0 e1, V3_feat m ρ m' c e0, V3_wa m ρ m' c e3, V3_wb m ρ m' c e5, V3_bias m ρ m' c e4]
        exact (blk0 (YA0 m' c)).symm
include e1 in
theorem W4_src : W4 m ρ c (Proc.devRef .tc Cert.KernelIdeal.main_v1) = YB0 m' c (Proc.devRef .tc Cert.ReferenceIdeal.main_v1) :=
  (W4_main_v1 m ρ c).trans ((W3_src m ρ m' c e1).trans (YB0_main_v1 m' c).symm)
include e1 in
theorem W4_dst : W4 m ρ c (Proc.devRef .tc Cert.KernelIdeal.main_v3) = YB0 m' c (Proc.devRef .tc Cert.ReferenceIdeal.main_v3) :=
  (W4_main_v3 m ρ c).trans ((W3_dst m ρ m' c e1).trans (YB0_main_v3 m' c).symm)

include e0 e1 e3 e4 e5 in
theorem V5_agg : V5 m ρ c Cert.KernelIdeal.main_v41 = YA1 m' c (Proc.devRef .tc Cert.ReferenceIdeal.main_v46) :=
  agg1 (W4 m ρ c) (YB0 m' c) (W4_feat m ρ m' c e0 e1 e3 e4 e5) (W4_src m ρ m' c e1) (W4_dst m ρ m' c e1)
include e0 e1 e3 e4 e5 in
theorem V5_feat : V5 m ρ c Cert.KernelIdeal.main_v31 = YA1 m' c (Proc.devRef .tc Cert.ReferenceIdeal.main_v36) :=
  (keep_hostOps1_main_v31 _).trans ((W4_feat m ρ m' c e0 e1 e3 e4 e5).trans (YA1_main_v36 m' c).symm)
include e3 in
theorem V5_wa : V5 m ρ c Cert.KernelIdeal.main_v43 = YB1 m' c (Proc.devRef .tc Cert.ReferenceIdeal.main_v48) :=
  wa1 (W4 m ρ c) (YA1 m' c) ((W4_main_arg3 m ρ c).trans (YA1_main_arg3 m m' c e3).symm)
include e5 in
theorem V5_wb : V5 m ρ c Cert.KernelIdeal.main_v45 = YB1 m' c (Proc.devRef .tc Cert.ReferenceIdeal.main_v56) :=
  wb1 (W4 m ρ c) (YA1 m' c) ((W4_main_arg5 m ρ c).trans (YA1_main_arg5 m m' c e5).symm)
include e4 in
theorem V5_bias : V5 m ρ c Cert.KernelIdeal.main_v48 = YB1 m' c (Proc.devRef .tc Cert.ReferenceIdeal.main_v52) :=
  bias1 (W4 m ρ c) (YA1 m' c) ((W4_main_arg4 m ρ c).trans (YA1_main_arg4 m m' c e4).symm)

include e0 e1 e3 e4 e5 in
/-- After the second layer the node features agree. -/
theorem W6_feat : W6 m ρ c (Proc.devRef .tc Cert.KernelIdeal.main_v49) = YB1 m' c (Proc.devRef .tc Cert.ReferenceIdeal.main_v59) :=
  calc W6 m ρ c (Proc.devRef .tc Cert.KernelIdeal.main_v49)
      = (dat1 (F := Ideal) (V5 m ρ) c).arrAt 5 Cert.KernelIdeal.cfg1.N := W6_arr m ρ c 5
    _ = denseRelu (V5 m ρ c Cert.KernelIdeal.main_v41) (V5 m ρ c Cert.KernelIdeal.main_v31) (V5 m ρ c Cert.KernelIdeal.main_v43)
          (V5 m ρ c Cert.KernelIdeal.main_v45) (V5 m ρ c Cert.KernelIdeal.main_v48) := out1 (V5 m ρ) c
    _ = YB1 m' c (Proc.devRef .tc Cert.ReferenceIdeal.main_v59) := by
        rw [V5_agg m ρ m' c e0 e1 e3 e4 e5, V5_feat m ρ m' c e0 e1 e3 e4 e5, V5_wa m ρ m' c e3, V5_wb m ρ m' c e5, V5_bias m ρ m' c e4]
        exact (blk1 (YA1 m' c)).symm
include e1 in
theorem W6_src : W6 m ρ c (Proc.devRef .tc Cert.KernelIdeal.main_v1) = YB1 m' c (Proc.devRef .tc Cert.ReferenceIdeal.main_v1) :=
  (W6_main_v1 m ρ c).trans ((W3_src m ρ m' c e1).trans (YB1_main_v1 m' c).symm)
include e1 in
theorem W6_dst : W6 m ρ c (Proc.devRef .tc Cert.KernelIdeal.main_v3) = YB1 m' c (Proc.devRef .tc Cert.ReferenceIdeal.main_v3) :=
  (W6_main_v3 m ρ c).trans ((W3_dst m ρ m' c e1).trans (YB1_main_v3 m' c).symm)

include e0 e1 e3 e4 e5 in
theorem V9_agg : V9 m ρ c Cert.KernelIdeal.main_v67 = YA2 m' c (Proc.devRef .tc Cert.ReferenceIdeal.main_v77) := by
  show W9 m ρ c (Proc.devRef .tc Cert.KernelIdeal.main_v67) = _
  rw [W9_eq]; exact agg2 _ _ (W6_feat m ρ m' c e0 e1 e3 e4 e5) (W6_src m ρ m' c e1) (W6_dst m ρ m' c e1)
include e1 in
theorem W9_deg : W9 m ρ c (Proc.devRef .tc Cert.KernelIdeal.main_v55) = YA2 m' c (Proc.devRef .tc Cert.ReferenceIdeal.main_v65) := by
  rw [W9_eq]; exact deg2 _ _ (W6_dst m ρ m' c e1)
include e0 e1 e3 e4 e5 in
theorem V9_feat : V9 m ρ c Cert.KernelIdeal.main_v49 = YA2 m' c (Proc.devRef .tc Cert.ReferenceIdeal.main_v59) := by
  show W9 m ρ c (Proc.devRef .tc Cert.KernelIdeal.main_v49) = _
  rw [W9_eq]; exact (keep_hostA2_main_v49 _).trans ((W6_feat m ρ m' c e0 e1 e3 e4 e5).trans (YA2_main_v59 m' c).symm)
include e6 in
theorem V9_wa : V9 m ρ c Cert.KernelIdeal.main_v69 = YB2 m' c (Proc.devRef .tc Cert.ReferenceIdeal.main_v79) := by
  show W9 m ρ c (Proc.devRef .tc Cert.KernelIdeal.main_v69) = _
  rw [W9_eq]; exact wa2 _ _ ((W6_main_arg6 m ρ c).trans (YA2_main_arg6 m m' c e6).symm)
include e8 in
theorem V9_wb : V9 m ρ c Cert.KernelIdeal.main_v71 = YB2 m' c (Proc.devRef .tc Cert.ReferenceIdeal.main_v87) := by
  show W9 m ρ c (Proc.devRef .tc Cert.KernelIdeal.main_v71) = _
  rw [W9_eq]; exact wb2 _ _ ((W6_main_arg8 m ρ c).trans (YA2_main_arg8 m m' c e8).symm)
include e7 in
theorem V9_bias : V9 m ρ c Cert.KernelIdeal.main_v74 = YB2 m' c (Proc.devRef .tc Cert.ReferenceIdeal.main_v83) := by
  show W9 m ρ c (Proc.devRef .tc Cert.KernelIdeal.main_v74) = _
  rw [W9_eq]; exact bias2 _ _ ((W6_main_arg7 m ρ c).trans (YA2_main_arg7 m m' c e7).symm)

include e0 e1 e3 e4 e5 e6 e7 e8 in
/-- After the third layer the node features agree. -/
theorem W10_feat : W10 m ρ c (Proc.devRef .tc Cert.KernelIdeal.main_v75) = YB2 m' c (Proc.devRef .tc Cert.ReferenceIdeal.main_v90) :=
  calc W10 m ρ c (Proc.devRef .tc Cert.KernelIdeal.main_v75)
      = (dat2 (F := Ideal) (V9 m ρ) c).arrAt 5 Cert.KernelIdeal.cfg2.N := W10_arr m ρ c 5
    _ = denseRelu (V9 m ρ c Cert.KernelIdeal.main_v67) (V9 m ρ c Cert.KernelIdeal.main_v49) (V9 m ρ c Cert.KernelIdeal.main_v69)
          (V9 m ρ c Cert.KernelIdeal.main_v71) (V9 m ρ c Cert.KernelIdeal.main_v74) := out2 (V9 m ρ) c
    _ = YB2 m' c (Proc.devRef .tc Cert.ReferenceIdeal.main_v90) := by
        rw [V9_agg m ρ m' c e0 e1 e3 e4 e5, V9_feat m ρ m' c e0 e1 e3 e4 e5, V9_wa m ρ m' c e6, V9_wb m ρ m' c e8, V9_bias m ρ m' c e7]
        exact (blk2 (YA2 m' c)).symm
include e1 in
theorem W10_src : W10 m ρ c (Proc.devRef .tc Cert.KernelIdeal.main_v1) = YB2 m' c (Proc.devRef .tc Cert.ReferenceIdeal.main_v1) :=
  (W10_main_v1 m ρ c).trans ((W3_src m ρ m' c e1).trans (YB2_main_v1 m' c).symm)
include e1 in
theorem W10_dst : W10 m ρ c (Proc.devRef .tc Cert.KernelIdeal.main_v3) = YB2 m' c (Proc.devRef .tc Cert.ReferenceIdeal.main_v3) :=
  (W10_main_v3 m ρ c).trans ((W3_dst m ρ m' c e1).trans (YB2_main_v3 m' c).symm)
include e1 in
theorem W10_deg : W10 m ρ c (Proc.devRef .tc Cert.KernelIdeal.main_v55) = YB2 m' c (Proc.devRef .tc Cert.ReferenceIdeal.main_v65) :=
  (W10_main_v55 m ρ c).trans ((W9_deg m ρ m' c e1).trans (YB2_main_v65 m' c).symm)

include e0 e1 e3 e4 e5 e6 e7 e8 in
theorem V11_agg : V11 m ρ c Cert.KernelIdeal.main_v87 = YA3 m' c (Proc.devRef .tc Cert.ReferenceIdeal.main_v102) :=
  agg3 (W10 m ρ c) (YB2 m' c) (W10_feat m ρ m' c e0 e1 e3 e4 e5 e6 e7 e8) (W10_src m ρ m' c e1) (W10_dst m ρ m' c e1) (W10_deg m ρ m' c e1)
include e0 e1 e3 e4 e5 e6 e7 e8 in
theorem V11_feat : V11 m ρ c Cert.KernelIdeal.main_v75 = YA3 m' c (Proc.devRef .tc Cert.ReferenceIdeal.main_v90) :=
  (keep_hostOps3_main_v75 _).trans ((W10_feat m ρ m' c e0 e1 e3 e4 e5 e6 e7 e8).trans (YA3_main_v90 m' c).symm)
include e6 in
theorem V11_wa : V11 m ρ c Cert.KernelIdeal.main_v89 = YB3 m' c (Proc.devRef .tc Cert.ReferenceIdeal.main_v104) :=
  wa3 (W10 m ρ c) (YA3 m' c) ((W10_main_arg6 m ρ c).trans (YA3_main_arg6 m m' c e6).symm)
include e8 in
theorem V11_wb : V11 m ρ c Cert.KernelIdeal.main_v91 = YB3 m' c (Proc.devRef .tc Cert.ReferenceIdeal.main_v112) :=
  wb3 (W10 m ρ c) (YA3 m' c) ((W10_main_arg8 m ρ c).trans (YA3_main_arg8 m m' c e8).symm)
include e7 in
theorem V11_bias : V11 m ρ c Cert.KernelIdeal.main_v94 = YB3 m' c (Proc.devRef .tc Cert.ReferenceIdeal.main_v108) :=
  bias3 (W10 m ρ c) (YA3 m' c) ((W10_main_arg7 m ρ c).trans (YA3_main_arg7 m m' c e7).symm)

include e0 e1 e3 e4 e5 e6 e7 e8 in
/-- After the fourth layer (no rectifier) the node features agree. -/
theorem W12_feat : W12 m ρ c (Proc.devRef .tc Cert.KernelIdeal.main_v95) = YB3 m' c (Proc.devRef .tc Cert.ReferenceIdeal.main_v114) :=
  calc W12 m ρ c (Proc.devRef .tc Cert.KernelIdeal.main_v95)
      = (dat3 (F := Ideal) (V11 m ρ) c).arrAt 5 Cert.KernelIdeal.cfg3.N := W12_arr m ρ c 5
    _ = dense (V11 m ρ c Cert.KernelIdeal.main_v87) (V11 m ρ c Cert.KernelIdeal.main_v75) (V11 m ρ c Cert.KernelIdeal.main_v89)
          (V11 m ρ c Cert.KernelIdeal.main_v91) (V11 m ρ c Cert.KernelIdeal.main_v94) := out3 (V11 m ρ) c
    _ = YB3 m' c (Proc.devRef .tc Cert.ReferenceIdeal.main_v114) := by
        rw [V11_agg m ρ m' c e0 e1 e3 e4 e5 e6 e7 e8, V11_feat m ρ m' c e0 e1 e3 e4 e5 e6 e7 e8, V11_wa m ρ m' c e6, V11_wb m ρ m' c e8, V11_bias m ρ m' c e7]
        exact (blk3 (YA3 m' c)).symm

include e0 e1 e2 e3 e4 e5 e6 e7 e8 in
theorem V15_pool : V15 m ρ c Cert.KernelIdeal.main_v106 = YA4 m' c (Proc.devRef .tc Cert.ReferenceIdeal.main_v125) := by
  show W15 m ρ c (Proc.devRef .tc Cert.KernelIdeal.main_v106) = _
  rw [W15_eq]; exact pool4 _ _ (W12_feat m ρ m' c e0 e1 e3 e4 e5 e6 e7 e8) ((W12_main_arg2 m ρ c).trans (YB3_main_arg2 m m' c e2).symm)
include e10 in
theorem V15_bias : V15 m ρ c Cert.KernelIdeal.main_v107 = YB4 m' c (Proc.devRef .tc Cert.ReferenceIdeal.main_v127) := by
  show W15 m ρ c (Proc.devRef .tc Cert.KernelIdeal.main_v107) = _
  rw [W15_eq]; exact bias4 _ _ ((W12_main_arg10 m ρ c).trans (YA4_main_arg10 m m' c e10).symm)
include e9 in
theorem V15_w : V15 m ρ c Cert.KernelIdeal.main_arg9 = YA4 m' c (Proc.devRef .tc Cert.ReferenceIdeal.main_arg9) :=
  (W15_main_arg9 m ρ c).trans (YA4_main_arg9 m m' c e9).symm

include e0 e1 e2 e3 e4 e5 e6 e7 e8 e9 e10 in
/-- The kernel program's result buffer ends at the reference's result. -/
theorem result_eq : W16 m ρ c (Proc.devRef .tc Cert.KernelIdeal.main_v108) = after (ops (F := Ideal)) (launchContents m' c) (Proc.devRef .tc Cert.ReferenceIdeal.main_v129) :=
  calc W16 m ρ c (Proc.devRef .tc Cert.KernelIdeal.main_v108)
      = (dat4 (F := Ideal) (V15 m ρ) c).arrAt 3 Cert.KernelIdeal.cfg4.N := W16_arr m ρ c 3
    _ = project (V15 m ρ c Cert.KernelIdeal.main_v106) (V15 m ρ c Cert.KernelIdeal.main_arg9) (V15 m ρ c Cert.KernelIdeal.main_v107) := out4 (V15 m ρ) c
    _ = YB4 m' c (Proc.devRef .tc Cert.ReferenceIdeal.main_v129) := by
        rw [V15_pool m ρ m' c e0 e1 e2 e3 e4 e5 e6 e7 e8, V15_w m ρ m' c e9, V15_bias m ρ m' c e10]
        exact (blk4 (YA4 m' c)).symm
    _ = after (ops (F := Ideal)) (launchContents m' c) (Proc.devRef .tc Cert.ReferenceIdeal.main_v129) := by rw [ops_after]

end Agree

end Cert.Bridge

end
-- ==== Proof.lean ====
/-
  The certificate of a four-layer graph network (two sum-aggregation layers, two mean-aggregation layers, a
  per-graph mean and a linear projection) whose five dense steps run as tiled kernels, against the same network
  written with whole-array products.
  The three frames: the two kernel programs by their generated frame certificates, the reference by its run
  (a straight line of host operations none of which writes an argument).  The idealization rewrote nothing.
  At the exact instance both programs end with the same result: the kernel program's run names every buffer's
  final contents (the launch memory folded through the host stretches and the regions' write-backs), the
  reference's run names the fold of its operations, and the two are compared layer by layer — between the dense
  steps both programs apply the same host operations to equal arrays; at a dense step the kernel's row blocks
  tile the array, each block the product of its rows with the whole weight matrices plus the bias row, which is
  the reference's whole-array product plus bias, entry by entry (a product into a zero accumulator and the
  host's product are the same finite sum on the extended reals; no finiteness of the inputs is used).
-/
import proofs.«172049_j60413009985910_1_alg».proof.Defs
import proofs.«172049_j60413009985910_1_alg».proof.Proof.Gen.Kernel
import proofs.«172049_j60413009985910_1_alg».proof.Proof.Gen.Kernel.Frame
import proofs.«172049_j60413009985910_1_alg».proof.Proof.Gen.KernelIdeal
import proofs.«172049_j60413009985910_1_alg».proof.Proof.Gen.KernelIdeal.Frame
import proofs.«172049_j60413009985910_1_alg».proof.Proof.Gen.ReferenceIdeal
import proofs.«172049_j60413009985910_1_alg».proof.Proof.Gen.Pre_finite_inputs
import proofs.«172049_j60413009985910_1_alg».proof.Proof.KernelRun
import proofs.«172049_j60413009985910_1_alg».proof.Proof.RefRun
import proofs.«172049_j60413009985910_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefRun.frame_ri

/-- The idealization is the program's own text read at the exact instance: nothing to preserve. -/
theorem preserves : Cert.preserves_Kernel_KernelIdeal := trivial

/-- Both idealized programs run, and end with equal results: the kernel program's result buffer at the last
    boundary's contents, which is the fold of the reference's operations at its result buffer. -/
theorem algebraic : Cert.algebraic_KernelIdeal_ReferenceIdeal := by
  intro m ρ m' ρ' _ hagree
  refine ⟨fun c => Cert.KernelIdeal.Gen.W16 m ρ c (Proc.devRef .tc Cert.KernelIdeal.main_v108), ?_, ?_⟩
  · refine (θ_run (Cert.KernelIdeal.defs (F := Ideal)) _ _).mono (fun r h c => ⟨h c Cert.KernelIdeal.main_v108 (by decide),
      (h c Cert.KernelIdeal.main_arg0 (by decide)).trans (Cert.KernelIdeal.Gen.W16_main_arg0 m ρ c),
      (h c Cert.KernelIdeal.main_arg1 (by decide)).trans (Cert.KernelIdeal.Gen.W16_main_arg1 m ρ c),
      (h c Cert.KernelIdeal.main_arg2 (by decide)).trans (Cert.KernelIdeal.Gen.W16_main_arg2 m ρ c),
      (h c Cert.KernelIdeal.main_arg3 (by decide)).trans (Cert.KernelIdeal.Gen.W16_main_arg3 m ρ c),
      (h c Cert.KernelIdeal.main_arg4 (by decide)).trans (Cert.KernelIdeal.Gen.W16_main_arg4 m ρ c),
      (h c Cert.KernelIdeal.main_arg5 (by decide)).trans (Cert.KernelIdeal.Gen.W16_main_arg5 m ρ c),
      (h c Cert.KernelIdeal.main_arg6 (by decide)).trans (Cert.KernelIdeal.Gen.W16_main_arg6 m ρ c),
      (h c Cert.KernelIdeal.main_arg7 (by decide)).trans (Cert.KernelIdeal.Gen.W16_main_arg7 m ρ c),
      (h c Cert.KernelIdeal.main_arg8 (by decide)).trans (Cert.KernelIdeal.Gen.W16_main_arg8 m ρ c),
      (h c Cert.KernelIdeal.main_arg9 (by decide)).trans (Cert.KernelIdeal.Gen.W16_main_arg9 m ρ c),
      (h c Cert.KernelIdeal.main_arg10 (by decide)).trans (Cert.KernelIdeal.Gen.W16_main_arg10 m ρ c)⟩)
      (Cert.KernelIdeal.KRun.run m ρ)
  · refine (θ_run (Cert.ReferenceIdeal.defs (F := Ideal)) _ _).mono (fun r h c => ⟨(h c Cert.ReferenceIdeal.main_v129).trans
        (Cert.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2).symm,
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _)⟩)
      (Cert.ReferenceIdeal.RefRun.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
